-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x384x1x4096 : Shape := ⟨4, ![8, 384, 1, 4096]⟩
abbrev S170x32 : Shape := ⟨2, ![170, 32]⟩
abbrev S170 : Shape := ⟨1, ![170]⟩
abbrev S172x32 : Shape := ⟨2, ![172, 32]⟩
abbrev S172 : Shape := ⟨1, ![172]⟩
abbrev S_ : Shape := ⟨0, ![]⟩

class Facts : Prop where
  bcast_S_S8x384x1x4096 : S_.BroadcastsInDim S8x384x1x4096 (![] : Fin 0 → Fin S8x384x1x4096.rank)
  reducesTo_S8x384x1x4096_S_d0_1_2_3 : S8x384x1x4096.ReducesTo [0, 1, 2, 3] S_
  h_S_ : 0 < S_.numel
  bcast_S_S170x32 : S_.BroadcastsInDim S170x32 (![] : Fin 0 → Fin S170x32.rank)
  reducesTo_S170x32_S_d0_1 : S170x32.ReducesTo [0, 1] S_
  bcast_S_S170 : S_.BroadcastsInDim S170 (![] : Fin 0 → Fin S170.rank)
  reducesTo_S170_S_d0 : S170.ReducesTo [0] S_
  bcast_S_S172x32 : S_.BroadcastsInDim S172x32 (![] : Fin 0 → Fin S172x32.rank)
  reducesTo_S172x32_S_d0_1 : S172x32.ReducesTo [0, 1] S_
  bcast_S_S172 : S_.BroadcastsInDim S172 (![] : Fin 0 → Fin S172.rank)
  reducesTo_S172_S_d0 : S172.ReducesTo [0] S_

variable [Facts]

def fn_part7 {F : FTy → Type} [FloatOps F] (main_v118 : IVec S_ 1) (main_v119 : FVec F S172 .f32) : IVec S_ 1 :=
  let main_cst_46 : FVec F S_ .f32 := constant S_ .f32 0x7F800000#32
  let main_v120 : FVec F S172 .f32 := broadcastInDim S172 ![] bcast_S_S172 main_cst_46
  let main_v121 : IVec S172 1 := cmpf .olt main_v119 main_v120
  let main_c_47 : IVec S_ 1 := constantI S_ 1 1#1
  let main_v122 : IVec S_ 1 := (fun x v => Host.reduce IntOp.andi x v reducesTo_S172_S_d0 h_S_) main_v121 main_c_47
  let main_v123 : IVec S_ 1 := andi main_v118 main_v122
  main_v123

def fn_part6 {F : FTy → Type} [FloatOps F] (main_arg21 : FVec F S170x32 .f32) (main_arg22 : FVec F S170 .f32) (main_arg23 : FVec F S172x32 .f32) (main_arg24 : FVec F S172 .f32) (main_v98 : IVec S_ 1) (main_v101 : IVec S172 1) (main_c_39 : IVec S_ 1) : IVec S_ 1 :=
  let main_v102 : IVec S_ 1 := (fun x v => Host.reduce IntOp.andi x v reducesTo_S172_S_d0 h_S_) main_v101 main_c_39
  let main_v103 : IVec S_ 1 := andi main_v98 main_v102
  let main_v104 : FVec F S170x32 .f32 := Host.absf main_arg21
  let main_cst_40 : FVec F S_ .f32 := constant S_ .f32 0x7F800000#32
  let main_v105 : FVec F S170x32 .f32 := broadcastInDim S170x32 ![] bcast_S_S170x32 main_cst_40
  let main_v106 : IVec S170x32 1 := cmpf .olt main_v104 main_v105
  let main_c_41 : IVec S_ 1 := constantI S_ 1 1#1
  let main_v107 : IVec S_ 1 := (fun x v => Host.reduce IntOp.andi x v reducesTo_S170x32_S_d0_1 h_S_) main_v106 main_c_41
  let main_v108 : IVec S_ 1 := andi main_v103 main_v107
  let main_v109 : FVec F S170 .f32 := Host.absf main_arg22
  let main_cst_42 : FVec F S_ .f32 := constant S_ .f32 0x7F800000#32
  let main_v110 : FVec F S170 .f32 := broadcastInDim S170 ![] bcast_S_S170 main_cst_42
  let main_v111 : IVec S170 1 := cmpf .olt main_v109 main_v110
  let main_c_43 : IVec S_ 1 := constantI S_ 1 1#1
  let main_v112 : IVec S_ 1 := (fun x v => Host.reduce IntOp.andi x v reducesTo_S170_S_d0 h_S_) main_v111 main_c_43
  let main_v113 : IVec S_ 1 := andi main_v108 main_v112
  let main_v114 : FVec F S172x32 .f32 := Host.absf main_arg23
  let main_cst_44 : FVec F S_ .f32 := constant S_ .f32 0x7F800000#32
  let main_v115 : FVec F S172x32 .f32 := broadcastInDim S172x32 ![] bcast_S_S172x32 main_cst_44
  let main_v116 : IVec S172x32 1 := cmpf .olt main_v114 main_v115
  let main_c_45 : IVec S_ 1 := constantI S_ 1 1#1
  let main_v117 : IVec S_ 1 := (fun x v => Host.reduce IntOp.andi x v reducesTo_S172x32_S_d0_1 h_S_) main_v116 main_c_45
  let main_v118 : IVec S_ 1 := andi main_v113 main_v117
  let main_v119 : FVec F S172 .f32 := Host.absf main_arg24
  fn_part7 (F := F) main_v118 main_v119

def fn_part5 {F : FTy → Type} [FloatOps F] (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v83 : IVec S_ 1) (main_v84 : FVec F S170x32 .f32) (main_cst_32 : FVec F S_ .f32) : IVec S_ 1 :=
  let main_v85 : FVec F S170x32 .f32 := broadcastInDim S170x32 ![] bcast_S_S170x32 main_cst_32
  let main_v86 : IVec S170x32 1 := cmpf .olt main_v84 main_v85
  let main_c_33 : IVec S_ 1 := constantI S_ 1 1#1
  let main_v87 : IVec S_ 1 := (fun x v => Host.reduce IntOp.andi x v reducesTo_S170x32_S_d0_1 h_S_) main_v86 main_c_33
  let main_v88 : IVec S_ 1 := andi main_v83 main_v87
  let main_v89 : FVec F S170 .f32 := Host.absf main_arg18
  let main_cst_34 : FVec F S_ .f32 := constant S_ .f32 0x7F800000#32
  let main_v90 : FVec F S170 .f32 := broadcastInDim S170 ![] bcast_S_S170 main_cst_34
  let main_v91 : IVec S170 1 := cmpf .olt main_v89 main_v90
  let main_c_35 : IVec S_ 1 := constantI S_ 1 1#1
  let main_v92 : IVec S_ 1 := (fun x v => Host.reduce IntOp.andi x v reducesTo_S170_S_d0 h_S_) main_v91 main_c_35
  let main_v93 : IVec S_ 1 := andi main_v88 main_v92
  let main_v94 : FVec F S172x32 .f32 := Host.absf main_arg19
  let main_cst_36 : FVec F S_ .f32 := constant S_ .f32 0x7F800000#32
  let main_v95 : FVec F S172x32 .f32 := broadcastInDim S172x32 ![] bcast_S_S172x32 main_cst_36
  let main_v96 : IVec S172x32 1 := cmpf .olt main_v94 main_v95
  let main_c_37 : IVec S_ 1 := constantI S_ 1 1#1
  let main_v97 : IVec S_ 1 := (fun x v => Host.reduce IntOp.andi x v reducesTo_S172x32_S_d0_1 h_S_) main_v96 main_c_37
  let main_v98 : IVec S_ 1 := andi main_v93 main_v97
  let main_v99 : FVec F S172 .f32 := Host.absf main_arg20
  let main_cst_38 : FVec F S_ .f32 := constant S_ .f32 0x7F800000#32
  let main_v100 : FVec F S172 .f32 := broadcastInDim S172 ![] bcast_S_S172 main_cst_38
  let main_v101 : IVec S172 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v63 : IVec S_ 1) (main_v67 : IVec S_ 1) : IVec S_ 1 :=
  let main_v68 : IVec S_ 1 := andi main_v63 main_v67
  let main_v69 : FVec F S170 .f32 := Host.absf main_arg14
  let main_cst_26 : FVec F S_ .f32 := constant S_ .f32 0x7F800000#32
  let main_v70 : FVec F S170 .f32 := broadcastInDim S170 ![] bcast_S_S170 main_cst_26
  let main_v71 : IVec S170 1 := cmpf .olt main_v69 main_v70
  let main_c_27 : IVec S_ 1 := constantI S_ 1 1#1
  let main_v72 : IVec S_ 1 := (fun x v => Host.reduce IntOp.andi x v reducesTo_S170_S_d0 h_S_) main_v71 main_c_27
  let main_v73 : IVec S_ 1 := andi main_v68 main_v72
  let main_v74 : FVec F S172x32 .f32 := Host.absf main_arg15
  let main_cst_28 : FVec F S_ .f32 := constant S_ .f32 0x7F800000#32
  let main_v75 : FVec F S172x32 .f32 := broadcastInDim S172x32 ![] bcast_S_S172x32 main_cst_28
  let main_v76 : IVec S172x32 1 := cmpf .olt main_v74 main_v75
  let main_c_29 : IVec S_ 1 := constantI S_ 1 1#1
  let main_v77 : IVec S_ 1 := (fun x v => Host.reduce IntOp.andi x v reducesTo_S172x32_S_d0_1 h_S_) main_v76 main_c_29
  let main_v78 : IVec S_ 1 := andi main_v73 main_v77
  let main_v79 : FVec F S172 .f32 := Host.absf main_arg16
  let main_cst_30 : FVec F S_ .f32 := constant S_ .f32 0x7F800000#32
  let main_v80 : FVec F S172 .f32 := broadcastInDim S172 ![] bcast_S_S172 main_cst_30
  let main_v81 : IVec S172 1 := cmpf .olt main_v79 main_v80
  let main_c_31 : IVec S_ 1 := constantI S_ 1 1#1
  let main_v82 : IVec S_ 1 := (fun x v => Host.reduce IntOp.andi x v reducesTo_S172_S_d0 h_S_) main_v81 main_c_31
  let main_v83 : IVec S_ 1 := andi main_v78 main_v82
  let main_v84 : FVec F S170x32 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S170x32 .f32) (main_arg12 : FVec F S170 .f32) (main_arg13 : FVec F S170x32 .f32) (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v48 : IVec S_ 1) (main_v49 : FVec F S172 .f32) (main_v50 : FVec F S172 .f32) : IVec S_ 1 :=
  let main_v51 : IVec S172 1 := cmpf .olt main_v49 main_v50
  let main_c_19 : IVec S_ 1 := constantI S_ 1 1#1
  let main_v52 : IVec S_ 1 := (fun x v => Host.reduce IntOp.andi x v reducesTo_S172_S_d0 h_S_) main_v51 main_c_19
  let main_v53 : IVec S_ 1 := andi main_v48 main_v52
  let main_v54 : FVec F S170x32 .f32 := Host.absf main_arg11
  let main_cst_20 : FVec F S_ .f32 := constant S_ .f32 0x7F800000#32
  let main_v55 : FVec F S170x32 .f32 := broadcastInDim S170x32 ![] bcast_S_S170x32 main_cst_20
  let main_v56 : IVec S170x32 1 := cmpf .olt main_v54 main_v55
  let main_c_21 : IVec S_ 1 := constantI S_ 1 1#1
  let main_v57 : IVec S_ 1 := (fun x v => Host.reduce IntOp.andi x v reducesTo_S170x32_S_d0_1 h_S_) main_v56 main_c_21
  let main_v58 : IVec S_ 1 := andi main_v53 main_v57
  let main_v59 : FVec F S170 .f32 := Host.absf main_arg12
  let main_cst_22 : FVec F S_ .f32 := constant S_ .f32 0x7F800000#32
  let main_v60 : FVec F S170 .f32 := broadcastInDim S170 ![] bcast_S_S170 main_cst_22
  let main_v61 : IVec S170 1 := cmpf .olt main_v59 main_v60
  let main_c_23 : IVec S_ 1 := constantI S_ 1 1#1
  let main_v62 : IVec S_ 1 := (fun x v => Host.reduce IntOp.andi x v reducesTo_S170_S_d0 h_S_) main_v61 main_c_23
  let main_v63 : IVec S_ 1 := andi main_v58 main_v62
  let main_v64 : FVec F S170x32 .f32 := Host.absf main_arg13
  let main_cst_24 : FVec F S_ .f32 := constant S_ .f32 0x7F800000#32
  let main_v65 : FVec F S170x32 .f32 := broadcastInDim S170x32 ![] bcast_S_S170x32 main_cst_24
  let main_v66 : IVec S170x32 1 := cmpf .olt main_v64 main_v65
  let main_c_25 : IVec S_ 1 := constantI S_ 1 1#1
  let main_v67 : IVec S_ 1 := (fun x v => Host.reduce IntOp.andi x v reducesTo_S170x32_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S170x32 .f32) (main_arg8 : FVec F S170 .f32) (main_arg9 : FVec F S172x32 .f32) (main_arg10 : FVec F S172 .f32) (main_arg11 : FVec F S170x32 .f32) (main_arg12 : FVec F S170 .f32) (main_arg13 : FVec F S170x32 .f32) (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v33 : IVec S_ 1) : IVec S_ 1 :=
  let main_v34 : FVec F S170x32 .f32 := Host.absf main_arg7
  let main_cst_12 : FVec F S_ .f32 := constant S_ .f32 0x7F800000#32
  let main_v35 : FVec F S170x32 .f32 := broadcastInDim S170x32 ![] bcast_S_S170x32 main_cst_12
  let main_v36 : IVec S170x32 1 := cmpf .olt main_v34 main_v35
  let main_c_13 : IVec S_ 1 := constantI S_ 1 1#1
  let main_v37 : IVec S_ 1 := (fun x v => Host.reduce IntOp.andi x v reducesTo_S170x32_S_d0_1 h_S_) main_v36 main_c_13
  let main_v38 : IVec S_ 1 := andi main_v33 main_v37
  let main_v39 : FVec F S170 .f32 := Host.absf main_arg8
  let main_cst_14 : FVec F S_ .f32 := constant S_ .f32 0x7F800000#32
  let main_v40 : FVec F S170 .f32 := broadcastInDim S170 ![] bcast_S_S170 main_cst_14
  let main_v41 : IVec S170 1 := cmpf .olt main_v39 main_v40
  let main_c_15 : IVec S_ 1 := constantI S_ 1 1#1
  let main_v42 : IVec S_ 1 := (fun x v => Host.reduce IntOp.andi x v reducesTo_S170_S_d0 h_S_) main_v41 main_c_15
  let main_v43 : IVec S_ 1 := andi main_v38 main_v42
  let main_v44 : FVec F S172x32 .f32 := Host.absf main_arg9
  let main_cst_16 : FVec F S_ .f32 := constant S_ .f32 0x7F800000#32
  let main_v45 : FVec F S172x32 .f32 := broadcastInDim S172x32 ![] bcast_S_S172x32 main_cst_16
  let main_v46 : IVec S172x32 1 := cmpf .olt main_v44 main_v45
  let main_c_17 : IVec S_ 1 := constantI S_ 1 1#1
  let main_v47 : IVec S_ 1 := (fun x v => Host.reduce IntOp.andi x v reducesTo_S172x32_S_d0_1 h_S_) main_v46 main_c_17
  let main_v48 : IVec S_ 1 := andi main_v43 main_v47
  let main_v49 : FVec F S172 .f32 := Host.absf main_arg10
  let main_cst_18 : FVec F S_ .f32 := constant S_ .f32 0x7F800000#32
  let main_v50 : FVec F S172 .f32 := broadcastInDim S172 ![] bcast_S_S172 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S170 .f32) (main_arg5 : FVec F S172x32 .f32) (main_arg6 : FVec F S172 .f32) (main_arg7 : FVec F S170x32 .f32) (main_arg8 : FVec F S170 .f32) (main_arg9 : FVec F S172x32 .f32) (main_arg10 : FVec F S172 .f32) (main_arg11 : FVec F S170x32 .f32) (main_arg12 : FVec F S170 .f32) (main_arg13 : FVec F S170x32 .f32) (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) (main_v13 : IVec S_ 1) (main_v16 : IVec S170x32 1) : IVec S_ 1 :=
  let main_c_5 : IVec S_ 1 := constantI S_ 1 1#1
  let main_v17 : IVec S_ 1 := (fun x v => Host.reduce IntOp.andi x v reducesTo_S170x32_S_d0_1 h_S_) main_v16 main_c_5
  let main_v18 : IVec S_ 1 := andi main_v13 main_v17
  let main_v19 : FVec F S170 .f32 := Host.absf main_arg4
  let main_cst_6 : FVec F S_ .f32 := constant S_ .f32 0x7F800000#32
  let main_v20 : FVec F S170 .f32 := broadcastInDim S170 ![] bcast_S_S170 main_cst_6
  let main_v21 : IVec S170 1 := cmpf .olt main_v19 main_v20
  let main_c_7 : IVec S_ 1 := constantI S_ 1 1#1
  let main_v22 : IVec S_ 1 := (fun x v => Host.reduce IntOp.andi x v reducesTo_S170_S_d0 h_S_) main_v21 main_c_7
  let main_v23 : IVec S_ 1 := andi main_v18 main_v22
  let main_v24 : FVec F S172x32 .f32 := Host.absf main_arg5
  let main_cst_8 : FVec F S_ .f32 := constant S_ .f32 0x7F800000#32
  let main_v25 : FVec F S172x32 .f32 := broadcastInDim S172x32 ![] bcast_S_S172x32 main_cst_8
  let main_v26 : IVec S172x32 1 := cmpf .olt main_v24 main_v25
  let main_c_9 : IVec S_ 1 := constantI S_ 1 1#1
  let main_v27 : IVec S_ 1 := (fun x v => Host.reduce IntOp.andi x v reducesTo_S172x32_S_d0_1 h_S_) main_v26 main_c_9
  let main_v28 : IVec S_ 1 := andi main_v23 main_v27
  let main_v29 : FVec F S172 .f32 := Host.absf main_arg6
  let main_cst_10 : FVec F S_ .f32 := constant S_ .f32 0x7F800000#32
  let main_v30 : FVec F S172 .f32 := broadcastInDim S172 ![] bcast_S_S172 main_cst_10
  let main_v31 : IVec S172 1 := cmpf .olt main_v29 main_v30
  let main_c_11 : IVec S_ 1 := constantI S_ 1 1#1
  let main_v32 : IVec S_ 1 := (fun x v => Host.reduce IntOp.andi x v reducesTo_S172_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8x384x1x4096 .f32) (main_arg1 : FVec F S170x32 .f32) (main_arg2 : FVec F S170 .f32) (main_arg3 : FVec F S170x32 .f32) (main_arg4 : FVec F S170 .f32) (main_arg5 : FVec F S172x32 .f32) (main_arg6 : FVec F S172 .f32) (main_arg7 : FVec F S170x32 .f32) (main_arg8 : FVec F S170 .f32) (main_arg9 : FVec F S172x32 .f32) (main_arg10 : FVec F S172 .f32) (main_arg11 : FVec F S170x32 .f32) (main_arg12 : FVec F S170 .f32) (main_arg13 : FVec F S170x32 .f32) (main_arg14 : FVec F S170 .f32) (main_arg15 : FVec F S172x32 .f32) (main_arg16 : FVec F S172 .f32) (main_arg17 : FVec F S170x32 .f32) (main_arg18 : FVec F S170 .f32) (main_arg19 : FVec F S172x32 .f32) (main_arg20 : FVec F S172 .f32) (main_arg21 : FVec F S170x32 .f32) (main_arg22 : FVec F S170 .f32) (main_arg23 : FVec F S172x32 .f32) (main_arg24 : FVec F S172 .f32) : IVec S_ 1 :=
  let main_v0 : FVec F S8x384x1x4096 .f32 := Host.absf main_arg0
  let main_cst : FVec F S_ .f32 := constant S_ .f32 0x7F800000#32
  let main_v1 : FVec F S8x384x1x4096 .f32 := broadcastInDim S8x384x1x4096 ![] bcast_S_S8x384x1x4096 main_cst
  let main_v2 : IVec S8x384x1x4096 1 := cmpf .olt main_v0 main_v1
  let main_c : IVec S_ 1 := constantI S_ 1 1#1
  let main_v3 : IVec S_ 1 := (fun x v => Host.reduce IntOp.andi x v reducesTo_S8x384x1x4096_S_d0_1_2_3 h_S_) main_v2 main_c
  let main_v4 : FVec F S170x32 .f32 := Host.absf main_arg1
  let main_cst_0 : FVec F S_ .f32 := constant S_ .f32 0x7F800000#32
  let main_v5 : FVec F S170x32 .f32 := broadcastInDim S170x32 ![] bcast_S_S170x32 main_cst_0
  let main_v6 : IVec S170x32 1 := cmpf .olt main_v4 main_v5
  let main_c_1 : IVec S_ 1 := constantI S_ 1 1#1
  let main_v7 : IVec S_ 1 := (fun x v => Host.reduce IntOp.andi x v reducesTo_S170x32_S_d0_1 h_S_) main_v6 main_c_1
  let main_v8 : IVec S_ 1 := andi main_v3 main_v7
  let main_v9 : FVec F S170 .f32 := Host.absf main_arg2
  let main_cst_2 : FVec F S_ .f32 := constant S_ .f32 0x7F800000#32
  let main_v10 : FVec F S170 .f32 := broadcastInDim S170 ![] bcast_S_S170 main_cst_2
  let main_v11 : IVec S170 1 := cmpf .olt main_v9 main_v10
  let main_c_3 : IVec S_ 1 := constantI S_ 1 1#1
  let main_v12 : IVec S_ 1 := (fun x v => Host.reduce IntOp.andi x v reducesTo_S170_S_d0 h_S_) main_v11 main_c_3
  let main_v13 : IVec S_ 1 := andi main_v8 main_v12
  let main_v14 : FVec F S170x32 .f32 := Host.absf main_arg3
  let main_cst_4 : FVec F S_ .f32 := constant S_ .f32 0x7F800000#32
  let main_v15 : FVec F S170x32 .f32 := broadcastInDim S170x32 ![] bcast_S_S170x32 main_cst_4
  let main_v16 : IVec S170x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8x384x1x4096 : Shape := ⟨4, ![8, 384, 1, 4096]⟩
abbrev S170x32 : Shape := ⟨2, ![170, 32]⟩
abbrev S170 : Shape := ⟨1, ![170]⟩
abbrev S172x32 : Shape := ⟨2, ![172, 32]⟩
abbrev S172 : Shape := ⟨1, ![172]⟩
abbrev S_ : Shape := ⟨0, ![]⟩
abbrev S2x1025x32x12 : Shape := ⟨4, ![2, 1025, 32, 12]⟩
abbrev S2x1025 : Shape := ⟨2, ![2, 1025]⟩
abbrev S2x85x32 : Shape := ⟨3, ![2, 85, 32]⟩
abbrev S2x85 : Shape := ⟨2, ![2, 85]⟩
abbrev S1 : Shape := ⟨1, ![1]⟩
abbrev S2 : Shape := ⟨1, ![2]⟩
abbrev S2x86x32 : Shape := ⟨3, ![2, 86, 32]⟩
abbrev S2x86 : Shape := ⟨2, ![2, 86]⟩
abbrev S2050x384 : Shape := ⟨2, ![2050, 384]⟩
abbrev S2050x1 : Shape := ⟨2, ![2050, 1]⟩
abbrev S8x384x4096 : Shape := ⟨3, ![8, 384, 4096]⟩
abbrev S8x2x1025x4096 : Shape := ⟨4, ![8, 2, 1025, 4096]⟩
abbrev S8x384x256 : Shape := ⟨3, ![8, 384, 256]⟩
abbrev S8x2x1025x256 : Shape := ⟨4, ![8, 2, 1025, 256]⟩
abbrev S1x384x256 : Shape := ⟨3, ![1, 384, 256]⟩
abbrev S384x256 : Shape := ⟨2, ![384, 256]⟩
abbrev S2050x256 : Shape := ⟨2, ![2050, 256]⟩
abbrev S2x1025x256 : Shape := ⟨3, ![2, 1025, 256]⟩
abbrev S1x2x1025x256 : Shape := ⟨4, ![1, 2, 1025, 256]⟩

abbrev nBuf : Space → Nat
  | .hbm => 165
  | .vmem => 6
  | .smem => 0
  | _ => 0

abbrev hbmTy0_0 (i : Nat) : BufTy := match i % 128 with
  | 0 => ⟨S8x384x1x4096, .f32⟩
  | 1 => ⟨S170x32, .f32⟩
  | 2 => ⟨S170, .f32⟩
  | 3 => ⟨S170x32, .f32⟩
  | 4 => ⟨S170, .f32⟩
  | 5 => ⟨S172x32, .f32⟩
  | 6 => ⟨S172, .f32⟩
  | 7 => ⟨S170x32, .f32⟩
  | 8 => ⟨S170, .f32⟩
  | 9 => ⟨S172x32, .f32⟩
  | 10 => ⟨S172, .f32⟩
  | 11 => ⟨S170x32, .f32⟩
  | 12 => ⟨S170, .f32⟩
  | 13 => ⟨S170x32, .f32⟩
  | 14 => ⟨S170, .f32⟩
  | 15 => ⟨S172x32, .f32⟩
  | 16 => ⟨S172, .f32⟩
  | 17 => ⟨S170x32, .f32⟩
  | 18 => ⟨S170, .f32⟩
  | 19 => ⟨S172x32, .f32⟩
  | 20 => ⟨S172, .f32⟩
  | 21 => ⟨S170x32, .f32⟩
  | 22 => ⟨S170, .f32⟩
  | 23 => ⟨S172x32, .f32⟩
  | 24 => ⟨S172, .f32⟩
  | 25 => ⟨S_, .f32⟩
  | 26 => ⟨S2x1025x32x12, .f32⟩
  | 27 => ⟨S_, .f32⟩
  | 28 => ⟨S2x1025, .f32⟩
  | 29 => ⟨S2x85x32, .f32⟩
  | 30 => ⟨S2x85, .f32⟩
  | 31 => ⟨S_, .i32⟩
  | 32 => ⟨S1, .i32⟩
  | 33 => ⟨S_, .i32⟩
  | 34 => ⟨S1, .i32⟩
  | 35 => ⟨S2, .i32⟩
  | 36 => ⟨S2x1025x32x12, .f32⟩
  | 37 => ⟨S_, .i32⟩
  | 38 => ⟨S1, .i32⟩
  | 39 => ⟨S2x1025, .f32⟩
  | 40 => ⟨S2x85x32, .f32⟩
  | 41 => ⟨S2x85, .f32⟩
  | 42 => ⟨S_, .i32⟩
  | 43 => ⟨S1, .i32⟩
  | 44 => ⟨S_, .i32⟩
  | 45 => ⟨S1, .i32⟩
  | 46 => ⟨S2, .i32⟩
  | 47 => ⟨S2x1025x32x12, .f32⟩
  | 48 => ⟨S_, .i32⟩
  | 49 => ⟨S1, .i32⟩
  | 50 => ⟨S2x1025, .f32⟩
  | 51 => ⟨S2x86x32, .f32⟩
  | 52 => ⟨S2x86, .f32⟩
  | 53 => ⟨S_, .i32⟩
  | 54 => ⟨S1, .i32⟩
  | 55 => ⟨S_, .i32⟩
  | 56 => ⟨S1, .i32⟩
  | 57 => ⟨S2, .i32⟩
  | 58 => ⟨S2x1025x32x12, .f32⟩
  | 59 => ⟨S_, .i32⟩
  | 60 => ⟨S1, .i32⟩
  | 61 => ⟨S2x1025, .f32⟩
  | 62 => ⟨S2x85x32, .f32⟩
  | 63 => ⟨S2x85, .f32⟩
  | 64 => ⟨S_, .i32⟩
  | 65 => ⟨S1, .i32⟩
  | 66 => ⟨S_, .i32⟩
  | 67 => ⟨S1, .i32⟩
  | 68 => ⟨S2, .i32⟩
  | 69 => ⟨S2x1025x32x12, .f32⟩
  | 70 => ⟨S_, .i32⟩
  | 71 => ⟨S1, .i32⟩
  | 72 => ⟨S2x1025, .f32⟩
  | 73 => ⟨S2x86x32, .f32⟩
  | 74 => ⟨S2x86, .f32⟩
  | 75 => ⟨S_, .i32⟩
  | 76 => ⟨S1, .i32⟩
  | 77 => ⟨S_, .i32⟩
  | 78 => ⟨S1, .i32⟩
  | 79 => ⟨S2, .i32⟩
  | 80 => ⟨S2x1025x32x12, .f32⟩
  | 81 => ⟨S_, .i32⟩
  | 82 => ⟨S1, .i32⟩
  | 83 => ⟨S2x1025, .f32⟩
  | 84 => ⟨S2x85x32, .f32⟩
  | 85 => ⟨S2x85, .f32⟩
  | 86 => ⟨S_, .i32⟩
  | 87 => ⟨S1, .i32⟩
  | 88 => ⟨S_, .i32⟩
  | 89 => ⟨S1, .i32⟩
  | 90 => ⟨S2, .i32⟩
  | 91 => ⟨S2x1025x32x12, .f32⟩
  | 92 => ⟨S_, .i32⟩
  | 93 => ⟨S1, .i32⟩
  | 94 => ⟨S2x1025, .f32⟩
  | 95 => ⟨S2x85x32, .f32⟩
  | 96 => ⟨S2x85, .f32⟩
  | 97 => ⟨S_, .i32⟩
  | 98 => ⟨S1, .i32⟩
  | 99 => ⟨S_, .i32⟩
  | 100 => ⟨S1, .i32⟩
  | 101 => ⟨S2, .i32⟩
  | 102 => ⟨S2x1025x32x12, .f32⟩
  | 103 => ⟨S_, .i32⟩
  | 104 => ⟨S1, .i32⟩
  | 105 => ⟨S2x1025, .f32⟩
  | 106 => ⟨S2x86x32, .f32⟩
  | 107 => ⟨S2x86, .f32⟩
  | 108 => ⟨S_, .i32⟩
  | 109 => ⟨S1, .i32⟩
  | 110 => ⟨S_, .i32⟩
  | 111 => ⟨S1, .i32⟩
  | 112 => ⟨S2, .i32⟩
  | 113 => ⟨S2x1025x32x12, .f32⟩
  | 114 => ⟨S_, .i32⟩
  | 115 => ⟨S1, .i32⟩
  | 116 => ⟨S2x1025, .f32⟩
  | 117 => ⟨S2x85x32, .f32⟩
  | 118 => ⟨S2x85, .f32⟩
  | 119 => ⟨S_, .i32⟩
  | 120 => ⟨S1, .i32⟩
  | 121 => ⟨S_, .i32⟩
  | 122 => ⟨S1, .i32⟩
  | 123 => ⟨S2, .i32⟩
  | 124 => ⟨S2x1025x32x12, .f32⟩
  | 125 => ⟨S_, .i32⟩
  | 126 => ⟨S1, .i32⟩
  | 127 => ⟨S2x1025, .f32⟩
  | _ => ⟨S8x384x1x4096, .f32⟩

abbrev hbmTy0_1 (i : Nat) : BufTy := match i % 128 with
  | 0 => ⟨S2x86x32, .f32⟩
  | 1 => ⟨S2x86, .f32⟩
  | 2 => ⟨S_, .i32⟩
  | 3 => ⟨S1, .i32⟩
  | 4 => ⟨S_, .i32⟩
  | 5 => ⟨S1, .i32⟩
  | 6 => ⟨S2, .i32⟩
  | 7 => ⟨S2x1025x32x12, .f32⟩
  | 8 => ⟨S_, .i32⟩
  | 9 => ⟨S1, .i32⟩
  | 10 => ⟨S2x1025, .f32⟩
  | 11 => ⟨S2x85x32, .f32⟩
  | 12 => ⟨S2x85, .f32⟩
  | 13 => ⟨S_, .i32⟩
  | 14 => ⟨S1, .i32⟩
  | 15 => ⟨S_, .i32⟩
  | 16 => ⟨S1, .i32⟩
  | 17 => ⟨S2, .i32⟩
  | 18 => ⟨S2x1025x32x12, .f32⟩
  | 19 => ⟨S_, .i32⟩
  | 20 => ⟨S1, .i32⟩
  | 21 => ⟨S2x1025, .f32⟩
  | 22 => ⟨S2x86x32, .f32⟩
  | 23 => ⟨S2x86, .f32⟩
  | 24 => ⟨S_, .i32⟩
  | 25 => ⟨S1, .i32⟩
  | 26 => ⟨S_, .i32⟩
  | 27 => ⟨S1, .i32⟩
  | 28 => ⟨S2, .i32⟩
  | 29 => ⟨S2x1025x32x12, .f32⟩
  | 30 => ⟨S_, .i32⟩
  | 31 => ⟨S1, .i32⟩
  | 32 => ⟨S2x1025, .f32⟩
  | 33 => ⟨S2050x384, .f32⟩
  | 34 => ⟨S2050x1, .f32⟩
  | 35 => ⟨S8x384x4096, .f32⟩
  | 36 => ⟨S8x2x1025x4096, .f32⟩
  | _ => ⟨S8x384x1x4096, .f32⟩

abbrev hbmTy (i : Nat) : BufTy := match i / 128 with
  | 0 => hbmTy0_0 i
  | 1 => hbmTy0_1 i
  | _ => ⟨S8x384x1x4096, .f32⟩

abbrev bufTy : (tb : Table) → Fin (tcTables nBuf tb) → BufTy
  | .hbm, ⟨i, _⟩ => hbmTy i
  | .local _ .vmem, ⟨0, _⟩ => ⟨S8x384x256, .f32⟩
  | .local _ .vmem, ⟨1, _⟩ => ⟨S8x384x256, .f32⟩
  | .local _ .vmem, ⟨2, _⟩ => ⟨S2050x384, .f32⟩
  | .local _ .vmem, ⟨3, _⟩ => ⟨S2050x1, .f32⟩
  | .local _ .vmem, ⟨4, _⟩ => ⟨S8x2x1025x256, .f32⟩
  | .local _ .vmem, ⟨5, _⟩ => ⟨S8x2x1025x256, .f32⟩
  | _, _ => ⟨S8x384x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_c_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c_3 : Ref sig .tc := ⟨.hbm, 42, rfl⟩
abbrev main_v12 : Ref sig .tc := ⟨.hbm, 43, rfl⟩
abbrev main_c_4 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c_5 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_6 : Ref sig .tc := ⟨.hbm, 53, rfl⟩
abbrev main_v20 : Ref sig .tc := ⟨.hbm, 54, rfl⟩
abbrev main_c_7 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_c_8 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_9 : Ref sig .tc := ⟨.hbm, 64, rfl⟩
abbrev main_v28 : Ref sig .tc := ⟨.hbm, 65, rfl⟩
abbrev main_c_10 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_11 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c_12 : Ref sig .tc := ⟨.hbm, 75, rfl⟩
abbrev main_v36 : Ref sig .tc := ⟨.hbm, 76, rfl⟩
abbrev main_c_13 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_c_14 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_15 : Ref sig .tc := ⟨.hbm, 86, rfl⟩
abbrev main_v44 : Ref sig .tc := ⟨.hbm, 87, rfl⟩
abbrev main_c_16 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_17 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_18 : Ref sig .tc := ⟨.hbm, 97, rfl⟩
abbrev main_v52 : Ref sig .tc := ⟨.hbm, 98, rfl⟩
abbrev main_c_19 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_20 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_c_21 : Ref sig .tc := ⟨.hbm, 108, rfl⟩
abbrev main_v60 : Ref sig .tc := ⟨.hbm, 109, rfl⟩
abbrev main_c_22 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_23 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_c_24 : Ref sig .tc := ⟨.hbm, 119, rfl⟩
abbrev main_v68 : Ref sig .tc := ⟨.hbm, 120, rfl⟩
abbrev main_c_25 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_c_26 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_c_27 : Ref sig .tc := ⟨.hbm, 130, rfl⟩
abbrev main_v76 : Ref sig .tc := ⟨.hbm, 131, rfl⟩
abbrev main_c_28 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_c_29 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_c_30 : Ref sig .tc := ⟨.hbm, 141, rfl⟩
abbrev main_v84 : Ref sig .tc := ⟨.hbm, 142, rfl⟩
abbrev main_c_31 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_c_32 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_c_33 : Ref sig .tc := ⟨.hbm, 152, rfl⟩
abbrev main_v92 : Ref sig .tc := ⟨.hbm, 153, rfl⟩
abbrev main_c_34 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_c_35 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S8x384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2050x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2050x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2x1025x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2x1025x32x12 : S_.BroadcastsInDim S2x1025x32x12 (![] : Fin 0 → Fin S2x1025x32x12.rank)
  bcast_S_S2x1025 : S_.BroadcastsInDim S2x1025 (![] : Fin 0 → Fin S2x1025.rank)
  shapeCasts_S170x32_S2x85x32 : S170x32.ShapeCasts S2x85x32
  shapeCasts_S170_S2x85 : S170.ShapeCasts S2x85
  bcast_S_S1 : S_.BroadcastsInDim S1 (![] : Fin 0 → Fin S1.rank)
  concatenates_S1_S1_S2_d0 : Shape.Concatenates [S1, S1] S2 0
  shapeCasts_S172x32_S2x86x32 : S172x32.ShapeCasts S2x86x32
  shapeCasts_S172_S2x86 : S172.ShapeCasts S2x86
  shapeCasts_S2x1025x32x12_S2050x384 : S2x1025x32x12.ShapeCasts S2050x384
  shapeCasts_S2x1025_S2050x1 : S2x1025.ShapeCasts S2050x1
  shapeCasts_S8x384x1x4096_S8x384x4096 : S8x384x1x4096.ShapeCasts S8x384x4096
  inb_S2050x384_S2050x384_0_0 : ∀ a, (![0, 0] : Fin 2 → Nat) a + S2050x384.size a ≤ S2050x384.size a
  h_S2050x384 : 0 < S2050x384.numel
  shapeCasts_S2050x384_S2050x384 : S2050x384.ShapeCasts S2050x384
  inb_S2050x1_S2050x1_0_0 : ∀ a, (![0, 0] : Fin 2 → Nat) a + S2050x1.size a ≤ S2050x1.size a
  h_S2050x1 : 0 < S2050x1.numel
  shapeCasts_S2050x1_S2050x1 : S2050x1.ShapeCasts S2050x1
  inb_S8x384x256_S1x384x256_0_0_0 : ∀ a, (![0, 0, 0] : Fin 3 → Nat) a + S1x384x256.size a ≤ S8x384x256.size a
  h_S1x384x256 : 0 < S1x384x256.numel
  shapeCasts_S1x384x256_S384x256 : S1x384x256.ShapeCasts S384x256
  broadcasts_S2050x1_S2050x256 : S2050x1.Broadcasts S2050x256
  shapeCasts_S2050x256_S2x1025x256 : S2050x256.ShapeCasts S2x1025x256
  inb_S8x2x1025x256_S1x2x1025x256_0_0_0_0 : ∀ a, (![0, 0, 0, 0] : Fin 4 → Nat) a + S1x2x1025x256.size a ≤ S8x2x1025x256.size a
  h_S1x2x1025x256 : 0 < S1x2x1025x256.numel
  shapeCasts_S1x2x1025x256_S2x1025x256 : S1x2x1025x256.ShapeCasts S2x1025x256
  shapeCasts_S2x1025x256_S1x2x1025x256 : S2x1025x256.ShapeCasts S1x2x1025x256
  inb_S8x384x256_S1x384x256_1_0_0 : ∀ a, (![1, 0, 0] : Fin 3 → Nat) a + S1x384x256.size a ≤ S8x384x256.size a
  inb_S8x2x1025x256_S1x2x1025x256_1_0_0_0 : ∀ a, (![1, 0, 0, 0] : Fin 4 → Nat) a + S1x2x1025x256.size a ≤ S8x2x1025x256.size a
  inb_S8x384x256_S1x384x256_2_0_0 : ∀ a, (![2, 0, 0] : Fin 3 → Nat) a + S1x384x256.size a ≤ S8x384x256.size a
  inb_S8x2x1025x256_S1x2x1025x256_2_0_0_0 : ∀ a, (![2, 0, 0, 0] : Fin 4 → Nat) a + S1x2x1025x256.size a ≤ S8x2x1025x256.size a
  inb_S8x384x256_S1x384x256_3_0_0 : ∀ a, (![3, 0, 0] : Fin 3 → Nat) a + S1x384x256.size a ≤ S8x384x256.size a
  inb_S8x2x1025x256_S1x2x1025x256_3_0_0_0 : ∀ a, (![3, 0, 0, 0] : Fin 4 → Nat) a + S1x2x1025x256.size a ≤ S8x2x1025x256.size a
  inb_S8x384x256_S1x384x256_4_0_0 : ∀ a, (![4, 0, 0] : Fin 3 → Nat) a + S1x384x256.size a ≤ S8x384x256.size a
  inb_S8x2x1025x256_S1x2x1025x256_4_0_0_0 : ∀ a, (![4, 0, 0, 0] : Fin 4 → Nat) a + S1x2x1025x256.size a ≤ S8x2x1025x256.size a
  inb_S8x384x256_S1x384x256_5_0_0 : ∀ a, (![5, 0, 0] : Fin 3 → Nat) a + S1x384x256.size a ≤ S8x384x256.size a
  inb_S8x2x1025x256_S1x2x1025x256_5_0_0_0 : ∀ a, (![5, 0, 0, 0] : Fin 4 → Nat) a + S1x2x1025x256.size a ≤ S8x2x1025x256.size a
  inb_S8x384x256_S1x384x256_6_0_0 : ∀ a, (![6, 0, 0] : Fin 3 → Nat) a + S1x384x256.size a ≤ S8x384x256.size a
  inb_S8x2x1025x256_S1x2x1025x256_6_0_0_0 : ∀ a, (![6, 0, 0, 0] : Fin 4 → Nat) a + S1x2x1025x256.size a ≤ S8x2x1025x256.size a
  inb_S8x384x256_S1x384x256_7_0_0 : ∀ a, (![7, 0, 0] : Fin 3 → Nat) a + S1x384x256.size a ≤ S8x384x256.size a
  inb_S8x2x1025x256_S1x2x1025x256_7_0_0_0 : ∀ a, (![7, 0, 0, 0] : Fin 4 → Nat) a + S1x2x1025x256.size a ≤ S8x2x1025x256.size a
  scatter_S2x1025x32x12_S2_S2x85x32_012_3_13_0_wf : ScatterDims.WF S2x1025x32x12 S2 S2x85x32 [0, 1, 2] [3] [1, 3] 0
  scatter_S2x1025_S1_S2x85_01_n_1_0_wf : ScatterDims.WF S2x1025 S1 S2x85 [0, 1] [] [1] 0
  scatter_S2x1025x32x12_S2_S2x86x32_012_3_13_0_wf : ScatterDims.WF S2x1025x32x12 S2 S2x86x32 [0, 1, 2] [3] [1, 3] 0
  scatter_S2x1025_S1_S2x86_01_n_1_0_wf : ScatterDims.WF S2x1025 S1 S2x86 [0, 1] [] [1] 0
  dot_S2050x384_S384x256_S2050x256_1_0_0_1_n_n_wf : DotDims.WF S2050x384 S384x256 S2050x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x384x256.size a ≤ S8x384x4096.size a
  hwx0_0 : ∀ i : grid0.Coords, EltTy.bits .f32 = 32 ∨ (Rect.block (s := S8x384x4096) S8x384x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2050x384.size a ≤ S2050x384.size a
  hwx0_1 : ∀ i : grid0.Coords, EltTy.bits .f32 = 32 ∨ (Rect.block (s := S2050x384) S2050x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2050x1.size a ≤ S2050x1.size a
  hwx0_2 : ∀ i : grid0.Coords, EltTy.bits .f32 = 32 ∨ (Rect.block (s := S2050x1) S2050x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2x1025x256.size a ≤ S8x2x1025x4096.size a
  hwx0_3 : ∀ i : grid0.Coords, EltTy.bits .f32 = 32 ∨ (Rect.block (s := S8x2x1025x4096) S8x2x1025x256.size (cc0_transform_3 i) (hinb0_3 i)).WholeWords (EltTy.packing .f32)

variable [Facts₀]

def scatter_S2x1025x32x12_S2_S2x85x32_012_3_13_0 : ScatterDims S2x1025x32x12 S2 S2x85x32 where
  updateWindowDims := [0, 1, 2]
  insertedWindowDims := [3]
  scatterDimsToOperandDims := [1, 3]
  indexVectorDim := 0
  wf := scatter_S2x1025x32x12_S2_S2x85x32_012_3_13_0_wf
def scatter_S2x1025_S1_S2x85_01_n_1_0 : ScatterDims S2x1025 S1 S2x85 where
  updateWindowDims := [0, 1]
  insertedWindowDims := []
  scatterDimsToOperandDims := [1]
  indexVectorDim := 0
  wf := scatter_S2x1025_S1_S2x85_01_n_1_0_wf
def scatter_S2x1025x32x12_S2_S2x86x32_012_3_13_0 : ScatterDims S2x1025x32x12 S2 S2x86x32 where
  updateWindowDims := [0, 1, 2]
  insertedWindowDims := [3]
  scatterDimsToOperandDims := [1, 3]
  indexVectorDim := 0
  wf := scatter_S2x1025x32x12_S2_S2x86x32_012_3_13_0_wf
def scatter_S2x1025_S1_S2x86_01_n_1_0 : ScatterDims S2x1025 S1 S2x86 where
  updateWindowDims := [0, 1]
  insertedWindowDims := []
  scatterDimsToOperandDims := [1]
  indexVectorDim := 0
  wf := scatter_S2x1025_S1_S2x86_01_n_1_0_wf
def dot_S2050x384_S384x256_S2050x256_1_0_0_1_n_n : DotDims S2050x384 S384x256 S2050x256 where
  lhsContracting := [1]
  rhsContracting := [0]
  lhsNonContracting := [0]
  rhsNonContracting := [1]
  lhsBatch := []
  rhsBatch := []
  wf := dot_S2050x384_S384x256_S2050x256_1_0_0_1_n_n_wf

abbrev win0_0 : Pipeline.Window sig grid0 :=
  Pipeline.Window.ofSpec (Memref.whole main_v100) S8x384x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v98) S2050x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v99) S2050x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v101) S8x2x1025x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x384x1x4096 : Shape := ⟨4, ![8, 384, 1, 4096]⟩
abbrev S170x32 : Shape := ⟨2, ![170, 32]⟩
abbrev S170 : Shape := ⟨1, ![170]⟩
abbrev S172x32 : Shape := ⟨2, ![172, 32]⟩
abbrev S172 : Shape := ⟨1, ![172]⟩
abbrev S8x32x12x4096 : Shape := ⟨4, ![8, 32, 12, 4096]⟩
abbrev S8x4096x12x32 : Shape := ⟨4, ![8, 4096, 12, 32]⟩
abbrev S8x4096x1x32 : Shape := ⟨4, ![8, 4096, 1, 32]⟩
abbrev S8x4096x32 : Shape := ⟨3, ![8, 4096, 32]⟩
abbrev S8x4096x170 : Shape := ⟨3, ![8, 4096, 170]⟩
abbrev S1x1x170 : Shape := ⟨3, ![1, 1, 170]⟩
abbrev S8x4096x2x85 : Shape := ⟨4, ![8, 4096, 2, 85]⟩
abbrev S8x2x85x4096 : Shape := ⟨4, ![8, 2, 85, 4096]⟩
abbrev S8x4096x172 : Shape := ⟨3, ![8, 4096, 172]⟩
abbrev S1x1x172 : Shape := ⟨3, ![1, 1, 172]⟩
abbrev S8x4096x2x86 : Shape := ⟨4, ![8, 4096, 2, 86]⟩
abbrev S8x2x86x4096 : Shape := ⟨4, ![8, 2, 86, 4096]⟩
abbrev S8x2x1025x4096 : Shape := ⟨4, ![8, 2, 1025, 4096]⟩

abbrev nBuf : Space → Nat
  | .hbm => 124
  | .vmem => 0
  | .smem => 0
  | _ => 0

abbrev bufTy : (tb : Table) → Fin (tcTables nBuf tb) → BufTy
  | .hbm, ⟨0, _⟩ => ⟨S8x384x1x4096, .f32⟩
  | .hbm, ⟨1, _⟩ => ⟨S170x32, .f32⟩
  | .hbm, ⟨2, _⟩ => ⟨S170, .f32⟩
  | .hbm, ⟨3, _⟩ => ⟨S170x32, .f32⟩
  | .hbm, ⟨4, _⟩ => ⟨S170, .f32⟩
  | .hbm, ⟨5, _⟩ => ⟨S172x32, .f32⟩
  | .hbm, ⟨6, _⟩ => ⟨S172, .f32⟩
  | .hbm, ⟨7, _⟩ => ⟨S170x32, .f32⟩
  | .hbm, ⟨8, _⟩ => ⟨S170, .f32⟩
  | .hbm, ⟨9, _⟩ => ⟨S172x32, .f32⟩
  | .hbm, ⟨10, _⟩ => ⟨S172, .f32⟩
  | .hbm, ⟨11, _⟩ => ⟨S170x32, .f32⟩
  | .hbm, ⟨12, _⟩ => ⟨S170, .f32⟩
  | .hbm, ⟨13, _⟩ => ⟨S170x32, .f32⟩
  | .hbm, ⟨14, _⟩ => ⟨S170, .f32⟩
  | .hbm, ⟨15, _⟩ => ⟨S172x32, .f32⟩
  | .hbm, ⟨16, _⟩ => ⟨S172, .f32⟩
  | .hbm, ⟨17, _⟩ => ⟨S170x32, .f32⟩
  | .hbm, ⟨18, _⟩ => ⟨S170, .f32⟩
  | .hbm, ⟨19, _⟩ => ⟨S172x32, .f32⟩
  | .hbm, ⟨20, _⟩ => ⟨S172, .f32⟩
  | .hbm, ⟨21, _⟩ => ⟨S170x32, .f32⟩
  | .hbm, ⟨22, _⟩ => ⟨S170, .f32⟩
  | .hbm, ⟨23, _⟩ => ⟨S172x32, .f32⟩
  | .hbm, ⟨24, _⟩ => ⟨S172, .f32⟩
  | .hbm, ⟨25, _⟩ => ⟨S8x32x12x4096, .f32⟩
  | .hbm, ⟨26, _⟩ => ⟨S8x4096x12x32, .f32⟩
  | .hbm, ⟨27, _⟩ => ⟨S8x4096x1x32, .f32⟩
  | .hbm, ⟨28, _⟩ => ⟨S8x4096x32, .f32⟩
  | .hbm, ⟨29, _⟩ => ⟨S8x4096x170, .f32⟩
  | .hbm, ⟨30, _⟩ => ⟨S1x1x170, .f32⟩
  | .hbm, ⟨31, _⟩ => ⟨S8x4096x170, .f32⟩
  | .hbm, ⟨32, _⟩ => ⟨S8x4096x170, .f32⟩
  | .hbm, ⟨33, _⟩ => ⟨S8x4096x2x85, .f32⟩
  | .hbm, ⟨34, _⟩ => ⟨S8x2x85x4096, .f32⟩
  | .hbm, ⟨35, _⟩ => ⟨S8x4096x1x32, .f32⟩
  | .hbm, ⟨36, _⟩ => ⟨S8x4096x32, .f32⟩
  | .hbm, ⟨37, _⟩ => ⟨S8x4096x170, .f32⟩
  | .hbm, ⟨38, _⟩ => ⟨S1x1x170, .f32⟩
  | .hbm, ⟨39, _⟩ => ⟨S8x4096x170, .f32⟩
  | .hbm, ⟨40, _⟩ => ⟨S8x4096x170, .f32⟩
  | .hbm, ⟨41, _⟩ => ⟨S8x4096x2x85, .f32⟩
  | .hbm, ⟨42, _⟩ => ⟨S8x2x85x4096, .f32⟩
  | .hbm, ⟨43, _⟩ => ⟨S8x4096x1x32, .f32⟩
  | .hbm, ⟨44, _⟩ => ⟨S8x4096x32, .f32⟩
  | .hbm, ⟨45, _⟩ => ⟨S8x4096x172, .f32⟩
  | .hbm, ⟨46, _⟩ => ⟨S1x1x172, .f32⟩
  | .hbm, ⟨47, _⟩ => ⟨S8x4096x172, .f32⟩
  | .hbm, ⟨48, _⟩ => ⟨S8x4096x172, .f32⟩
  | .hbm, ⟨49, _⟩ => ⟨S8x4096x2x86, .f32⟩
  | .hbm, ⟨50, _⟩ => ⟨S8x2x86x4096, .f32⟩
  | .hbm, ⟨51, _⟩ => ⟨S8x4096x1x32, .f32⟩
  | .hbm, ⟨52, _⟩ => ⟨S8x4096x32, .f32⟩
  | .hbm, ⟨53, _⟩ => ⟨S8x4096x170, .f32⟩
  | .hbm, ⟨54, _⟩ => ⟨S1x1x170, .f32⟩
  | .hbm, ⟨55, _⟩ => ⟨S8x4096x170, .f32⟩
  | .hbm, ⟨56, _⟩ => ⟨S8x4096x170, .f32⟩
  | .hbm, ⟨57, _⟩ => ⟨S8x4096x2x85, .f32⟩
  | .hbm, ⟨58, _⟩ => ⟨S8x2x85x4096, .f32⟩
  | .hbm, ⟨59, _⟩ => ⟨S8x4096x1x32, .f32⟩
  | .hbm, ⟨60, _⟩ => ⟨S8x4096x32, .f32⟩
  | .hbm, ⟨61, _⟩ => ⟨S8x4096x172, .f32⟩
  | .hbm, ⟨62, _⟩ => ⟨S1x1x172, .f32⟩
  | .hbm, ⟨63, _⟩ => ⟨S8x4096x172, .f32⟩
  | .hbm, ⟨64, _⟩ => ⟨S8x4096x172, .f32⟩
  | .hbm, ⟨65, _⟩ => ⟨S8x4096x2x86, .f32⟩
  | .hbm, ⟨66, _⟩ => ⟨S8x2x86x4096, .f32⟩
  | .hbm, ⟨67, _⟩ => ⟨S8x4096x1x32, .f32⟩
  | .hbm, ⟨68, _⟩ => ⟨S8x4096x32, .f32⟩
  | .hbm, ⟨69, _⟩ => ⟨S8x4096x170, .f32⟩
  | .hbm, ⟨70, _⟩ => ⟨S1x1x170, .f32⟩
  | .hbm, ⟨71, _⟩ => ⟨S8x4096x170, .f32⟩
  | .hbm, ⟨72, _⟩ => ⟨S8x4096x170, .f32⟩
  | .hbm, ⟨73, _⟩ => ⟨S8x4096x2x85, .f32⟩
  | .hbm, ⟨74, _⟩ => ⟨S8x2x85x4096, .f32⟩
  | .hbm, ⟨75, _⟩ => ⟨S8x4096x1x32, .f32⟩
  | .hbm, ⟨76, _⟩ => ⟨S8x4096x32, .f32⟩
  | .hbm, ⟨77, _⟩ => ⟨S8x4096x170, .f32⟩
  | .hbm, ⟨78, _⟩ => ⟨S1x1x170, .f32⟩
  | .hbm, ⟨79, _⟩ => ⟨S8x4096x170, .f32⟩
  | .hbm, ⟨80, _⟩ => ⟨S8x4096x170, .f32⟩
  | .hbm, ⟨81, _⟩ => ⟨S8x4096x2x85, .f32⟩
  | .hbm, ⟨82, _⟩ => ⟨S8x2x85x4096, .f32⟩
  | .hbm, ⟨83, _⟩ => ⟨S8x4096x1x32, .f32⟩
  | .hbm, ⟨84, _⟩ => ⟨S8x4096x32, .f32⟩
  | .hbm, ⟨85, _⟩ => ⟨S8x4096x172, .f32⟩
  | .hbm, ⟨86, _⟩ => ⟨S1x1x172, .f32⟩
  | .hbm, ⟨87, _⟩ => ⟨S8x4096x172, .f32⟩
  | .hbm, ⟨88, _⟩ => ⟨S8x4096x172, .f32⟩
  | .hbm, ⟨89, _⟩ => ⟨S8x4096x2x86, .f32⟩
  | .hbm, ⟨90, _⟩ => ⟨S8x2x86x4096, .f32⟩
  | .hbm, ⟨91, _⟩ => ⟨S8x4096x1x32, .f32⟩
  | .hbm, ⟨92, _⟩ => ⟨S8x4096x32, .f32⟩
  | .hbm, ⟨93, _⟩ => ⟨S8x4096x170, .f32⟩
  | .hbm, ⟨94, _⟩ => ⟨S1x1x170, .f32⟩
  | .hbm, ⟨95, _⟩ => ⟨S8x4096x170, .f32⟩
  | .hbm, ⟨96, _⟩ => ⟨S8x4096x170, .f32⟩
  | .hbm, ⟨97, _⟩ => ⟨S8x4096x2x85, .f32⟩
  | .hbm, ⟨98, _⟩ => ⟨S8x2x85x4096, .f32⟩
  | .hbm, ⟨99, _⟩ => ⟨S8x4096x1x32, .f32⟩
  | .hbm, ⟨100, _⟩ => ⟨S8x4096x32, .f32⟩
  | .hbm, ⟨101, _⟩ => ⟨S8x4096x172, .f32⟩
  | .hbm, ⟨102, _⟩ => ⟨S1x1x172, .f32⟩
  | .hbm, ⟨103, _⟩ => ⟨S8x4096x172, .f32⟩
  | .hbm, ⟨104, _⟩ => ⟨S8x4096x172, .f32⟩
  | .hbm, ⟨105, _⟩ => ⟨S8x4096x2x86, .f32⟩
  | .hbm, ⟨106, _⟩ => ⟨S8x2x86x4096, .f32⟩
  | .hbm, ⟨107, _⟩ => ⟨S8x4096x1x32, .f32⟩
  | .hbm, ⟨108, _⟩ => ⟨S8x4096x32, .f32⟩
  | .hbm, ⟨109, _⟩ => ⟨S8x4096x170, .f32⟩
  | .hbm, ⟨110, _⟩ => ⟨S1x1x170, .f32⟩
  | .hbm, ⟨111, _⟩ => ⟨S8x4096x170, .f32⟩
  | .hbm, ⟨112, _⟩ => ⟨S8x4096x170, .f32⟩
  | .hbm, ⟨113, _⟩ => ⟨S8x4096x2x85, .f32⟩
  | .hbm, ⟨114, _⟩ => ⟨S8x2x85x4096, .f32⟩
  | .hbm, ⟨115, _⟩ => ⟨S8x4096x1x32, .f32⟩
  | .hbm, ⟨116, _⟩ => ⟨S8x4096x32, .f32⟩
  | .hbm, ⟨117, _⟩ => ⟨S8x4096x172, .f32⟩
  | .hbm, ⟨118, _⟩ => ⟨S1x1x172, .f32⟩
  | .hbm, ⟨119, _⟩ => ⟨S8x4096x172, .f32⟩
  | .hbm, ⟨120, _⟩ => ⟨S8x4096x172, .f32⟩
  | .hbm, ⟨121, _⟩ => ⟨S8x4096x2x86, .f32⟩
  | .hbm, ⟨122, _⟩ => ⟨S8x2x86x4096, .f32⟩
  | .hbm, ⟨123, _⟩ => ⟨S8x2x1025x4096, .f32⟩
  | _, _ => ⟨S8x384x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩

abbrev nD : Nat := 1
abbrev τ : Topo := Topo.v7x

variable {F : FTy → Type} [FloatOps F]

class Facts₀ : Prop where
  shapeCasts_S8x384x1x4096_S8x32x12x4096 : S8x384x1x4096.ShapeCasts S8x32x12x4096
  transposes_S8x32x12x4096_S8x4096x12x32_0_3_2_1 : S8x32x12x4096.Transposes [0, 3, 2, 1] S8x4096x12x32
  slices_S8x4096x12x32_S8x4096x1x32_0_0_0_0 : S8x4096x12x32.Slices ![0, 0, 0, 0] S8x4096x1x32
  shapeCasts_S8x4096x1x32_S8x4096x32 : S8x4096x1x32.ShapeCasts S8x4096x32
  bcast_S170_S1x1x170_2 : S170.BroadcastsInDim S1x1x170 (![2] : Fin 1 → Fin S1x1x170.rank)
  bcast_S1x1x170_S8x4096x170_0_1_2 : S1x1x170.BroadcastsInDim S8x4096x170 (![0, 1, 2] : Fin 3 → Fin S8x4096x170.rank)
  shapeCasts_S8x4096x170_S8x4096x2x85 : S8x4096x170.ShapeCasts S8x4096x2x85
  transposes_S8x4096x2x85_S8x2x85x4096_0_2_3_1 : S8x4096x2x85.Transposes [0, 2, 3, 1] S8x2x85x4096
  slices_S8x4096x12x32_S8x4096x1x32_0_0_1_0 : S8x4096x12x32.Slices ![0, 0, 1, 0] S8x4096x1x32
  slices_S8x4096x12x32_S8x4096x1x32_0_0_2_0 : S8x4096x12x32.Slices ![0, 0, 2, 0] S8x4096x1x32
  bcast_S172_S1x1x172_2 : S172.BroadcastsInDim S1x1x172 (![2] : Fin 1 → Fin S1x1x172.rank)
  bcast_S1x1x172_S8x4096x172_0_1_2 : S1x1x172.BroadcastsInDim S8x4096x172 (![0, 1, 2] : Fin 3 → Fin S8x4096x172.rank)
  shapeCasts_S8x4096x172_S8x4096x2x86 : S8x4096x172.ShapeCasts S8x4096x2x86
  transposes_S8x4096x2x86_S8x2x86x4096_0_2_3_1 : S8x4096x2x86.Transposes [0, 2, 3, 1] S8x2x86x4096
  slices_S8x4096x12x32_S8x4096x1x32_0_0_3_0 : S8x4096x12x32.Slices ![0, 0, 3, 0] S8x4096x1x32
  slices_S8x4096x12x32_S8x4096x1x32_0_0_4_0 : S8x4096x12x32.Slices ![0, 0, 4, 0] S8x4096x1x32
  slices_S8x4096x12x32_S8x4096x1x32_0_0_5_0 : S8x4096x12x32.Slices ![0, 0, 5, 0] S8x4096x1x32
  slices_S8x4096x12x32_S8x4096x1x32_0_0_6_0 : S8x4096x12x32.Slices ![0, 0, 6, 0] S8x4096x1x32
  slices_S8x4096x12x32_S8x4096x1x32_0_0_7_0 : S8x4096x12x32.Slices ![0, 0, 7, 0] S8x4096x1x32
  slices_S8x4096x12x32_S8x4096x1x32_0_0_8_0 : S8x4096x12x32.Slices ![0, 0, 8, 0] S8x4096x1x32
  slices_S8x4096x12x32_S8x4096x1x32_0_0_9_0 : S8x4096x12x32.Slices ![0, 0, 9, 0] S8x4096x1x32
  slices_S8x4096x12x32_S8x4096x1x32_0_0_10_0 : S8x4096x12x32.Slices ![0, 0, 10, 0] S8x4096x1x32
  slices_S8x4096x12x32_S8x4096x1x32_0_0_11_0 : S8x4096x12x32.Slices ![0, 0, 11, 0] S8x4096x1x32
  concatenates_S8x2x85x4096_S8x2x85x4096_S8x2x86x4096_S8x2x85x4096_S8x2x86x4096_S8x2x85x4096_S8x2x85x4096_S8x2x86x4096_S8x2x85x4096_S8x2x86x4096_S8x2x85x4096_S8x2x86x4096_S8x2x1025x4096_d2 : Shape.Concatenates [S8x2x85x4096, S8x2x85x4096, S8x2x86x4096, S8x2x85x4096, S8x2x86x4096, S8x2x85x4096, S8x2x85x4096, S8x2x86x4096, S8x2x85x4096, S8x2x86x4096, S8x2x85x4096, S8x2x86x4096] S8x2x1025x4096 2
  dot_S8x4096x32_S170x32_S8x4096x170_2_1_01_0_n_n_wf : DotDims.WF S8x4096x32 S170x32 S8x4096x170 [2] [1] [0, 1] [0] [] []
  dot_S8x4096x32_S172x32_S8x4096x172_2_1_01_0_n_n_wf : DotDims.WF S8x4096x32 S172x32 S8x4096x172 [2] [1] [0, 1] [0] [] []

variable [Facts₀]

def dot_S8x4096x32_S170x32_S8x4096x170_2_1_01_0_n_n : DotDims S8x4096x32 S170x32 S8x4096x170 where
  lhsContracting := [2]
  rhsContracting := [1]
  lhsNonContracting := [0, 1]
  rhsNonContracting := [0]
  lhsBatch := []
  rhsBatch := []
  wf := dot_S8x4096x32_S170x32_S8x4096x170_2_1_01_0_n_n_wf
def dot_S8x4096x32_S172x32_S8x4096x172_2_1_01_0_n_n : DotDims S8x4096x32 S172x32 S8x4096x172 where
  lhsContracting := [2]
  rhsContracting := [1]
  lhsNonContracting := [0, 1]
  rhsNonContracting := [0]
  lhsBatch := []
  rhsBatch := []
  wf := dot_S8x4096x32_S172x32_S8x4096x172_2_1_01_0_n_n_wf

class Facts : Prop extends Facts₀ where

variable [Facts]
-- ==== Proof.Spec.lean ====
/-
  What the program computes, as one function of its arguments.

  The input x has shape [8, 384, 1, 4096]; its channel axis is a pair (g, j) laid out as channel = g * 12 + j with
  g < 32 a group and j < 12 a band. The frequency axis of the result, of extent 1025, is cut into twelve consecutive
  bands of widths 85, 85, 86, 85, 86, 85, 85, 86, 85, 86, 85, 86. Band j has its own matrix W_j of shape [2 w, 32]
  and its own vector b_j of length 2 w (w the band's width). On band j the result is, at batch a, output channel c < 2,
  frequency f' < w inside the band and time t,

      sum over g < 32 of x(a, g * 12 + j, 0, t) * W_j(c * w + f', g)   +   b_j(c * w + f').

  The whole result, of shape [8, 2, 1025, 4096], is the twelve slabs set side by side along the frequency axis.
-/
import Idealize.ShloMosaic.Lib.ValueIdx
import Idealize.ShloMosaic.PureOps.Ideal.Laws

noncomputable section

namespace Cert.Spec

open Idealize.ShloMosaic Idealize.ShloMosaic.ValueIdx

/-- The shape of x. -/
abbrev SX : Shape := ⟨4, ![8, 384, 1, 4096]⟩
/-- The shape of the result. -/
abbrev SO : Shape := ⟨4, ![8, 2, 1025, 4096]⟩

/-- The channel of group g and band j. -/
abbrev chan (g : Fin 32) (j : Fin 12) : Fin 384 := ⟨g.val * 12 + j.val, by have := g.isLt; have := j.isLt; omega⟩

/-- Row c * w + f of a matrix with n = 2 w rows. -/
abbrev row (n w : Nat) (hn : n = 2 * w) (c : Fin 2) (f : Fin w) : Fin n :=
  ⟨c.val * w + f.val, by have := c.isLt; have := f.isLt; subst hn; nlinarith⟩

/-- One band's slab: band j of width w with matrix W (of n = 2 w rows) and vector β. -/
def slab (n w : Nat) (hn : n = 2 * w) (j : Fin 12) (x : SX.Idx → EReal)
    (W : (⟨2, ![n, 32]⟩ : Shape).Idx → EReal) (β : (⟨1, ![n]⟩ : Shape).Idx → EReal) :
    (⟨4, ![8, 2, w, 4096]⟩ : Shape).Idx → EReal := fun i =>
  (∑ g : Fin 32, x (ix4 (⟨(i 0).val, (i 0).isLt⟩ : Fin 8) (chan g j) (0 : Fin 1) (⟨(i 3).val, (i 3).isLt⟩ : Fin 4096))
      * W (ix2 (row n w hn ⟨(i 1).val, (i 1).isLt⟩ ⟨(i 2).val, (i 2).isLt⟩) g))
    + β (ix1 (row n w hn ⟨(i 1).val, (i 1).isLt⟩ ⟨(i 2).val, (i 2).isLt⟩))

/-- The slab at explicit coordinates. -/
theorem slab_apply (n w : Nat) (hn : n = 2 * w) (j : Fin 12) (x : SX.Idx → EReal)
    (W : (⟨2, ![n, 32]⟩ : Shape).Idx → EReal) (β : (⟨1, ![n]⟩ : Shape).Idx → EReal)
    (a : Fin 8) (c : Fin 2) (f : Fin w) (t : Fin 4096) :
    slab n w hn j x W β (ix4 a c f t)
      = (∑ g : Fin 32, x (ix4 a (chan g j) (0 : Fin 1) t) * W (ix2 (row n w hn c f) g)) + β (ix1 (row n w hn c f)) := rfl

/-- The twelve widths add up to the frequency axis. -/
theorem bands_concat : Shape.Concatenates
    [⟨4, ![8, 2, 85, 4096]⟩, ⟨4, ![8, 2, 85, 4096]⟩, ⟨4, ![8, 2, 86, 4096]⟩, ⟨4, ![8, 2, 85, 4096]⟩,
     ⟨4, ![8, 2, 86, 4096]⟩, ⟨4, ![8, 2, 85, 4096]⟩, ⟨4, ![8, 2, 85, 4096]⟩, ⟨4, ![8, 2, 86, 4096]⟩,
     ⟨4, ![8, 2, 85, 4096]⟩, ⟨4, ![8, 2, 86, 4096]⟩, ⟨4, ![8, 2, 85, 4096]⟩, ⟨4, ![8, 2, 86, 4096]⟩] SO 2 := by decide

/-- The result: the twelve slabs side by side along the frequency axis. -/
def G (x : SX.Idx → EReal)
    (W0 : (⟨2, ![170, 32]⟩ : Shape).Idx → EReal) (b0 : (⟨1, ![170]⟩ : Shape).Idx → EReal)
    (W1 : (⟨2, ![170, 32]⟩ : Shape).Idx → EReal) (b1 : (⟨1, ![170]⟩ : Shape).Idx → EReal)
    (W2 : (⟨2, ![172, 32]⟩ : Shape).Idx → EReal) (b2 : (⟨1, ![172]⟩ : Shape).Idx → EReal)
    (W3 : (⟨2, ![170, 32]⟩ : Shape).Idx → EReal) (b3 : (⟨1, ![170]⟩ : Shape).Idx → EReal)
    (W4 : (⟨2, ![172, 32]⟩ : Shape).Idx → EReal) (b4 : (⟨1, ![172]⟩ : Shape).Idx → EReal)
    (W5 : (⟨2, ![170, 32]⟩ : Shape).Idx → EReal) (b5 : (⟨1, ![170]⟩ : Shape).Idx → EReal)
    (W6 : (⟨2, ![170, 32]⟩ : Shape).Idx → EReal) (b6 : (⟨1, ![170]⟩ : Shape).Idx → EReal)
    (W7 : (⟨2, ![172, 32]⟩ : Shape).Idx → EReal) (b7 : (⟨1, ![172]⟩ : Shape).Idx → EReal)
    (W8 : (⟨2, ![170, 32]⟩ : Shape).Idx → EReal) (b8 : (⟨1, ![170]⟩ : Shape).Idx → EReal)
    (W9 : (⟨2, ![172, 32]⟩ : Shape).Idx → EReal) (b9 : (⟨1, ![172]⟩ : Shape).Idx → EReal)
    (W10 : (⟨2, ![170, 32]⟩ : Shape).Idx → EReal) (b10 : (⟨1, ![170]⟩ : Shape).Idx → EReal)
    (W11 : (⟨2, ![172, 32]⟩ : Shape).Idx → EReal) (b11 : (⟨1, ![172]⟩ : Shape).Idx → EReal) : SO.Idx → EReal :=
  concatenate SO 2
    [⟨⟨4, ![8, 2, 85, 4096]⟩, slab 170 85 rfl 0 x W0 b0⟩, ⟨⟨4, ![8, 2, 85, 4096]⟩, slab 170 85 rfl 1 x W1 b1⟩,
     ⟨⟨4, ![8, 2, 86, 4096]⟩, slab 172 86 rfl 2 x W2 b2⟩, ⟨⟨4, ![8, 2, 85, 4096]⟩, slab 170 85 rfl 3 x W3 b3⟩,
     ⟨⟨4, ![8, 2, 86, 4096]⟩, slab 172 86 rfl 4 x W4 b4⟩, ⟨⟨4, ![8, 2, 85, 4096]⟩, slab 170 85 rfl 5 x W5 b5⟩,
     ⟨⟨4, ![8, 2, 85, 4096]⟩, slab 170 85 rfl 6 x W6 b6⟩, ⟨⟨4, ![8, 2, 86, 4096]⟩, slab 172 86 rfl 7 x W7 b7⟩,
     ⟨⟨4, ![8, 2, 85, 4096]⟩, slab 170 85 rfl 8 x W8 b8⟩, ⟨⟨4, ![8, 2, 86, 4096]⟩, slab 172 86 rfl 9 x W9 b9⟩,
     ⟨⟨4, ![8, 2, 85, 4096]⟩, slab 170 85 rfl 10 x W10 b10⟩, ⟨⟨4, ![8, 2, 86, 4096]⟩, slab 172 86 rfl 11 x W11 b11⟩]
    bands_concat

end Cert.Spec

end
-- ==== Proof.RefIsSpec.lean ====
/-
  The reference program computes the specification.

  The reference cuts the channel axis of x into twelve bands (channel = g * 12 + j), and on each band applies the band's
  small linear map and adds the band's vector; it then regroups the 2 w output rows of band j as (c, f) with c < 2 and
  f < w, moves time to the last axis, and sets the twelve results side by side along the frequency axis. Each band's
  chain of operations is read here at one output position, which gives exactly the band's slab of the specification;
  the concatenation of the twelve slabs is the specification's result.
-/
import proofs.«145164_j67224828117616_2_alg».proof.Proof.Gen.ReferenceIdeal.Read
import proofs.«145164_j67224828117616_2_alg».proof.Proof.Spec

noncomputable section

namespace Cert.RefIsSpec

open Cert.ReferenceIdeal Cert.ReferenceIdeal.Read Idealize.ShloMosaic Idealize.ShloMosaic.ValueIdx

/-- Band 0 (width 85): the last stage of the band's chain is the band's slab. Reading the chain backwards from an
    output position (a, c, f, t): the transpose reads (a, t, c, f); the reshape merges (c, f) into the row c * 85 + f of
    the band's matrix; the sum is the product of x at channel g * 12 + 0 with that row, plus the row's entry of the vector. -/
theorem band0 (x0 : (⟨S8x384x1x4096, .f32⟩ : BufTy).Contents (Elt Ideal))
    (x1 : (⟨S170x32, .f32⟩ : BufTy).Contents (Elt Ideal)) (x2 : (⟨S170, .f32⟩ : BufTy).Contents (Elt Ideal)) :
    val_main_v9 (F := Ideal) x0 x1 x2 = Cert.Spec.slab 170 85 rfl 0 x0 x1 x2 := by
  funext i
  obtain ⟨a, c, f, t, rfl⟩ : ∃ (a : Fin 8) (c : Fin 2) (f : Fin 85) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 85 + f)
  have h8 : idx_main_v8 (idx_main_v9 (ix4 a c f t)) = ix3 a t (Cert.Spec.row 170 85 rfl c f) := funext fun e => Fin.ext (by
    match e with
    | ⟨0, _⟩ => show (((a.val * 4096 + t.val) * 2 + c.val) * 85 + f.val) / 696320 = a.val; omega
    | ⟨1, _⟩ => show (((a.val * 4096 + t.val) * 2 + c.val) * 85 + f.val) / 170 % 4096 = t.val; omega
    | ⟨2, _⟩ => show (((a.val * 4096 + t.val) * 2 + c.val) * 85 + f.val) % 170 = c.val * 85 + f.val; omega)
  -- the vector is broadcast along batch and time
  have h5 : idx_main_v5 (idx_main_v6 (ix3 a t (Cert.Spec.row 170 85 rfl c f))) = ix1 (Cert.Spec.row 170 85 rfl c f) :=
    funext fun e => Fin.ext (by match e with | ⟨0, _⟩ => rfl)
  rw [Cert.Spec.slab_apply, val_main_v9_apply, val_main_v8_apply, h8, val_main_v7_apply, val_main_v4_apply, val_main_v6_apply, val_main_v5_apply, h5,
    Ideal.addf_def]
  congr 1
  refine Finset.sum_congr rfl fun k _ => ?_
  have hk := k.isLt
  -- the two operands of the product at the summation index k
  have hl : lidx_main_v4 (ix3 a t (Cert.Spec.row 170 85 rfl c f)) k = ix3 a t k :=
    funext fun e => Fin.ext (by match e with | ⟨0, _⟩ => rfl | ⟨1, _⟩ => rfl | ⟨2, _⟩ => rfl)
  have hr : ridx_main_v4 (ix3 a t (Cert.Spec.row 170 85 rfl c f)) k = ix2 (Cert.Spec.row 170 85 rfl c f) k :=
    funext fun e => Fin.ext (by match e with | ⟨0, _⟩ => rfl | ⟨1, _⟩ => rfl)
  -- the reshape that drops the unit axis, the slice of band 0, the transpose, and the reshape that splits the channel
  have h3 : idx_main_v3 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v2 (ix4 a t (0 : Fin 1) k)) = ix4 a k (0 : Fin 12) t := funext fun e => Fin.ext (by
    match e with | ⟨0, _⟩ => rfl | ⟨1, _⟩ => rfl | ⟨2, _⟩ => rfl | ⟨3, _⟩ => rfl)
  have h0 : idx_main_v0 (ix4 a k (0 : Fin 12) t) = ix4 a (Cert.Spec.chan k 0) (0 : Fin 1) t := funext fun e => Fin.ext (by
    match e with
    | ⟨0, _⟩ => show (((a.val * 32 + k.val) * 12 + 0) * 4096 + t.val) / 1572864 = a.val; omega
    | ⟨1, _⟩ => show (((a.val * 32 + k.val) * 12 + 0) * 4096 + t.val) / 4096 % 384 = k.val * 12 + 0; omega
    | ⟨2, _⟩ => rfl
    | ⟨3, _⟩ => show (((a.val * 32 + k.val) * 12 + 0) * 4096 + t.val) % 4096 = t.val; omega)
  rw [hl, hr, val_main_v3_apply, h3, val_main_v2_apply, val_main_v1_apply, h1, val_main_v0_apply, h0]

/-- Band 1 (width 85): the last stage of the band's chain is the band's slab. Reading the chain backwards from an
    output position (a, c, f, t): the transpose reads (a, t, c, f); the reshape merges (c, f) into the row c * 85 + f of
    the band's matrix; the sum is the product of x at channel g * 12 + 1 with that row, plus the row's entry of the vector. -/
theorem band1 (x0 : (⟨S8x384x1x4096, .f32⟩ : BufTy).Contents (Elt Ideal))
    (x3 : (⟨S170x32, .f32⟩ : BufTy).Contents (Elt Ideal)) (x4 : (⟨S170, .f32⟩ : BufTy).Contents (Elt Ideal)) :
    val_main_v17 (F := Ideal) x0 x3 x4 = Cert.Spec.slab 170 85 rfl 1 x0 x3 x4 := by
  funext i
  obtain ⟨a, c, f, t, rfl⟩ : ∃ (a : Fin 8) (c : Fin 2) (f : Fin 85) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 85 + f)
  have h8 : idx_main_v16 (idx_main_v17 (ix4 a c f t)) = ix3 a t (Cert.Spec.row 170 85 rfl c f) := funext fun e => Fin.ext (by
    match e with
    | ⟨0, _⟩ => show (((a.val * 4096 + t.val) * 2 + c.val) * 85 + f.val) / 696320 = a.val; omega
    | ⟨1, _⟩ => show (((a.val * 4096 + t.val) * 2 + c.val) * 85 + f.val) / 170 % 4096 = t.val; omega
    | ⟨2, _⟩ => show (((a.val * 4096 + t.val) * 2 + c.val) * 85 + f.val) % 170 = c.val * 85 + f.val; omega)
  -- the vector is broadcast along batch and time
  have h5 : idx_main_v13 (idx_main_v14 (ix3 a t (Cert.Spec.row 170 85 rfl c f))) = ix1 (Cert.Spec.row 170 85 rfl c f) :=
    funext fun e => Fin.ext (by match e with | ⟨0, _⟩ => rfl)
  rw [Cert.Spec.slab_apply, val_main_v17_apply, val_main_v16_apply, h8, val_main_v15_apply, val_main_v12_apply, val_main_v14_apply, val_main_v13_apply, h5,
    Ideal.addf_def]
  congr 1
  refine Finset.sum_congr rfl fun k _ => ?_
  have hk := k.isLt
  -- the two operands of the product at the summation index k
  have hl : lidx_main_v12 (ix3 a t (Cert.Spec.row 170 85 rfl c f)) k = ix3 a t k :=
    funext fun e => Fin.ext (by match e with | ⟨0, _⟩ => rfl | ⟨1, _⟩ => rfl | ⟨2, _⟩ => rfl)
  have hr : ridx_main_v12 (ix3 a t (Cert.Spec.row 170 85 rfl c f)) k = ix2 (Cert.Spec.row 170 85 rfl c f) k :=
    funext fun e => Fin.ext (by match e with | ⟨0, _⟩ => rfl | ⟨1, _⟩ => rfl)
  -- the reshape that drops the unit axis, the slice of band 1, the transpose, and the reshape that splits the channel
  have h3 : idx_main_v11 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v10 (ix4 a t (0 : Fin 1) k)) = ix4 a k (1 : Fin 12) t := funext fun e => Fin.ext (by
    match e with | ⟨0, _⟩ => rfl | ⟨1, _⟩ => rfl | ⟨2, _⟩ => rfl | ⟨3, _⟩ => rfl)
  have h0 : idx_main_v0 (ix4 a k (1 : Fin 12) t) = ix4 a (Cert.Spec.chan k 1) (0 : Fin 1) t := funext fun e => Fin.ext (by
    match e with
    | ⟨0, _⟩ => show (((a.val * 32 + k.val) * 12 + 1) * 4096 + t.val) / 1572864 = a.val; omega
    | ⟨1, _⟩ => show (((a.val * 32 + k.val) * 12 + 1) * 4096 + t.val) / 4096 % 384 = k.val * 12 + 1; omega
    | ⟨2, _⟩ => rfl
    | ⟨3, _⟩ => show (((a.val * 32 + k.val) * 12 + 1) * 4096 + t.val) % 4096 = t.val; omega)
  rw [hl, hr, val_main_v11_apply, h3, val_main_v10_apply, val_main_v1_apply, h1, val_main_v0_apply, h0]

/-- Band 2 (width 86): the last stage of the band's chain is the band's slab. Reading the chain backwards from an
    output position (a, c, f, t): the transpose reads (a, t, c, f); the reshape merges (c, f) into the row c * 86 + f of
    the band's matrix; the sum is the product of x at channel g * 12 + 2 with that row, plus the row's entry of the vector. -/
theorem band2 (x0 : (⟨S8x384x1x4096, .f32⟩ : BufTy).Contents (Elt Ideal))
    (x5 : (⟨S172x32, .f32⟩ : BufTy).Contents (Elt Ideal)) (x6 : (⟨S172, .f32⟩ : BufTy).Contents (Elt Ideal)) :
    val_main_v25 (F := Ideal) x0 x5 x6 = Cert.Spec.slab 172 86 rfl 2 x0 x5 x6 := by
  funext i
  obtain ⟨a, c, f, t, rfl⟩ : ∃ (a : Fin 8) (c : Fin 2) (f : Fin 86) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 86 + f)
  have h8 : idx_main_v24 (idx_main_v25 (ix4 a c f t)) = ix3 a t (Cert.Spec.row 172 86 rfl c f) := funext fun e => Fin.ext (by
    match e with
    | ⟨0, _⟩ => show (((a.val * 4096 + t.val) * 2 + c.val) * 86 + f.val) / 704512 = a.val; omega
    | ⟨1, _⟩ => show (((a.val * 4096 + t.val) * 2 + c.val) * 86 + f.val) / 172 % 4096 = t.val; omega
    | ⟨2, _⟩ => show (((a.val * 4096 + t.val) * 2 + c.val) * 86 + f.val) % 172 = c.val * 86 + f.val; omega)
  -- the vector is broadcast along batch and time
  have h5 : idx_main_v21 (idx_main_v22 (ix3 a t (Cert.Spec.row 172 86 rfl c f))) = ix1 (Cert.Spec.row 172 86 rfl c f) :=
    funext fun e => Fin.ext (by match e with | ⟨0, _⟩ => rfl)
  rw [Cert.Spec.slab_apply, val_main_v25_apply, val_main_v24_apply, h8, val_main_v23_apply, val_main_v20_apply, val_main_v22_apply, val_main_v21_apply, h5,
    Ideal.addf_def]
  congr 1
  refine Finset.sum_congr rfl fun k _ => ?_
  have hk := k.isLt
  -- the two operands of the product at the summation index k
  have hl : lidx_main_v20 (ix3 a t (Cert.Spec.row 172 86 rfl c f)) k = ix3 a t k :=
    funext fun e => Fin.ext (by match e with | ⟨0, _⟩ => rfl | ⟨1, _⟩ => rfl | ⟨2, _⟩ => rfl)
  have hr : ridx_main_v20 (ix3 a t (Cert.Spec.row 172 86 rfl c f)) k = ix2 (Cert.Spec.row 172 86 rfl c f) k :=
    funext fun e => Fin.ext (by match e with | ⟨0, _⟩ => rfl | ⟨1, _⟩ => rfl)
  -- the reshape that drops the unit axis, the slice of band 2, the transpose, and the reshape that splits the channel
  have h3 : idx_main_v19 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v18 (ix4 a t (0 : Fin 1) k)) = ix4 a k (2 : Fin 12) t := funext fun e => Fin.ext (by
    match e with | ⟨0, _⟩ => rfl | ⟨1, _⟩ => rfl | ⟨2, _⟩ => rfl | ⟨3, _⟩ => rfl)
  have h0 : idx_main_v0 (ix4 a k (2 : Fin 12) t) = ix4 a (Cert.Spec.chan k 2) (0 : Fin 1) t := funext fun e => Fin.ext (by
    match e with
    | ⟨0, _⟩ => show (((a.val * 32 + k.val) * 12 + 2) * 4096 + t.val) / 1572864 = a.val; omega
    | ⟨1, _⟩ => show (((a.val * 32 + k.val) * 12 + 2) * 4096 + t.val) / 4096 % 384 = k.val * 12 + 2; omega
    | ⟨2, _⟩ => rfl
    | ⟨3, _⟩ => show (((a.val * 32 + k.val) * 12 + 2) * 4096 + t.val) % 4096 = t.val; omega)
  rw [hl, hr, val_main_v19_apply, h3, val_main_v18_apply, val_main_v1_apply, h1, val_main_v0_apply, h0]

/-- Band 3 (width 85): the last stage of the band's chain is the band's slab. Reading the chain backwards from an
    output position (a, c, f, t): the transpose reads (a, t, c, f); the reshape merges (c, f) into the row c * 85 + f of
    the band's matrix; the sum is the product of x at channel g * 12 + 3 with that row, plus the row's entry of the vector. -/
theorem band3 (x0 : (⟨S8x384x1x4096, .f32⟩ : BufTy).Contents (Elt Ideal))
    (x7 : (⟨S170x32, .f32⟩ : BufTy).Contents (Elt Ideal)) (x8 : (⟨S170, .f32⟩ : BufTy).Contents (Elt Ideal)) :
    val_main_v33 (F := Ideal) x0 x7 x8 = Cert.Spec.slab 170 85 rfl 3 x0 x7 x8 := by
  funext i
  obtain ⟨a, c, f, t, rfl⟩ : ∃ (a : Fin 8) (c : Fin 2) (f : Fin 85) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 85 + f)
  have h8 : idx_main_v32 (idx_main_v33 (ix4 a c f t)) = ix3 a t (Cert.Spec.row 170 85 rfl c f) := funext fun e => Fin.ext (by
    match e with
    | ⟨0, _⟩ => show (((a.val * 4096 + t.val) * 2 + c.val) * 85 + f.val) / 696320 = a.val; omega
    | ⟨1, _⟩ => show (((a.val * 4096 + t.val) * 2 + c.val) * 85 + f.val) / 170 % 4096 = t.val; omega
    | ⟨2, _⟩ => show (((a.val * 4096 + t.val) * 2 + c.val) * 85 + f.val) % 170 = c.val * 85 + f.val; omega)
  -- the vector is broadcast along batch and time
  have h5 : idx_main_v29 (idx_main_v30 (ix3 a t (Cert.Spec.row 170 85 rfl c f))) = ix1 (Cert.Spec.row 170 85 rfl c f) :=
    funext fun e => Fin.ext (by match e with | ⟨0, _⟩ => rfl)
  rw [Cert.Spec.slab_apply, val_main_v33_apply, val_main_v32_apply, h8, val_main_v31_apply, val_main_v28_apply, val_main_v30_apply, val_main_v29_apply, h5,
    Ideal.addf_def]
  congr 1
  refine Finset.sum_congr rfl fun k _ => ?_
  have hk := k.isLt
  -- the two operands of the product at the summation index k
  have hl : lidx_main_v28 (ix3 a t (Cert.Spec.row 170 85 rfl c f)) k = ix3 a t k :=
    funext fun e => Fin.ext (by match e with | ⟨0, _⟩ => rfl | ⟨1, _⟩ => rfl | ⟨2, _⟩ => rfl)
  have hr : ridx_main_v28 (ix3 a t (Cert.Spec.row 170 85 rfl c f)) k = ix2 (Cert.Spec.row 170 85 rfl c f) k :=
    funext fun e => Fin.ext (by match e with | ⟨0, _⟩ => rfl | ⟨1, _⟩ => rfl)
  -- the reshape that drops the unit axis, the slice of band 3, the transpose, and the reshape that splits the channel
  have h3 : idx_main_v27 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v26 (ix4 a t (0 : Fin 1) k)) = ix4 a k (3 : Fin 12) t := funext fun e => Fin.ext (by
    match e with | ⟨0, _⟩ => rfl | ⟨1, _⟩ => rfl | ⟨2, _⟩ => rfl | ⟨3, _⟩ => rfl)
  have h0 : idx_main_v0 (ix4 a k (3 : Fin 12) t) = ix4 a (Cert.Spec.chan k 3) (0 : Fin 1) t := funext fun e => Fin.ext (by
    match e with
    | ⟨0, _⟩ => show (((a.val * 32 + k.val) * 12 + 3) * 4096 + t.val) / 1572864 = a.val; omega
    | ⟨1, _⟩ => show (((a.val * 32 + k.val) * 12 + 3) * 4096 + t.val) / 4096 % 384 = k.val * 12 + 3; omega
    | ⟨2, _⟩ => rfl
    | ⟨3, _⟩ => show (((a.val * 32 + k.val) * 12 + 3) * 4096 + t.val) % 4096 = t.val; omega)
  rw [hl, hr, val_main_v27_apply, h3, val_main_v26_apply, val_main_v1_apply, h1, val_main_v0_apply, h0]

/-- Band 4 (width 86): the last stage of the band's chain is the band's slab. Reading the chain backwards from an
    output position (a, c, f, t): the transpose reads (a, t, c, f); the reshape merges (c, f) into the row c * 86 + f of
    the band's matrix; the sum is the product of x at channel g * 12 + 4 with that row, plus the row's entry of the vector. -/
theorem band4 (x0 : (⟨S8x384x1x4096, .f32⟩ : BufTy).Contents (Elt Ideal))
    (x9 : (⟨S172x32, .f32⟩ : BufTy).Contents (Elt Ideal)) (x10 : (⟨S172, .f32⟩ : BufTy).Contents (Elt Ideal)) :
    val_main_v41 (F := Ideal) x0 x9 x10 = Cert.Spec.slab 172 86 rfl 4 x0 x9 x10 := by
  funext i
  obtain ⟨a, c, f, t, rfl⟩ : ∃ (a : Fin 8) (c : Fin 2) (f : Fin 86) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 86 + f)
  have h8 : idx_main_v40 (idx_main_v41 (ix4 a c f t)) = ix3 a t (Cert.Spec.row 172 86 rfl c f) := funext fun e => Fin.ext (by
    match e with
    | ⟨0, _⟩ => show (((a.val * 4096 + t.val) * 2 + c.val) * 86 + f.val) / 704512 = a.val; omega
    | ⟨1, _⟩ => show (((a.val * 4096 + t.val) * 2 + c.val) * 86 + f.val) / 172 % 4096 = t.val; omega
    | ⟨2, _⟩ => show (((a.val * 4096 + t.val) * 2 + c.val) * 86 + f.val) % 172 = c.val * 86 + f.val; omega)
  -- the vector is broadcast along batch and time
  have h5 : idx_main_v37 (idx_main_v38 (ix3 a t (Cert.Spec.row 172 86 rfl c f))) = ix1 (Cert.Spec.row 172 86 rfl c f) :=
    funext fun e => Fin.ext (by match e with | ⟨0, _⟩ => rfl)
  rw [Cert.Spec.slab_apply, val_main_v41_apply, val_main_v40_apply, h8, val_main_v39_apply, val_main_v36_apply, val_main_v38_apply, val_main_v37_apply, h5,
    Ideal.addf_def]
  congr 1
  refine Finset.sum_congr rfl fun k _ => ?_
  have hk := k.isLt
  -- the two operands of the product at the summation index k
  have hl : lidx_main_v36 (ix3 a t (Cert.Spec.row 172 86 rfl c f)) k = ix3 a t k :=
    funext fun e => Fin.ext (by match e with | ⟨0, _⟩ => rfl | ⟨1, _⟩ => rfl | ⟨2, _⟩ => rfl)
  have hr : ridx_main_v36 (ix3 a t (Cert.Spec.row 172 86 rfl c f)) k = ix2 (Cert.Spec.row 172 86 rfl c f) k :=
    funext fun e => Fin.ext (by match e with | ⟨0, _⟩ => rfl | ⟨1, _⟩ => rfl)
  -- the reshape that drops the unit axis, the slice of band 4, the transpose, and the reshape that splits the channel
  have h3 : idx_main_v35 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v34 (ix4 a t (0 : Fin 1) k)) = ix4 a k (4 : Fin 12) t := funext fun e => Fin.ext (by
    match e with | ⟨0, _⟩ => rfl | ⟨1, _⟩ => rfl | ⟨2, _⟩ => rfl | ⟨3, _⟩ => rfl)
  have h0 : idx_main_v0 (ix4 a k (4 : Fin 12) t) = ix4 a (Cert.Spec.chan k 4) (0 : Fin 1) t := funext fun e => Fin.ext (by
    match e with
    | ⟨0, _⟩ => show (((a.val * 32 + k.val) * 12 + 4) * 4096 + t.val) / 1572864 = a.val; omega
    | ⟨1, _⟩ => show (((a.val * 32 + k.val) * 12 + 4) * 4096 + t.val) / 4096 % 384 = k.val * 12 + 4; omega
    | ⟨2, _⟩ => rfl
    | ⟨3, _⟩ => show (((a.val * 32 + k.val) * 12 + 4) * 4096 + t.val) % 4096 = t.val; omega)
  rw [hl, hr, val_main_v35_apply, h3, val_main_v34_apply, val_main_v1_apply, h1, val_main_v0_apply, h0]

/-- Band 5 (width 85): the last stage of the band's chain is the band's slab. Reading the chain backwards from an
    output position (a, c, f, t): the transpose reads (a, t, c, f); the reshape merges (c, f) into the row c * 85 + f of
    the band's matrix; the sum is the product of x at channel g * 12 + 5 with that row, plus the row's entry of the vector. -/
theorem band5 (x0 : (⟨S8x384x1x4096, .f32⟩ : BufTy).Contents (Elt Ideal))
    (x11 : (⟨S170x32, .f32⟩ : BufTy).Contents (Elt Ideal)) (x12 : (⟨S170, .f32⟩ : BufTy).Contents (Elt Ideal)) :
    val_main_v49 (F := Ideal) x0 x11 x12 = Cert.Spec.slab 170 85 rfl 5 x0 x11 x12 := by
  funext i
  obtain ⟨a, c, f, t, rfl⟩ : ∃ (a : Fin 8) (c : Fin 2) (f : Fin 85) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 85 + f)
  have h8 : idx_main_v48 (idx_main_v49 (ix4 a c f t)) = ix3 a t (Cert.Spec.row 170 85 rfl c f) := funext fun e => Fin.ext (by
    match e with
    | ⟨0, _⟩ => show (((a.val * 4096 + t.val) * 2 + c.val) * 85 + f.val) / 696320 = a.val; omega
    | ⟨1, _⟩ => show (((a.val * 4096 + t.val) * 2 + c.val) * 85 + f.val) / 170 % 4096 = t.val; omega
    | ⟨2, _⟩ => show (((a.val * 4096 + t.val) * 2 + c.val) * 85 + f.val) % 170 = c.val * 85 + f.val; omega)
  -- the vector is broadcast along batch and time
  have h5 : idx_main_v45 (idx_main_v46 (ix3 a t (Cert.Spec.row 170 85 rfl c f))) = ix1 (Cert.Spec.row 170 85 rfl c f) :=
    funext fun e => Fin.ext (by match e with | ⟨0, _⟩ => rfl)
  rw [Cert.Spec.slab_apply, val_main_v49_apply, val_main_v48_apply, h8, val_main_v47_apply, val_main_v44_apply, val_main_v46_apply, val_main_v45_apply, h5,
    Ideal.addf_def]
  congr 1
  refine Finset.sum_congr rfl fun k _ => ?_
  have hk := k.isLt
  -- the two operands of the product at the summation index k
  have hl : lidx_main_v44 (ix3 a t (Cert.Spec.row 170 85 rfl c f)) k = ix3 a t k :=
    funext fun e => Fin.ext (by match e with | ⟨0, _⟩ => rfl | ⟨1, _⟩ => rfl | ⟨2, _⟩ => rfl)
  have hr : ridx_main_v44 (ix3 a t (Cert.Spec.row 170 85 rfl c f)) k = ix2 (Cert.Spec.row 170 85 rfl c f) k :=
    funext fun e => Fin.ext (by match e with | ⟨0, _⟩ => rfl | ⟨1, _⟩ => rfl)
  -- the reshape that drops the unit axis, the slice of band 5, the transpose, and the reshape that splits the channel
  have h3 : idx_main_v43 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v42 (ix4 a t (0 : Fin 1) k)) = ix4 a k (5 : Fin 12) t := funext fun e => Fin.ext (by
    match e with | ⟨0, _⟩ => rfl | ⟨1, _⟩ => rfl | ⟨2, _⟩ => rfl | ⟨3, _⟩ => rfl)
  have h0 : idx_main_v0 (ix4 a k (5 : Fin 12) t) = ix4 a (Cert.Spec.chan k 5) (0 : Fin 1) t := funext fun e => Fin.ext (by
    match e with
    | ⟨0, _⟩ => show (((a.val * 32 + k.val) * 12 + 5) * 4096 + t.val) / 1572864 = a.val; omega
    | ⟨1, _⟩ => show (((a.val * 32 + k.val) * 12 + 5) * 4096 + t.val) / 4096 % 384 = k.val * 12 + 5; omega
    | ⟨2, _⟩ => rfl
    | ⟨3, _⟩ => show (((a.val * 32 + k.val) * 12 + 5) * 4096 + t.val) % 4096 = t.val; omega)
  rw [hl, hr, val_main_v43_apply, h3, val_main_v42_apply, val_main_v1_apply, h1, val_main_v0_apply, h0]

/-- Band 6 (width 85): the last stage of the band's chain is the band's slab. Reading the chain backwards from an
    output position (a, c, f, t): the transpose reads (a, t, c, f); the reshape merges (c, f) into the row c * 85 + f of
    the band's matrix; the sum is the product of x at channel g * 12 + 6 with that row, plus the row's entry of the vector. -/
theorem band6 (x0 : (⟨S8x384x1x4096, .f32⟩ : BufTy).Contents (Elt Ideal))
    (x13 : (⟨S170x32, .f32⟩ : BufTy).Contents (Elt Ideal)) (x14 : (⟨S170, .f32⟩ : BufTy).Contents (Elt Ideal)) :
    val_main_v57 (F := Ideal) x0 x13 x14 = Cert.Spec.slab 170 85 rfl 6 x0 x13 x14 := by
  funext i
  obtain ⟨a, c, f, t, rfl⟩ : ∃ (a : Fin 8) (c : Fin 2) (f : Fin 85) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 85 + f)
  have h8 : idx_main_v56 (idx_main_v57 (ix4 a c f t)) = ix3 a t (Cert.Spec.row 170 85 rfl c f) := funext fun e => Fin.ext (by
    match e with
    | ⟨0, _⟩ => show (((a.val * 4096 + t.val) * 2 + c.val) * 85 + f.val) / 696320 = a.val; omega
    | ⟨1, _⟩ => show (((a.val * 4096 + t.val) * 2 + c.val) * 85 + f.val) / 170 % 4096 = t.val; omega
    | ⟨2, _⟩ => show (((a.val * 4096 + t.val) * 2 + c.val) * 85 + f.val) % 170 = c.val * 85 + f.val; omega)
  -- the vector is broadcast along batch and time
  have h5 : idx_main_v53 (idx_main_v54 (ix3 a t (Cert.Spec.row 170 85 rfl c f))) = ix1 (Cert.Spec.row 170 85 rfl c f) :=
    funext fun e => Fin.ext (by match e with | ⟨0, _⟩ => rfl)
  rw [Cert.Spec.slab_apply, val_main_v57_apply, val_main_v56_apply, h8, val_main_v55_apply, val_main_v52_apply, val_main_v54_apply, val_main_v53_apply, h5,
    Ideal.addf_def]
  congr 1
  refine Finset.sum_congr rfl fun k _ => ?_
  have hk := k.isLt
  -- the two operands of the product at the summation index k
  have hl : lidx_main_v52 (ix3 a t (Cert.Spec.row 170 85 rfl c f)) k = ix3 a t k :=
    funext fun e => Fin.ext (by match e with | ⟨0, _⟩ => rfl | ⟨1, _⟩ => rfl | ⟨2, _⟩ => rfl)
  have hr : ridx_main_v52 (ix3 a t (Cert.Spec.row 170 85 rfl c f)) k = ix2 (Cert.Spec.row 170 85 rfl c f) k :=
    funext fun e => Fin.ext (by match e with | ⟨0, _⟩ => rfl | ⟨1, _⟩ => rfl)
  -- the reshape that drops the unit axis, the slice of band 6, the transpose, and the reshape that splits the channel
  have h3 : idx_main_v51 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v50 (ix4 a t (0 : Fin 1) k)) = ix4 a k (6 : Fin 12) t := funext fun e => Fin.ext (by
    match e with | ⟨0, _⟩ => rfl | ⟨1, _⟩ => rfl | ⟨2, _⟩ => rfl | ⟨3, _⟩ => rfl)
  have h0 : idx_main_v0 (ix4 a k (6 : Fin 12) t) = ix4 a (Cert.Spec.chan k 6) (0 : Fin 1) t := funext fun e => Fin.ext (by
    match e with
    | ⟨0, _⟩ => show (((a.val * 32 + k.val) * 12 + 6) * 4096 + t.val) / 1572864 = a.val; omega
    | ⟨1, _⟩ => show (((a.val * 32 + k.val) * 12 + 6) * 4096 + t.val) / 4096 % 384 = k.val * 12 + 6; omega
    | ⟨2, _⟩ => rfl
    | ⟨3, _⟩ => show (((a.val * 32 + k.val) * 12 + 6) * 4096 + t.val) % 4096 = t.val; omega)
  rw [hl, hr, val_main_v51_apply, h3, val_main_v50_apply, val_main_v1_apply, h1, val_main_v0_apply, h0]

/-- Band 7 (width 86): the last stage of the band's chain is the band's slab. Reading the chain backwards from an
    output position (a, c, f, t): the transpose reads (a, t, c, f); the reshape merges (c, f) into the row c * 86 + f of
    the band's matrix; the sum is the product of x at channel g * 12 + 7 with that row, plus the row's entry of the vector. -/
theorem band7 (x0 : (⟨S8x384x1x4096, .f32⟩ : BufTy).Contents (Elt Ideal))
    (x15 : (⟨S172x32, .f32⟩ : BufTy).Contents (Elt Ideal)) (x16 : (⟨S172, .f32⟩ : BufTy).Contents (Elt Ideal)) :
    val_main_v65 (F := Ideal) x0 x15 x16 = Cert.Spec.slab 172 86 rfl 7 x0 x15 x16 := by
  funext i
  obtain ⟨a, c, f, t, rfl⟩ : ∃ (a : Fin 8) (c : Fin 2) (f : Fin 86) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 86 + f)
  have h8 : idx_main_v64 (idx_main_v65 (ix4 a c f t)) = ix3 a t (Cert.Spec.row 172 86 rfl c f) := funext fun e => Fin.ext (by
    match e with
    | ⟨0, _⟩ => show (((a.val * 4096 + t.val) * 2 + c.val) * 86 + f.val) / 704512 = a.val; omega
    | ⟨1, _⟩ => show (((a.val * 4096 + t.val) * 2 + c.val) * 86 + f.val) / 172 % 4096 = t.val; omega
    | ⟨2, _⟩ => show (((a.val * 4096 + t.val) * 2 + c.val) * 86 + f.val) % 172 = c.val * 86 + f.val; omega)
  -- the vector is broadcast along batch and time
  have h5 : idx_main_v61 (idx_main_v62 (ix3 a t (Cert.Spec.row 172 86 rfl c f))) = ix1 (Cert.Spec.row 172 86 rfl c f) :=
    funext fun e => Fin.ext (by match e with | ⟨0, _⟩ => rfl)
  rw [Cert.Spec.slab_apply, val_main_v65_apply, val_main_v64_apply, h8, val_main_v63_apply, val_main_v60_apply, val_main_v62_apply, val_main_v61_apply, h5,
    Ideal.addf_def]
  congr 1
  refine Finset.sum_congr rfl fun k _ => ?_
  have hk := k.isLt
  -- the two operands of the product at the summation index k
  have hl : lidx_main_v60 (ix3 a t (Cert.Spec.row 172 86 rfl c f)) k = ix3 a t k :=
    funext fun e => Fin.ext (by match e with | ⟨0, _⟩ => rfl | ⟨1, _⟩ => rfl | ⟨2, _⟩ => rfl)
  have hr : ridx_main_v60 (ix3 a t (Cert.Spec.row 172 86 rfl c f)) k = ix2 (Cert.Spec.row 172 86 rfl c f) k :=
    funext fun e => Fin.ext (by match e with | ⟨0, _⟩ => rfl | ⟨1, _⟩ => rfl)
  -- the reshape that drops the unit axis, the slice of band 7, the transpose, and the reshape that splits the channel
  have h3 : idx_main_v59 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v58 (ix4 a t (0 : Fin 1) k)) = ix4 a k (7 : Fin 12) t := funext fun e => Fin.ext (by
    match e with | ⟨0, _⟩ => rfl | ⟨1, _⟩ => rfl | ⟨2, _⟩ => rfl | ⟨3, _⟩ => rfl)
  have h0 : idx_main_v0 (ix4 a k (7 : Fin 12) t) = ix4 a (Cert.Spec.chan k 7) (0 : Fin 1) t := funext fun e => Fin.ext (by
    match e with
    | ⟨0, _⟩ => show (((a.val * 32 + k.val) * 12 + 7) * 4096 + t.val) / 1572864 = a.val; omega
    | ⟨1, _⟩ => show (((a.val * 32 + k.val) * 12 + 7) * 4096 + t.val) / 4096 % 384 = k.val * 12 + 7; omega
    | ⟨2, _⟩ => rfl
    | ⟨3, _⟩ => show (((a.val * 32 + k.val) * 12 + 7) * 4096 + t.val) % 4096 = t.val; omega)
  rw [hl, hr, val_main_v59_apply, h3, val_main_v58_apply, val_main_v1_apply, h1, val_main_v0_apply, h0]

/-- Band 8 (width 85): the last stage of the band's chain is the band's slab. Reading the chain backwards from an
    output position (a, c, f, t): the transpose reads (a, t, c, f); the reshape merges (c, f) into the row c * 85 + f of
    the band's matrix; the sum is the product of x at channel g * 12 + 8 with that row, plus the row's entry of the vector. -/
theorem band8 (x0 : (⟨S8x384x1x4096, .f32⟩ : BufTy).Contents (Elt Ideal))
    (x17 : (⟨S170x32, .f32⟩ : BufTy).Contents (Elt Ideal)) (x18 : (⟨S170, .f32⟩ : BufTy).Contents (Elt Ideal)) :
    val_main_v73 (F := Ideal) x0 x17 x18 = Cert.Spec.slab 170 85 rfl 8 x0 x17 x18 := by
  funext i
  obtain ⟨a, c, f, t, rfl⟩ : ∃ (a : Fin 8) (c : Fin 2) (f : Fin 85) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 85 + f)
  have h8 : idx_main_v72 (idx_main_v73 (ix4 a c f t)) = ix3 a t (Cert.Spec.row 170 85 rfl c f) := funext fun e => Fin.ext (by
    match e with
    | ⟨0, _⟩ => show (((a.val * 4096 + t.val) * 2 + c.val) * 85 + f.val) / 696320 = a.val; omega
    | ⟨1, _⟩ => show (((a.val * 4096 + t.val) * 2 + c.val) * 85 + f.val) / 170 % 4096 = t.val; omega
    | ⟨2, _⟩ => show (((a.val * 4096 + t.val) * 2 + c.val) * 85 + f.val) % 170 = c.val * 85 + f.val; omega)
  -- the vector is broadcast along batch and time
  have h5 : idx_main_v69 (idx_main_v70 (ix3 a t (Cert.Spec.row 170 85 rfl c f))) = ix1 (Cert.Spec.row 170 85 rfl c f) :=
    funext fun e => Fin.ext (by match e with | ⟨0, _⟩ => rfl)
  rw [Cert.Spec.slab_apply, val_main_v73_apply, val_main_v72_apply, h8, val_main_v71_apply, val_main_v68_apply, val_main_v70_apply, val_main_v69_apply, h5,
    Ideal.addf_def]
  congr 1
  refine Finset.sum_congr rfl fun k _ => ?_
  have hk := k.isLt
  -- the two operands of the product at the summation index k
  have hl : lidx_main_v68 (ix3 a t (Cert.Spec.row 170 85 rfl c f)) k = ix3 a t k :=
    funext fun e => Fin.ext (by match e with | ⟨0, _⟩ => rfl | ⟨1, _⟩ => rfl | ⟨2, _⟩ => rfl)
  have hr : ridx_main_v68 (ix3 a t (Cert.Spec.row 170 85 rfl c f)) k = ix2 (Cert.Spec.row 170 85 rfl c f) k :=
    funext fun e => Fin.ext (by match e with | ⟨0, _⟩ => rfl | ⟨1, _⟩ => rfl)
  -- the reshape that drops the unit axis, the slice of band 8, the transpose, and the reshape that splits the channel
  have h3 : idx_main_v67 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v66 (ix4 a t (0 : Fin 1) k)) = ix4 a k (8 : Fin 12) t := funext fun e => Fin.ext (by
    match e with | ⟨0, _⟩ => rfl | ⟨1, _⟩ => rfl | ⟨2, _⟩ => rfl | ⟨3, _⟩ => rfl)
  have h0 : idx_main_v0 (ix4 a k (8 : Fin 12) t) = ix4 a (Cert.Spec.chan k 8) (0 : Fin 1) t := funext fun e => Fin.ext (by
    match e with
    | ⟨0, _⟩ => show (((a.val * 32 + k.val) * 12 + 8) * 4096 + t.val) / 1572864 = a.val; omega
    | ⟨1, _⟩ => show (((a.val * 32 + k.val) * 12 + 8) * 4096 + t.val) / 4096 % 384 = k.val * 12 + 8; omega
    | ⟨2, _⟩ => rfl
    | ⟨3, _⟩ => show (((a.val * 32 + k.val) * 12 + 8) * 4096 + t.val) % 4096 = t.val; omega)
  rw [hl, hr, val_main_v67_apply, h3, val_main_v66_apply, val_main_v1_apply, h1, val_main_v0_apply, h0]

/-- Band 9 (width 86): the last stage of the band's chain is the band's slab. Reading the chain backwards from an
    output position (a, c, f, t): the transpose reads (a, t, c, f); the reshape merges (c, f) into the row c * 86 + f of
    the band's matrix; the sum is the product of x at channel g * 12 + 9 with that row, plus the row's entry of the vector. -/
theorem band9 (x0 : (⟨S8x384x1x4096, .f32⟩ : BufTy).Contents (Elt Ideal))
    (x19 : (⟨S172x32, .f32⟩ : BufTy).Contents (Elt Ideal)) (x20 : (⟨S172, .f32⟩ : BufTy).Contents (Elt Ideal)) :
    val_main_v81 (F := Ideal) x0 x19 x20 = Cert.Spec.slab 172 86 rfl 9 x0 x19 x20 := by
  funext i
  obtain ⟨a, c, f, t, rfl⟩ : ∃ (a : Fin 8) (c : Fin 2) (f : Fin 86) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 86 + f)
  have h8 : idx_main_v80 (idx_main_v81 (ix4 a c f t)) = ix3 a t (Cert.Spec.row 172 86 rfl c f) := funext fun e => Fin.ext (by
    match e with
    | ⟨0, _⟩ => show (((a.val * 4096 + t.val) * 2 + c.val) * 86 + f.val) / 704512 = a.val; omega
    | ⟨1, _⟩ => show (((a.val * 4096 + t.val) * 2 + c.val) * 86 + f.val) / 172 % 4096 = t.val; omega
    | ⟨2, _⟩ => show (((a.val * 4096 + t.val) * 2 + c.val) * 86 + f.val) % 172 = c.val * 86 + f.val; omega)
  -- the vector is broadcast along batch and time
  have h5 : idx_main_v77 (idx_main_v78 (ix3 a t (Cert.Spec.row 172 86 rfl c f))) = ix1 (Cert.Spec.row 172 86 rfl c f) :=
    funext fun e => Fin.ext (by match e with | ⟨0, _⟩ => rfl)
  rw [Cert.Spec.slab_apply, val_main_v81_apply, val_main_v80_apply, h8, val_main_v79_apply, val_main_v76_apply, val_main_v78_apply, val_main_v77_apply, h5,
    Ideal.addf_def]
  congr 1
  refine Finset.sum_congr rfl fun k _ => ?_
  have hk := k.isLt
  -- the two operands of the product at the summation index k
  have hl : lidx_main_v76 (ix3 a t (Cert.Spec.row 172 86 rfl c f)) k = ix3 a t k :=
    funext fun e => Fin.ext (by match e with | ⟨0, _⟩ => rfl | ⟨1, _⟩ => rfl | ⟨2, _⟩ => rfl)
  have hr : ridx_main_v76 (ix3 a t (Cert.Spec.row 172 86 rfl c f)) k = ix2 (Cert.Spec.row 172 86 rfl c f) k :=
    funext fun e => Fin.ext (by match e with | ⟨0, _⟩ => rfl | ⟨1, _⟩ => rfl)
  -- the reshape that drops the unit axis, the slice of band 9, the transpose, and the reshape that splits the channel
  have h3 : idx_main_v75 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v74 (ix4 a t (0 : Fin 1) k)) = ix4 a k (9 : Fin 12) t := funext fun e => Fin.ext (by
    match e with | ⟨0, _⟩ => rfl | ⟨1, _⟩ => rfl | ⟨2, _⟩ => rfl | ⟨3, _⟩ => rfl)
  have h0 : idx_main_v0 (ix4 a k (9 : Fin 12) t) = ix4 a (Cert.Spec.chan k 9) (0 : Fin 1) t := funext fun e => Fin.ext (by
    match e with
    | ⟨0, _⟩ => show (((a.val * 32 + k.val) * 12 + 9) * 4096 + t.val) / 1572864 = a.val; omega
    | ⟨1, _⟩ => show (((a.val * 32 + k.val) * 12 + 9) * 4096 + t.val) / 4096 % 384 = k.val * 12 + 9; omega
    | ⟨2, _⟩ => rfl
    | ⟨3, _⟩ => show (((a.val * 32 + k.val) * 12 + 9) * 4096 + t.val) % 4096 = t.val; omega)
  rw [hl, hr, val_main_v75_apply, h3, val_main_v74_apply, val_main_v1_apply, h1, val_main_v0_apply, h0]

/-- Band 10 (width 85): the last stage of the band's chain is the band's slab. Reading the chain backwards from an
    output position (a, c, f, t): the transpose reads (a, t, c, f); the reshape merges (c, f) into the row c * 85 + f of
    the band's matrix; the sum is the product of x at channel g * 12 + 10 with that row, plus the row's entry of the vector. -/
theorem band10 (x0 : (⟨S8x384x1x4096, .f32⟩ : BufTy).Contents (Elt Ideal))
    (x21 : (⟨S170x32, .f32⟩ : BufTy).Contents (Elt Ideal)) (x22 : (⟨S170, .f32⟩ : BufTy).Contents (Elt Ideal)) :
    val_main_v89 (F := Ideal) x0 x21 x22 = Cert.Spec.slab 170 85 rfl 10 x0 x21 x22 := by
  funext i
  obtain ⟨a, c, f, t, rfl⟩ : ∃ (a : Fin 8) (c : Fin 2) (f : Fin 85) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 85 + f)
  have h8 : idx_main_v88 (idx_main_v89 (ix4 a c f t)) = ix3 a t (Cert.Spec.row 170 85 rfl c f) := funext fun e => Fin.ext (by
    match e with
    | ⟨0, _⟩ => show (((a.val * 4096 + t.val) * 2 + c.val) * 85 + f.val) / 696320 = a.val; omega
    | ⟨1, _⟩ => show (((a.val * 4096 + t.val) * 2 + c.val) * 85 + f.val) / 170 % 4096 = t.val; omega
    | ⟨2, _⟩ => show (((a.val * 4096 + t.val) * 2 + c.val) * 85 + f.val) % 170 = c.val * 85 + f.val; omega)
  -- the vector is broadcast along batch and time
  have h5 : idx_main_v85 (idx_main_v86 (ix3 a t (Cert.Spec.row 170 85 rfl c f))) = ix1 (Cert.Spec.row 170 85 rfl c f) :=
    funext fun e => Fin.ext (by match e with | ⟨0, _⟩ => rfl)
  rw [Cert.Spec.slab_apply, val_main_v89_apply, val_main_v88_apply, h8, val_main_v87_apply, val_main_v84_apply, val_main_v86_apply, val_main_v85_apply, h5,
    Ideal.addf_def]
  congr 1
  refine Finset.sum_congr rfl fun k _ => ?_
  have hk := k.isLt
  -- the two operands of the product at the summation index k
  have hl : lidx_main_v84 (ix3 a t (Cert.Spec.row 170 85 rfl c f)) k = ix3 a t k :=
    funext fun e => Fin.ext (by match e with | ⟨0, _⟩ => rfl | ⟨1, _⟩ => rfl | ⟨2, _⟩ => rfl)
  have hr : ridx_main_v84 (ix3 a t (Cert.Spec.row 170 85 rfl c f)) k = ix2 (Cert.Spec.row 170 85 rfl c f) k :=
    funext fun e => Fin.ext (by match e with | ⟨0, _⟩ => rfl | ⟨1, _⟩ => rfl)
  -- the reshape that drops the unit axis, the slice of band 10, the transpose, and the reshape that splits the channel
  have h3 : idx_main_v83 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v82 (ix4 a t (0 : Fin 1) k)) = ix4 a k (10 : Fin 12) t := funext fun e => Fin.ext (by
    match e with | ⟨0, _⟩ => rfl | ⟨1, _⟩ => rfl | ⟨2, _⟩ => rfl | ⟨3, _⟩ => rfl)
  have h0 : idx_main_v0 (ix4 a k (10 : Fin 12) t) = ix4 a (Cert.Spec.chan k 10) (0 : Fin 1) t := funext fun e => Fin.ext (by
    match e with
    | ⟨0, _⟩ => show (((a.val * 32 + k.val) * 12 + 10) * 4096 + t.val) / 1572864 = a.val; omega
    | ⟨1, _⟩ => show (((a.val * 32 + k.val) * 12 + 10) * 4096 + t.val) / 4096 % 384 = k.val * 12 + 10; omega
    | ⟨2, _⟩ => rfl
    | ⟨3, _⟩ => show (((a.val * 32 + k.val) * 12 + 10) * 4096 + t.val) % 4096 = t.val; omega)
  rw [hl, hr, val_main_v83_apply, h3, val_main_v82_apply, val_main_v1_apply, h1, val_main_v0_apply, h0]

/-- Band 11 (width 86): the last stage of the band's chain is the band's slab. Reading the chain backwards from an
    output position (a, c, f, t): the transpose reads (a, t, c, f); the reshape merges (c, f) into the row c * 86 + f of
    the band's matrix; the sum is the product of x at channel g * 12 + 11 with that row, plus the row's entry of the vector. -/
theorem band11 (x0 : (⟨S8x384x1x4096, .f32⟩ : BufTy).Contents (Elt Ideal))
    (x23 : (⟨S172x32, .f32⟩ : BufTy).Contents (Elt Ideal)) (x24 : (⟨S172, .f32⟩ : BufTy).Contents (Elt Ideal)) :
    val_main_v97 (F := Ideal) x0 x23 x24 = Cert.Spec.slab 172 86 rfl 11 x0 x23 x24 := by
  funext i
  obtain ⟨a, c, f, t, rfl⟩ : ∃ (a : Fin 8) (c : Fin 2) (f : Fin 86) (t : Fin 4096), i = ix4 a c f t :=
    ⟨i 0, i 1, i 2, i 3, eq_ix4 i⟩
  have ha := a.isLt; have hc := c.isLt; have hf := f.isLt; have ht := t.isLt
  -- the transpose then the reshape: position (a, c, f, t) comes from (a, t, c * 86 + f)
  have h8 : idx_main_v96 (idx_main_v97 (ix4 a c f t)) = ix3 a t (Cert.Spec.row 172 86 rfl c f) := funext fun e => Fin.ext (by
    match e with
    | ⟨0, _⟩ => show (((a.val * 4096 + t.val) * 2 + c.val) * 86 + f.val) / 704512 = a.val; omega
    | ⟨1, _⟩ => show (((a.val * 4096 + t.val) * 2 + c.val) * 86 + f.val) / 172 % 4096 = t.val; omega
    | ⟨2, _⟩ => show (((a.val * 4096 + t.val) * 2 + c.val) * 86 + f.val) % 172 = c.val * 86 + f.val; omega)
  -- the vector is broadcast along batch and time
  have h5 : idx_main_v93 (idx_main_v94 (ix3 a t (Cert.Spec.row 172 86 rfl c f))) = ix1 (Cert.Spec.row 172 86 rfl c f) :=
    funext fun e => Fin.ext (by match e with | ⟨0, _⟩ => rfl)
  rw [Cert.Spec.slab_apply, val_main_v97_apply, val_main_v96_apply, h8, val_main_v95_apply, val_main_v92_apply, val_main_v94_apply, val_main_v93_apply, h5,
    Ideal.addf_def]
  congr 1
  refine Finset.sum_congr rfl fun k _ => ?_
  have hk := k.isLt
  -- the two operands of the product at the summation index k
  have hl : lidx_main_v92 (ix3 a t (Cert.Spec.row 172 86 rfl c f)) k = ix3 a t k :=
    funext fun e => Fin.ext (by match e with | ⟨0, _⟩ => rfl | ⟨1, _⟩ => rfl | ⟨2, _⟩ => rfl)
  have hr : ridx_main_v92 (ix3 a t (Cert.Spec.row 172 86 rfl c f)) k = ix2 (Cert.Spec.row 172 86 rfl c f) k :=
    funext fun e => Fin.ext (by match e with | ⟨0, _⟩ => rfl | ⟨1, _⟩ => rfl)
  -- the reshape that drops the unit axis, the slice of band 11, the transpose, and the reshape that splits the channel
  have h3 : idx_main_v91 (ix3 a t k) = ix4 a t (0 : Fin 1) k := funext fun e => Fin.ext (by
    match e with
    | ⟨0, _⟩ => show ((a.val * 4096 + t.val) * 32 + k.val) / 131072 = a.val; omega
    | ⟨1, _⟩ => show ((a.val * 4096 + t.val) * 32 + k.val) / 32 % 4096 = t.val; omega
    | ⟨2, _⟩ => rfl
    | ⟨3, _⟩ => show ((a.val * 4096 + t.val) * 32 + k.val) % 32 = k.val; omega)
  have h1 : idx_main_v1 (idx_main_v90 (ix4 a t (0 : Fin 1) k)) = ix4 a k (11 : Fin 12) t := funext fun e => Fin.ext (by
    match e with | ⟨0, _⟩ => rfl | ⟨1, _⟩ => rfl | ⟨2, _⟩ => rfl | ⟨3, _⟩ => rfl)
  have h0 : idx_main_v0 (ix4 a k (11 : Fin 12) t) = ix4 a (Cert.Spec.chan k 11) (0 : Fin 1) t := funext fun e => Fin.ext (by
    match e with
    | ⟨0, _⟩ => show (((a.val * 32 + k.val) * 12 + 11) * 4096 + t.val) / 1572864 = a.val; omega
    | ⟨1, _⟩ => show (((a.val * 32 + k.val) * 12 + 11) * 4096 + t.val) / 4096 % 384 = k.val * 12 + 11; omega
    | ⟨2, _⟩ => rfl
    | ⟨3, _⟩ => show (((a.val * 32 + k.val) * 12 + 11) * 4096 + t.val) % 4096 = t.val; omega)
  rw [hl, hr, val_main_v91_apply, h3, val_main_v90_apply, val_main_v1_apply, h1, val_main_v0_apply, h0]

/-- The reference's result is the specification's: its last operation sets the twelve bands' last stages side by side
    along the frequency axis, and each of them is the band's slab. -/
theorem ref_eq
    (x0 : (⟨S8x384x1x4096, .f32⟩ : BufTy).Contents (Elt Ideal)) (x1 : (⟨S170x32, .f32⟩ : BufTy).Contents (Elt Ideal)) (x2 : (⟨S170, .f32⟩ : BufTy).Contents (Elt Ideal))
    (x3 : (⟨S170x32, .f32⟩ : BufTy).Contents (Elt Ideal)) (x4 : (⟨S170, .f32⟩ : BufTy).Contents (Elt Ideal)) (x5 : (⟨S172x32, .f32⟩ : BufTy).Contents (Elt Ideal))
    (x6 : (⟨S172, .f32⟩ : BufTy).Contents (Elt Ideal)) (x7 : (⟨S170x32, .f32⟩ : BufTy).Contents (Elt Ideal)) (x8 : (⟨S170, .f32⟩ : BufTy).Contents (Elt Ideal))
    (x9 : (⟨S172x32, .f32⟩ : BufTy).Contents (Elt Ideal)) (x10 : (⟨S172, .f32⟩ : BufTy).Contents (Elt Ideal)) (x11 : (⟨S170x32, .f32⟩ : BufTy).Contents (Elt Ideal))
    (x12 : (⟨S170, .f32⟩ : BufTy).Contents (Elt Ideal)) (x13 : (⟨S170x32, .f32⟩ : BufTy).Contents (Elt Ideal)) (x14 : (⟨S170, .f32⟩ : BufTy).Contents (Elt Ideal))
    (x15 : (⟨S172x32, .f32⟩ : BufTy).Contents (Elt Ideal)) (x16 : (⟨S172, .f32⟩ : BufTy).Contents (Elt Ideal)) (x17 : (⟨S170x32, .f32⟩ : BufTy).Contents (Elt Ideal))
    (x18 : (⟨S170, .f32⟩ : BufTy).Contents (Elt Ideal)) (x19 : (⟨S172x32, .f32⟩ : BufTy).Contents (Elt Ideal)) (x20 : (⟨S172, .f32⟩ : BufTy).Contents (Elt Ideal))
    (x21 : (⟨S170x32, .f32⟩ : BufTy).Contents (Elt Ideal)) (x22 : (⟨S170, .f32⟩ : BufTy).Contents (Elt Ideal)) (x23 : (⟨S172x32, .f32⟩ : BufTy).Contents (Elt Ideal))
    (x24 : (⟨S172, .f32⟩ : BufTy).Contents (Elt Ideal)) :
    Cert.ReferenceIdeal.Read.val_main_v98 (F := Ideal) x0 x1 x2 x3 x4 x5 x6 x7 x8 x9 x10 x11 x12 x13 x14 x15 x16 x17 x18 x19 x20 x21 x22 x23 x24
      = Cert.Spec.G x0 x1 x2 x3 x4 x5 x6 x7 x8 x9 x10 x11 x12 x13 x14 x15 x16 x17 x18 x19 x20 x21 x22 x23 x24 := by
  unfold Cert.ReferenceIdeal.Read.val_main_v98 Cert.Spec.G
  rw [band0, band1, band2, band3, band4, band5, band6, band7, band8, band9, band10, band11]

end Cert.RefIsSpec

end
-- ==== Proof.KernelSpec.lean ====
/-
  The kernel's result as a function of the three arrays the region is launched on: the matrix A of shape [2050, 384]
  (row c * 1025 + f for output channel c and frequency f), the column v of shape [2050, 1], and the input y of shape
  [8, 384, 4096]. At batch a, channel c, frequency f and time t the result is

      sum over k < 384 of A(c * 1025 + f, k) * y(a, k, t)   +   v(c * 1025 + f, 0).
-/
import Idealize.ShloMosaic.Lib.ValueIdx
import Idealize.ShloMosaic.PureOps.Ideal.Laws

noncomputable section

namespace Cert.KernelSpec

open Idealize.ShloMosaic Idealize.ShloMosaic.ValueIdx

/-- Row c * 1025 + f of the big matrix. -/
abbrev bigRow (c : Fin 2) (f : Fin 1025) : Fin 2050 := ⟨c.val * 1025 + f.val, by have := c.isLt; have := f.isLt; omega⟩

/-- The matrix product plus the column, laid out as [8, 2, 1025, 4096]. -/
def K (y : (⟨3, ![8, 384, 4096]⟩ : Shape).Idx → EReal) (A : (⟨2, ![2050, 384]⟩ : Shape).Idx → EReal)
    (v : (⟨2, ![2050, 1]⟩ : Shape).Idx → EReal) : (⟨4, ![8, 2, 1025, 4096]⟩ : Shape).Idx → EReal := fun i =>
  (∑ k : Fin 384, A (ix2 (bigRow ⟨(i 1).val, (i 1).isLt⟩ ⟨(i 2).val, (i 2).isLt⟩) k)
      * y (ix3 (⟨(i 0).val, (i 0).isLt⟩ : Fin 8) k (⟨(i 3).val, (i 3).isLt⟩ : Fin 4096)))
    + v (ix2 (bigRow ⟨(i 1).val, (i 1).isLt⟩ ⟨(i 2).val, (i 2).isLt⟩) (0 : Fin 1))

/-- K at explicit coordinates. -/
theorem K_apply (y : (⟨3, ![8, 384, 4096]⟩ : Shape).Idx → EReal) (A : (⟨2, ![2050, 384]⟩ : Shape).Idx → EReal)
    (v : (⟨2, ![2050, 1]⟩ : Shape).Idx → EReal) (a : Fin 8) (c : Fin 2) (f : Fin 1025) (t : Fin 4096) :
    K y A v (ix4 a c f t) = (∑ k : Fin 384, A (ix2 (bigRow c f) k) * y (ix3 a k t)) + v (ix2 (bigRow c f) (0 : Fin 1)) := rfl

end Cert.KernelSpec

end
-- ==== Proof.LibDotPlain.lean ====
/-
  A plain matrix product read at an entry.

  For dimension numbers that contract the left operand's axis 1 with the right operand's axis 0 and have no batch axes
  (an [M, K] matrix times a [K, N] matrix), the sum over the contraction shape that both a kernel's matrix product into
  a zero accumulator and a host dot product are, at the extended reals, is the textbook sum over k < K of
  x(p, k) · w(k, q): the left operand's index at output entry (p, q) and contraction position k is (p, k), the right
  operand's is (k, q), and a one-axis contraction position is its one coordinate.
-/
import Idealize.ShloMosaic.Lib.ValueIdx
import Idealize.ShloMosaic.PureOps.Ideal.Laws

noncomputable section

namespace Idealize.ShloMosaic.DotPlain

open Idealize.ShloMosaic Idealize.ShloMosaic.ValueIdx

variable {M K N : Nat} (D : DotDims ⟨2, ![M, K]⟩ ⟨2, ![K, N]⟩ ⟨2, ![M, N]⟩)

/-- The left operand's row coordinate is the output entry's row. -/
theorem lhs_row (hln : D.lhsNonContracting = [0]) (hlb : D.lhsBatch = []) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

/-- The right operand's column coordinate is the output entry's column. -/
theorem rhs_col (hln : D.lhsNonContracting = [0]) (hrn : D.rhsNonContracting = [1]) (hlb : D.lhsBatch = []) (hrb : D.rhsBatch = [])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

/-- THE SUM: over the contraction shape it is the sum over `k < K` of `x (p, k) · w (k, q)`. -/
theorem sum_eq (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = K)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hln hlb _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhs_col D hln hrn hlb hrb _ _)
  rw [el, er]

end Idealize.ShloMosaic.DotPlain

end
-- ==== Proof.KernelArray.lean ====
/-
  What the kernel's run leaves in the output array.

  The grid has sixteen points; point t works on times 256 t … 256 t + 255. At each point the body loads the whole
  [2050, 384] matrix A and the whole [2050, 1] column v and, for each batch a < 8, loads the [1, 384, 256] slab of the
  input y, multiplies A by it into a zero accumulator, adds v along every column, reads the [2050, 256] result as
  [2, 1025, 256] (row c * 1025 + f is channel c, frequency f) and stores it as batch a of the [8, 2, 1025, 256] block.

  Three steps.
  (1) One store's value at the index (0, c, f, tt) is  ∑ k < 384, A(c * 1025 + f, k) * slab(0, k, tt) + v(c * 1025 + f, 0):
      the shape casts keep the row-major position, a matrix product into a zero accumulator is the plain sum over the
      contraction index, and the broadcast of a column reads its row. The eight stores all apply this one function.
  (2) The eight stores tile the block along the batch axis, so the block after the body is one function of the three
      input blocks, index by index.
  (3) The input block at point t is times 256 t … 256 t + 255 of y, the matrix and column blocks are the whole arrays, and
      the output block at point t sits at the same times of the output. So what point t writes back is block t of the
      array function K of the specification, and the sixteen blocks cover the array (time s lies in block s / 256): the
      array ends holding K of the three arrays as the region finds them.
-/
import proofs.«145164_j67224828117616_2_alg».proof.Proof.Gen.KernelIdeal.Value
import proofs.«145164_j67224828117616_2_alg».proof.Proof.KernelSpec
import proofs.«145164_j67224828117616_2_alg».proof.Proof.LibDotPlain
import Idealize.ShloMosaic.Lib.Pipeline.Value
import Idealize.ShloMosaic.Lib.ValueIdx

noncomputable section

namespace Cert.KernelArray

open Cert.KernelIdeal Cert.KernelIdeal.Gen Idealize.ShloMosaic Idealize.ShloMosaic.TcCoe Idealize.SL.Sem
open Idealize.ShloMosaic.ValueIdx Cert.KernelSpec
open Idealize.ShloMosaic.Pipeline (Dat)

/-! ## One store's value at an index -/

/-- The contraction of a [2050, 384] matrix with a [384, 256] matrix, entry by entry. -/
theorem contr_sum (x : (⟨2, ![2050, 384]⟩ : Shape).Idx → EReal) (w : (⟨2, ![384, 256]⟩ : Shape).Idx → EReal) (p : Fin 2050) (q : Fin 256) :
    ∑ k : dot_S2050x384_S384x256_S2050x256_1_0_0_1_n_n.contr.Idx,
        x (dot_S2050x384_S384x256_S2050x256_1_0_0_1_n_n.lhsIdx (ix2 p q) k) * w (dot_S2050x384_S384x256_S2050x256_1_0_0_1_n_n.rhsIdx (ix2 p q) k)
      = ∑ k : Fin 384, x (ix2 p k) * w (ix2 k q) :=
  DotPlain.sum_eq dot_S2050x384_S384x256_S2050x256_1_0_0_1_n_n rfl rfl rfl rfl rfl rfl rfl rfl x w p q

theorem pay_apply (W : FVec Ideal S2050x384 .f32) (b : FVec Ideal S2050x1 .f32) (xb : Vec Ideal S1x384x256 .f32)
    (c : Fin 2) (f : Fin 1025) (tt : Fin 256) :
    k0_pay1 W b xb (ix4 (0 : Fin 1) c f tt)
      = (∑ k : Fin 384, W (ix2 (bigRow c f) k) * xb (ix3 (0 : Fin 1) k tt)) + b (ix2 (bigRow c f) (0 : Fin 1)) := by
  unfold k0_pay1
  refine (shapeCast_apply _ _ (ix4 (0 : Fin 1) c f tt) (ix3 c f tt) ?_).trans ?_
  · rw [Shape.rowMajor_val_three, Shape.rowMajor_val_four]
    show ((c.val * 1025 + f.val) * 256 + tt.val) = (((0 * 2 + c.val) * 1025 + f.val) * 256 + tt.val)
    omega
  refine (shapeCast_apply _ _ (ix3 c f tt) (ix2 (bigRow c f) tt) ?_).trans ?_
  · rw [Shape.rowMajor_val_two, Shape.rowMajor_val_three]
    show (c.val * 1025 + f.val) * 256 + tt.val = (c.val * 1025 + f.val) * 256 + tt.val
    rfl
  show FloatOps.matmul dot_S2050x384_S384x256_S2050x256_1_0_0_1_n_n none W (shapeCast S384x256 xb shapeCasts_S1x384x256_S384x256)
        (constant S2050x256 FTy.f32 0x00000000#32) (ix2 (bigRow c f) tt)
      + broadcastTo S2050x256 b broadcasts_S2050x1_S2050x256 (ix2 (bigRow c f) tt) = _
  have hm := Ideal.matmul_constant_zero_apply (φ₁ := .f32) (φ₂ := .f32) dot_S2050x384_S384x256_S2050x256_1_0_0_1_n_n none W
      (shapeCast S384x256 xb shapeCasts_S1x384x256_S384x256 : FVec Ideal S384x256 .f32) (ix2 (bigRow c f) tt)
  have hb : broadcastTo S2050x256 b broadcasts_S2050x1_S2050x256 (ix2 (bigRow c f) tt) = b (ix2 (bigRow c f) (0 : Fin 1)) :=
    broadcastTo_apply b broadcasts_S2050x1_S2050x256 (ix2 (bigRow c f) tt) (ix2 (bigRow c f) (0 : Fin 1)) (fun a => by
      match a with
      | ⟨0, _⟩ => rfl
      | ⟨1, _⟩ => rfl)
  have hx : ∀ k : Fin 384, shapeCast S384x256 xb shapeCasts_S1x384x256_S384x256 (ix2 k tt) = xb (ix3 (0 : Fin 1) k tt) := fun k =>
    shapeCast_apply xb shapeCasts_S1x384x256_S384x256 (ix2 k tt) (ix3 (0 : Fin 1) k tt) (by
      rw [Shape.rowMajor_val_two, Shape.rowMajor_val_three]
      show (0 * 384 + k.val) * 256 + tt.val = k.val * 256 + tt.val
      omega)
  rw [hm, hb, contr_sum]
  simp only [hx]

/-! ## The eight payloads are one function -/

theorem hz2 : (![0, 0] : Fin 2 → Nat) = fun _ => 0 := funext fun a => by fin_cases a <;> rfl

/-- The matrix block, loaded whole and cast to its own shape, is the matrix. -/
theorem mat_eq (x1 : Vec Ideal S2050x384 .f32) : k0_pay3 (View.ld x1 r0_0) = x1 := by
  unfold k0_pay3
  rw [shapeCast_self, View.ld_unit_zero (S := S2050x384) hz2]

/-- The column block, loaded whole and cast to its own shape, is the column. -/
theorem col_eq (x2 : Vec Ideal S2050x1 .f32) : k0_pay4 (View.ld x2 r0_1) = x2 := by
  unfold k0_pay4
  rw [shapeCast_self, View.ld_unit_zero (S := S2050x1) hz2]

theorem pay2_eq (v1 : FVec Ideal S2050x384 .f32) (v3 : FVec Ideal S2050x1 .f32) (x : Vec Ideal S1x384x256 .f32) :
    k0_pay2 v1 v3 x = k0_pay1 v1 v3 x := rfl
theorem pay9_eq (v1 : FVec Ideal S2050x384 .f32) (v3 : FVec Ideal S2050x1 .f32) (x : Vec Ideal S1x384x256 .f32) :
    k0_pay9 v1 v3 x = k0_pay1 v1 v3 x := rfl
theorem pay10_eq (v1 : FVec Ideal S2050x384 .f32) (v3 : FVec Ideal S2050x1 .f32) (x : Vec Ideal S1x384x256 .f32) :
    k0_pay10 v1 v3 x = k0_pay1 v1 v3 x := rfl
theorem pay11_eq (v1 : FVec Ideal S2050x384 .f32) (v3 : FVec Ideal S2050x1 .f32) (x : Vec Ideal S1x384x256 .f32) :
    k0_pay11 v1 v3 x = k0_pay1 v1 v3 x := rfl
theorem pay5_eq (v0 : Vec Ideal S2050x384 .f32) (v2 : Vec Ideal S2050x1 .f32) (x : Vec Ideal S1x384x256 .f32) :
    k0_pay5 v0 v2 x = k0_pay1 (k0_pay3 v0) (k0_pay4 v2) x := rfl
theorem pay6_eq (v0 : Vec Ideal S2050x384 .f32) (v2 : Vec Ideal S2050x1 .f32) (x : Vec Ideal S1x384x256 .f32) :
    k0_pay6 v0 v2 x = k0_pay1 (k0_pay3 v0) (k0_pay4 v2) x := rfl
theorem pay87_eq (v0 : Vec Ideal S2050x384 .f32) (v2 : Vec Ideal S2050x1 .f32) (x : Vec Ideal S1x384x256 .f32) :
    k0_pay8 (k0_pay7 v0 v2 x) = k0_pay1 (k0_pay3 v0) (k0_pay4 v2) x := rfl

/-! ## What the body leaves in the output block -/

/-- The output block as one function of the three input blocks: at batch a, channel c, frequency f and time tt of the
    block, the matrix row c * 1025 + f against column tt of batch a's [384, 256] slab, plus the column's entry. -/
def blockG (x0 : Vec Ideal S8x384x256 .f32) (x1 : Vec Ideal S2050x384 .f32) (x2 : Vec Ideal S2050x1 .f32) :
    S8x2x1025x256.Idx → EReal := fun y =>
  (∑ k : Fin 384, x1 (ix2 (bigRow ⟨(y 1).val, (y 1).isLt⟩ ⟨(y 2).val, (y 2).isLt⟩) k)
      * x0 (ix3 (⟨(y 0).val, (y 0).isLt⟩ : Fin 8) k (⟨(y 3).val, (y 3).isLt⟩ : Fin 256)))
    + x2 (ix2 (bigRow ⟨(y 1).val, (y 1).isLt⟩ ⟨(y 2).val, (y 2).isLt⟩) (0 : Fin 1))

/-- Batch n's store: its payload, at an index of the stored slab, is the block function at that index placed in the block. -/
theorem piece_eq (n : Nat) (hn : n < 8)
    (inbo : ∀ a, (![n, 0, 0, 0] : Fin 4 → Nat) a + S1x2x1025x256.size a ≤ S8x2x1025x256.size a)
    (inbi : ∀ a, (![n, 0, 0] : Fin 3 → Nat) a + S1x384x256.size a ≤ S8x384x256.size a)
    (x0 : Vec Ideal S8x384x256 .f32) (x1 : Vec Ideal S2050x384 .f32) (x2 : Vec Ideal S2050x1 .f32)
    (x : S1x2x1025x256.Idx) :
    k0_pay1 x1 x2 (View.ld x0 (Rect.unit (s := S8x384x256) ![n, 0, 0] S1x384x256.size inbi)) x
      = blockG x0 x1 x2 ((Rect.unit (s := S8x2x1025x256) ![n, 0, 0, 0] S1x2x1025x256.size inbo).emb x) := by
  obtain ⟨z, c, f, tt, rfl⟩ : ∃ (z : Fin 1) (c : Fin 2) (f : Fin 1025) (tt : Fin 256), x = ix4 z c f tt :=
    ⟨x 0, x 1, x 2, x 3, eq_ix4 x⟩
  obtain rfl : z = 0 := Subsingleton.elim _ _
  rw [pay_apply]
  unfold blockG
  have er : ∀ k : Fin 384, ix2 (bigRow c f) k = ix2 (bigRow
      ⟨((Rect.unit (s := S8x2x1025x256) ![n, 0, 0, 0] S1x2x1025x256.size inbo).emb (ix4 (0 : Fin 1) c f tt) 1).val, Fin.isLt _⟩
      ⟨((Rect.unit (s := S8x2x1025x256) ![n, 0, 0, 0] S1x2x1025x256.size inbo).emb (ix4 (0 : Fin 1) c f tt) 2).val, Fin.isLt _⟩) k := fun k =>
    funext fun a => Fin.ext (by
      match a with
      | ⟨0, _⟩ => show c.val * 1025 + f.val = (0 + 1 * c.val) * 1025 + (0 + 1 * f.val); omega
      | ⟨1, _⟩ => rfl)
  refine congrArg₂ (· + ·) (Finset.sum_congr rfl fun k _ => congrArg₂ (· * ·) (congrArg x1 (er k)) (congrArg x0 ?_)) (congrArg x2 ?_)
  · funext a; apply Fin.ext
    match a with
    | ⟨0, _⟩ => show n + 1 * 0 = n + 1 * 0; rfl
    | ⟨1, _⟩ => show 0 + 1 * k.val = k.val; omega
    | ⟨2, _⟩ => show 0 + 1 * tt.val = 0 + 1 * tt.val; rfl
  · funext a; apply Fin.ext
    match a with
    | ⟨0, _⟩ => show c.val * 1025 + f.val = (0 + 1 * c.val) * 1025 + (0 + 1 * f.val); omega
    | ⟨1, _⟩ => rfl

/-- The eight stores, one per batch, leave the block function of the input blocks. -/
theorem out_eq (x0 : Vec Ideal S8x384x256 .f32) (x1 : Vec Ideal S2050x384 .f32) (x2 : Vec Ideal S2050x1 .f32) :
    out0_3 x0 x1 x2 = blockG x0 x1 x2 := by
  funext y
  unfold out0_3
  rw [pay2_eq, pay9_eq, pay10_eq, pay11_eq, pay5_eq, pay6_eq, pay87_eq, mat_eq, col_eq]
  refine View.canon_apply_of_pieces (Val := Elt Ideal) (e := .f32) (blockG x0 x1 x2) _ ?_ y (cover0_3 _ _ _ _ _ _ _ _ y)
  refine List.forall_mem_cons.mpr ⟨piece_eq 7 (by omega) inb_S8x2x1025x256_S1x2x1025x256_7_0_0_0 inb_S8x384x256_S1x384x256_7_0_0 x0 x1 x2, ?_⟩
  refine List.forall_mem_cons.mpr ⟨piece_eq 6 (by omega) inb_S8x2x1025x256_S1x2x1025x256_6_0_0_0 inb_S8x384x256_S1x384x256_6_0_0 x0 x1 x2, ?_⟩
  refine List.forall_mem_cons.mpr ⟨piece_eq 5 (by omega) inb_S8x2x1025x256_S1x2x1025x256_5_0_0_0 inb_S8x384x256_S1x384x256_5_0_0 x0 x1 x2, ?_⟩
  refine List.forall_mem_cons.mpr ⟨piece_eq 4 (by omega) inb_S8x2x1025x256_S1x2x1025x256_4_0_0_0 inb_S8x384x256_S1x384x256_4_0_0 x0 x1 x2, ?_⟩
  refine List.forall_mem_cons.mpr ⟨piece_eq 3 (by omega) inb_S8x2x1025x256_S1x2x1025x256_3_0_0_0 inb_S8x384x256_S1x384x256_3_0_0 x0 x1 x2, ?_⟩
  refine List.forall_mem_cons.mpr ⟨piece_eq 2 (by omega) inb_S8x2x1025x256_S1x2x1025x256_2_0_0_0 inb_S8x384x256_S1x384x256_2_0_0 x0 x1 x2, ?_⟩
  refine List.forall_mem_cons.mpr ⟨piece_eq 1 (by omega) inb_S8x2x1025x256_S1x2x1025x256_1_0_0_0 inb_S8x384x256_S1x384x256_1_0_0 x0 x1 x2, ?_⟩
  refine List.forall_mem_cons.mpr ⟨piece_eq 0 (by omega) inb_S8x2x1025x256_S1x2x1025x256_0_0_0_0 inb_S8x384x256_S1x384x256_0_0_0 x0 x1 x2, ?_⟩
  exact fun _ h => absurd h List.not_mem_nil

/-! ## From the blocks to the array -/

variable (m : (ℓ : Loc nD τ sig) → Buf (Elt Ideal) ℓ) (ρ : Dev nD → PrngReg)

/-- The printed index maps over the grid: the input moves along the time axis with the output, one block of 256 per
    point, and every other block index is zero. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = 0 ∧ win0_3.index t (1 : Fin 4) = 0 ∧ win0_3.index t (2 : Fin 4) = 0
    ∧ win0_3.index t (3 : Fin 4) = t.val :=
  (by decide +kernel : ∀ t : Fin grid0.N, _)

theorem lt_N (t : Fin cfg0.N) : t.val < 16 := by have h := t.isLt; have hN : cfg0.N = 16 := N_0; omega

/-- The input block at point t is times 256 t … 256 t + 255 of the input. -/
theorem x_blk (c : Dev nD) (t : Fin cfg0.N) (a : Fin 8) (k : Fin 384) (tt : Fin 256) :
    (iblk m c 0 t : Vec Ideal S8x384x256 .f32) (ix3 a k tt)
      = (V m c main_v100 : S8x384x4096.Idx → EReal) (ix3 a k ⟨t.val * 256 + tt.val, by have := lt_N t; omega⟩) := by
  obtain ⟨e0, e1, e2, -⟩ := idx_facts t
  unfold iblk
  rw [View.read_apply]
  show V m c main_v100 _ = V m c main_v100 _
  refine congrArg (V m c main_v100) ?_
  funext ax; apply Fin.ext
  match ax with
  | ⟨0, _⟩ => show win0_0.index t (0 : Fin 3) * 8 + 1 * a.val = a.val; rw [e0]; omega
  | ⟨1, _⟩ => show win0_0.index t (1 : Fin 3) * 384 + 1 * k.val = k.val; rw [e1]; omega
  | ⟨2, _⟩ => show win0_0.index t (2 : Fin 3) * 256 + 1 * tt.val = t.val * 256 + tt.val; rw [e2]; omega

/-- The matrix block at every point is the matrix. -/
theorem a_blk (c : Dev nD) (t : Fin cfg0.N) (r : Fin 2050) (k : Fin 384) :
    (iblk m c 1 t : Vec Ideal S2050x384 .f32) (ix2 r k) = (V m c main_v98 : S2050x384.Idx → EReal) (ix2 r k) := by
  obtain ⟨-, -, -, e0, e1, -⟩ := idx_facts t
  unfold iblk
  rw [View.read_apply]
  show V m c main_v98 _ = V m c main_v98 _
  refine congrArg (V m c main_v98) ?_
  funext ax; apply Fin.ext
  match ax with
  | ⟨0, _⟩ => show win0_1.index t (0 : Fin 2) * 2050 + 1 * r.val = r.val; rw [e0]; omega
  | ⟨1, _⟩ => show win0_1.index t (1 : Fin 2) * 384 + 1 * k.val = k.val; rw [e1]; omega

/-- The column block at every point is the column. -/
theorem v_blk (c : Dev nD) (t : Fin cfg0.N) (r : Fin 2050) :
    (iblk m c 2 t : Vec Ideal S2050x1 .f32) (ix2 r (0 : Fin 1)) = (V m c main_v99 : S2050x1.Idx → EReal) (ix2 r (0 : Fin 1)) := by
  obtain ⟨-, -, -, -, -, e0, e1, -⟩ := idx_facts t
  unfold iblk
  rw [View.read_apply]
  show V m c main_v99 _ = V m c main_v99 _
  refine congrArg (V m c main_v99) ?_
  funext ax; apply Fin.ext
  match ax with
  | ⟨0, _⟩ => show win0_2.index t (0 : Fin 2) * 2050 + 1 * r.val = r.val; rw [e0]; omega
  | ⟨1, _⟩ => show win0_2.index t (1 : Fin 2) * 1 + 1 * 0 = 0; rw [e1]

/-- The block function of blocks that are the arrays' blocks at time block n is the array function at the index
    placed n blocks along the time axis. -/
theorem blockG_eq_K (Y : S8x384x4096.Idx → EReal) (A : S2050x384.Idx → EReal) (v : S2050x1.Idx → EReal)
    (x0 : Vec Ideal S8x384x256 .f32) (x1 : Vec Ideal S2050x384 .f32) (x2 : Vec Ideal S2050x1 .f32)
    (n : Nat) (hn : n < 16)
    (h0 : ∀ (a : Fin 8) (k : Fin 384) (tt : Fin 256), x0 (ix3 a k tt) = Y (ix3 a k ⟨n * 256 + tt.val, by omega⟩))
    (h1 : ∀ (r : Fin 2050) (k : Fin 384), x1 (ix2 r k) = A (ix2 r k))
    (h2 : ∀ r : Fin 2050, x2 (ix2 r (0 : Fin 1)) = v (ix2 r (0 : Fin 1)))
    (j : S8x2x1025x256.Idx) (i : S8x2x1025x4096.Idx)
    (hi0 : (i 0).val = (j 0).val) (hi1 : (i 1).val = (j 1).val) (hi2 : (i 2).val = (j 2).val)
    (hi3 : (i 3).val = n * 256 + (j 3).val) :
    blockG x0 x1 x2 j = K Y A v i := by
  unfold blockG K
  have e0 : (⟨(i 0).val, (i 0).isLt⟩ : Fin 8) = ⟨(j 0).val, (j 0).isLt⟩ := Fin.ext hi0
  have e1 : (⟨(i 1).val, (i 1).isLt⟩ : Fin 2) = ⟨(j 1).val, (j 1).isLt⟩ := Fin.ext hi1
  have e2 : (⟨(i 2).val, (i 2).isLt⟩ : Fin 1025) = ⟨(j 2).val, (j 2).isLt⟩ := Fin.ext hi2
  have e3 : (⟨(i 3).val, (i 3).isLt⟩ : Fin 4096) = ⟨n * 256 + (⟨(j 3).val, (j 3).isLt⟩ : Fin 256).val, by have := (j 3).isLt; omega⟩ := Fin.ext hi3
  rw [e0, e1, e2, e3]
  simp only [h0, h1, h2]

/-- What point t writes back is block t of the array function of the three arrays as the region finds them. -/
theorem flushed_eq (c : Dev nD) (t : Fin cfg0.N) :
    (dats m 0 c).flushed 3 t
      = ((cfg0.win 3).blk t).view.read (Elt Ideal) (K (V m c main_v100) (V m c main_v98) (V m c main_v99)) := by
  rw [Value.flushed3, out_eq (iblk m c 0 t) (iblk m c 1 t) (iblk m c 2 t)]
  obtain ⟨-, -, -, -, -, -, -, e0, e1, e2, e3⟩ := idx_facts t
  funext j
  show blockG (iblk m c 0 t) (iblk m c 1 t) (iblk m c 2 t) j
    = K (V m c main_v100) (V m c main_v98) (V m c main_v99) (((cfg0.win 3).blk t).view.emb j)
  refine blockG_eq_K _ _ _ (iblk m c 0 t) (iblk m c 1 t) (iblk m c 2 t) t.val (lt_N t) (x_blk m c t) (a_blk m c t) (v_blk m c t) j _ ?_ ?_ ?_ ?_
  · show win0_3.index t (0 : Fin 4) * 8 + 1 * (j 0).val = (j 0).val; rw [e0]; omega
  · show win0_3.index t (1 : Fin 4) * 2 + 1 * (j 1).val = (j 1).val; rw [e1]; omega
  · show win0_3.index t (2 : Fin 4) * 1025 + 1 * (j 2).val = (j 2).val; rw [e2]; omega
  · show win0_3.index t (3 : Fin 4) * 256 + 1 * (j 3).val = t.val * 256 + (j 3).val; rw [e3]; omega

/-- An index of the array is in point t's block iff each coordinate is in the block's range on its axis. -/
theorem mem_blk (t : Fin cfg0.N) (i : S8x2x1025x4096.Idx) :
    i ∈ ((cfg0.win 3).blk t).view.set ↔ ∀ a : Fin 4, win0_3.index t a * S8x2x1025x256.size a ≤ (i a).val
      ∧ (i a).val < win0_3.index t a * S8x2x1025x256.size a + S8x2x1025x256.size a := by
  show i ∈ ((View.whole main_v101).slice (win0_3.rect t)).set ↔ _
  rw [View.set_slice_whole, Rect.mem_set_unit]
  exact Iff.rfl

/-- The sixteen blocks cover the array: time s lies in the block of point s / 256. -/
theorem cover (i : S8x2x1025x4096.Idx) :
    ∃ t : Fin cfg0.N, (cfg0.win 3).flush t = true ∧ i ∈ ((cfg0.win 3).blk t).view.set := by
  have h0 : (i 0).val < 8 := (i 0).isLt
  have h1 : (i 1).val < 2 := (i 1).isLt
  have h2 : (i 2).val < 1025 := (i 2).isLt
  have h3 : (i 3).val < 4096 := (i 3).isLt
  let t : Fin grid0.N := Fin.cast N_0.symm ⟨(i 3).val / 256, by omega⟩
  obtain ⟨-, -, -, -, -, -, -, e0, e1, e2, e3⟩ := idx_facts t
  have e3' : win0_3.index t (3 : Fin 4) = (i 3).val / 256 := e3
  refine ⟨t, flush0_3 t, ?_⟩
  rw [mem_blk]
  intro a
  match a with
  | ⟨0, _⟩ => show win0_3.index t (0 : Fin 4) * 8 ≤ (i 0).val ∧ (i 0).val < win0_3.index t (0 : Fin 4) * 8 + 8; rw [e0]; omega
  | ⟨1, _⟩ => show win0_3.index t (1 : Fin 4) * 2 ≤ (i 1).val ∧ (i 1).val < win0_3.index t (1 : Fin 4) * 2 + 2; rw [e1]; omega
  | ⟨2, _⟩ => show win0_3.index t (2 : Fin 4) * 1025 ≤ (i 2).val ∧ (i 2).val < win0_3.index t (2 : Fin 4) * 1025 + 1025; rw [e2]; omega
  | ⟨3, _⟩ => show win0_3.index t (3 : Fin 4) * 256 ≤ (i 3).val ∧ (i 3).val < win0_3.index t (3 : Fin 4) * 256 + 256; rw [e3']; omega

/-- The output array after the run: the matrix product plus the column, of the three arrays as the region finds them. -/
theorem final (c : Dev nD) :
    (dats m 0 c).arrAt 3 cfg0.N = K (V m c main_v100) (V m c main_v98) (V m c main_v99) :=
  (dats m 0 c).arrAt_eq_of_cover 3 (K (V m c main_v100) (V m c main_v98) (V m c main_v99)) (fun t _ => flushed_eq m c t) cover

/-- The run, read: the output array at the matrix product plus the column, the arguments unchanged. -/
theorem run : θ_run defs (onTc (τ := τ) (main (F := Ideal))) ⟨m, fun _ => 0, ρ⟩ fun r => ∀ c : Dev nD,
      r.2.mem ((c : Thread nD τ).loc main_v101) = K (V m c main_v100) (V m c main_v98) (V m c main_v99)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨(h c).1.trans (final m c), (h c).2⟩) (Value.run_blocks m ρ)

end Cert.KernelArray

end
-- ==== Proof.LibScatterSet.lean ====
/-
  A scatter whose body returns the update, read at one element.

  The scatter is a left fold over the update indices in row-major order: each update whose landing index is inside the
  operand replaces the element there. So an element that no update lands on keeps the operand's value, and an element
  on which exactly one update index lands holds that update's value, whatever the other updates do.
-/
import Idealize.ShloMosaic.PureOps.ShapeOps

namespace Idealize.ShloMosaic.ScatterSet

open Idealize.ShloMosaic

variable {α : Type} {s si u : Shape} {w : Nat}

/-- The fold's step. -/
abbrev step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

/-- The scatter is the fold of the step. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update lands elsewhere (or nowhere) leaves the element as it was. -/
theorem step_miss (d : ScatterDims s si u) (f : α → α → α) (idx : IVec si w) (upd : u.Idx → α) (r : s.Idx → α) (n : Fin u.numel)
    (i' : s.Idx) (h : d.resultIdx? (u.rowMajor.symm n) idx ≠ some i') : step d f idx upd r n i' = r i' := by
  unfold step
  generalize d.resultIdx? (u.rowMajor.symm n) idx = q at h
  cases q with
  | none => rfl
  | some i =>
    show (if i' = i then _ else _) = _
    rw [if_neg]; intro e; exact h (by rw [e])

/-- A step whose update lands on the element puts the body's value there. -/
theorem step_hit (d : ScatterDims s si u) (f : α → α → α) (idx : IVec si w) (upd : u.Idx → α) (r : s.Idx → α) (n : Fin u.numel)
    (i' : s.Idx) (h : d.resultIdx? (u.rowMajor.symm n) idx = some i') :
    step d f idx upd r n i' = f (r i') (upd (u.rowMajor.symm n)) := by
  unfold step
  rw [h]
  show (if i' = i' then _ else _) = _
  rw [if_pos rfl]

/-- Steps none of which lands on the element leave it as it was. -/
theorem foldl_miss (d : ScatterDims s si u) (f : α → α → α) (idx : IVec si w) (upd : u.Idx → α) (i' : s.Idx)
    (l : List (Fin u.numel)) (x : s.Idx → α) (h : ∀ n ∈ l, d.resultIdx? (u.rowMajor.symm n) idx ≠ some i') :
    l.foldl (step d f idx upd) x i' = x i' := by
  induction l generalizing x with
  | nil => rfl
  | cons a l ih =>
    rw [List.foldl_cons, ih _ (fun n hn => h n (List.mem_cons_of_mem _ hn))]
    exact step_miss d f idx upd x a i' (h a List.mem_cons_self)

/-- Among distinct steps of which exactly one lands on the element, that one decides it (the body returning the update). -/
theorem foldl_hit (d : ScatterDims s si u) (idx : IVec si w) (upd : u.Idx → α) (i' : s.Idx)
    (l : List (Fin u.numel)) (hl : l.Nodup) (x : s.Idx → α) (n₀ : Fin u.numel) (hn₀ : n₀ ∈ l)
    (hhit : d.resultIdx? (u.rowMajor.symm n₀) idx = some i')
    (huniq : ∀ n ∈ l, d.resultIdx? (u.rowMajor.symm n) idx = some i' → n = n₀) :
    l.foldl (step d (fun _ b => b) idx upd) x i' = upd (u.rowMajor.symm n₀) := by
  induction l generalizing x with
  | nil => cases hn₀
  | cons a l ih =>
    rw [List.foldl_cons]
    rw [List.nodup_cons] at hl
    by_cases ha : a = n₀
    · subst ha
      rw [foldl_miss d _ idx upd i' l _ (fun n hn hh => hl.1 (huniq n (List.mem_cons_of_mem _ hn) hh ▸ hn))]
      exact step_hit d _ idx upd x a i' hhit
    · have hmem : n₀ ∈ l := by
        rcases List.mem_cons.1 hn₀ with h | h
        · exact absurd h.symm ha
        · exact h
      exact ih hl.2 _ hmem (fun n hn => huniq n (List.mem_cons_of_mem _ hn))

/-- An element no update lands on keeps the operand's value. -/
theorem scatter_miss (d : ScatterDims s si u) (f : α → α → α) (x : s.Idx → α) (idx : IVec si w) (upd : u.Idx → α) (i' : s.Idx)
    (h : ∀ j : u.Idx, d.resultIdx? j idx ≠ some i') : Host.scatter d f x idx upd i' = x i' := by
  rw [scatter_eq_foldl]
  exact foldl_miss d f idx upd i' _ x (fun n _ => h _)

/-- An element exactly one update index lands on holds that update's value. -/
theorem scatter_hit (d : ScatterDims s si u) (x : s.Idx → α) (idx : IVec si w) (upd : u.Idx → α) (i' : s.Idx) (j : u.Idx)
    (hj : d.resultIdx? j idx = some i') (huniq : ∀ j' : u.Idx, d.resultIdx? j' idx = some i' → j' = j) :
    Host.scatter d (fun _ b => b) x idx upd i' = upd j := by
  rw [scatter_eq_foldl]
  have e := foldl_hit d idx upd i' (List.finRange u.numel) (List.nodup_finRange _) x (u.rowMajor j) (List.mem_finRange _)
    (by rw [Equiv.symm_apply_apply]; exact hj)
    (fun n _ hn => by
      have := huniq _ hn
      rw [← this, Equiv.apply_symm_apply])
  rw [e, Equiv.symm_apply_apply]

end Idealize.ShloMosaic.ScatterSet
-- ==== Proof.ScatterBand.lean ====
/-
  The two scatters that place one band into the big arrays, read at one element.

  A block U of shape [2, w, 32] is written into an array X of shape [2, 1025, 32, 12] at frequency offset s0 and band
  column l0: afterwards the element at (c, f, g, i) is U(c, f - s0, g) when s0 ≤ f < s0 + w and i = l0, and X's own
  element otherwise. Likewise a block of shape [2, w] written into an array of shape [2, 1025] at offset s0.
  The landing index of update (c, f', g) is (c, s0 + f', g, l0): start plus window coordinate on every axis, the start
  read off the two scatter indices on axes 1 and 3 and zero on axes 0 and 2.
-/
import proofs.«145164_j67224828117616_2_alg».proof.Proof.LibScatterSet
import Idealize.ShloMosaic.Lib.ValueIdx

namespace Cert.ScatterBand

open Idealize.ShloMosaic Idealize.ShloMosaic.ValueIdx Idealize.ShloMosaic.ScatterSet

/-- The four-axis array the matrices are gathered in. -/
abbrev SW : Shape := ⟨4, ![2, 1025, 32, 12]⟩
/-- The two start coordinates. -/
abbrev SI2 : Shape := ⟨1, ![2]⟩
/-- One band's matrix as [2, w, 32]. -/
abbrev SU (w : Nat) : Shape := ⟨3, ![2, w, 32]⟩

section Matrix

variable {α : Type} {w : Nat} (wf : ScatterDims.WF SW SI2 (SU w) [0, 1, 2] [3] [1, 3] 0)

/-- The dimension numbers: update axes 0, 1, 2 are window axes onto operand axes 0, 1, 2; operand axis 3 is inserted;
    the two start coordinates go to operand axes 1 and 3. -/
abbrev dW : ScatterDims SW SI2 (SU w) := ⟨[0, 1, 2], [3], [1, 3], 0, wf⟩

/-- Where update (c, f', g) lands. -/
abbrev tgtW (j : (SU w).Idx) (s0 l0 : Nat) (hs : s0 + w ≤ 1025) (hl : l0 < 12) : SW.Idx :=
  ix4 (⟨(j 0).val, (j 0).isLt⟩ : Fin 2) (⟨s0 + (j 1).val, by have : (j 1).val < w := (j 1).isLt; omega⟩ : Fin 1025)
    (⟨(j 2).val, (j 2).isLt⟩ : Fin 32) (⟨l0, hl⟩ : Fin 12)

theorem start1 (j : (SU w).Idx) (idx : IVec SI2 32) : (dW wf).start j idx 1 = (idx (ix1 (0 : Fin 2))).toInt := by
  show (idx ((dW wf).siIdx j ⟨0, Nat.zero_lt_two⟩)).toInt = _
  congr 2
  funext b
  match b with
  | ⟨0, _⟩ => rfl

theorem start3 (j : (SU w).Idx) (idx : IVec SI2 32) : (dW wf).start j idx 3 = (idx (ix1 (1 : Fin 2))).toInt := by
  show (idx ((dW wf).siIdx j ⟨1, Nat.one_lt_two⟩)).toInt = _
  congr 2
  funext b
  match b with
  | ⟨0, _⟩ => rfl

/-- Start plus window coordinate, axis by axis. -/
theorem sumW (j : (SU w).Idx) (idx : IVec SI2 32) (s0 l0 : Nat)
    (h1 : (idx (ix1 (0 : Fin 2))).toInt = (s0 : Int)) (h3 : (idx (ix1 (1 : Fin 2))).toInt = (l0 : Int))
    (hs : s0 + w ≤ 1025) (hl : l0 < 12) (a : Fin 4) :
    (dW wf).start j idx a + ((dW wf).window j a : Int) = ((tgtW j s0 l0 hs hl a).val : Int) := by
  match a with
  | ⟨0, _⟩ => show (0 : Int) + ((j 0).val : Int) = ((j 0).val : Int); omega
  | ⟨1, _⟩ => rw [show (⟨1, by decide⟩ : Fin 4) = 1 from rfl, start1, h1]; show (s0 : Int) + ((j 1).val : Int) = ((s0 + (j 1).val : Nat) : Int); omega
  | ⟨2, _⟩ => show (0 : Int) + ((j 2).val : Int) = ((j 2).val : Int); omega
  | ⟨3, _⟩ => rw [show (⟨3, by decide⟩ : Fin 4) = 3 from rfl, start3, h3]; show (l0 : Int) + ((0 : Nat) : Int) = (l0 : Int); omega

/-- The landing index in closed form. -/
theorem resultIdxW (j : (SU w).Idx) (idx : IVec SI2 32) (s0 l0 : Nat)
    (h1 : (idx (ix1 (0 : Fin 2))).toInt = (s0 : Int)) (h3 : (idx (ix1 (1 : Fin 2))).toInt = (l0 : Int))
    (hs : s0 + w ≤ 1025) (hl : l0 < 12) :
    (dW wf).resultIdx? j idx = some (tgtW j s0 l0 hs hl) := by
  unfold ScatterDims.resultIdx?
  have H : ∀ a, 0 ≤ (dW wf).start j idx a + ((dW wf).window j a : Int)
      ∧ (dW wf).start j idx a + ((dW wf).window j a : Int) < (SW.size a : Int) := fun a => by
    rw [sumW wf j idx s0 l0 h1 h3 hs hl a]
    exact ⟨Int.natCast_nonneg _, Int.ofNat_lt.mpr (tgtW j s0 l0 hs hl a).isLt⟩
  rw [dif_pos H]
  congr 1
  funext a
  apply Fin.ext
  show ((dW wf).start j idx a + ((dW wf).window j a : Int)).toNat = _
  rw [sumW wf j idx s0 l0 h1 h3 hs hl a]
  exact Int.toNat_natCast _

/-- The array after the write, read at (c, f, g, i). -/
theorem scatterW_apply (X : SW.Idx → α) (idx : IVec SI2 32) (U : (SU w).Idx → α) (s0 l0 : Nat)
    (h1 : (idx (ix1 (0 : Fin 2))).toInt = (s0 : Int)) (h3 : (idx (ix1 (1 : Fin 2))).toInt = (l0 : Int))
    (hs : s0 + w ≤ 1025) (hl : l0 < 12) (c : Fin 2) (f : Fin 1025) (g : Fin 32) (i : Fin 12) :
    Host.scatter (dW wf) (fun _ b => b) X idx U (ix4 c f g i)
      = if h : s0 ≤ f.val ∧ f.val < s0 + w ∧ i.val = l0 then U (ix3 c (⟨f.val - s0, by omega⟩ : Fin w) g) else X (ix4 c f g i) := by
  by_cases h : s0 ≤ f.val ∧ f.val < s0 + w ∧ i.val = l0
  · rw [dif_pos h]
    refine scatter_hit (dW wf) X idx U _ (ix3 c (⟨f.val - s0, by omega⟩ : Fin w) g) ?_ ?_
    · rw [resultIdxW wf _ idx s0 l0 h1 h3 hs hl]
      congr 1
      funext a
      apply Fin.ext
      match a with
      | ⟨0, _⟩ => rfl
      | ⟨1, _⟩ => show s0 + (f.val - s0) = f.val; omega
      | ⟨2, _⟩ => rfl
      | ⟨3, _⟩ => exact h.2.2.symm
    · intro j' hj'
      rw [resultIdxW wf _ idx s0 l0 h1 h3 hs hl] at hj'
      have e := Option.some.inj hj'
      have e0 : (j' 0).val = c.val := congrArg Fin.val (congrFun e 0)
      have e1 : s0 + (j' 1).val = f.val := congrArg Fin.val (congrFun e 1)
      have e2 : (j' 2).val = g.val := congrArg Fin.val (congrFun e 2)
      funext a
      apply Fin.ext
      match a with
      | ⟨0, _⟩ => exact e0
      | ⟨1, _⟩ => show (j' 1).val = f.val - s0; omega
      | ⟨2, _⟩ => exact e2
  · rw [dif_neg h]
    refine scatter_miss (dW wf) _ X idx U _ ?_
    intro j hj
    rw [resultIdxW wf _ idx s0 l0 h1 h3 hs hl] at hj
    have e := Option.some.inj hj
    have e1 : s0 + (j 1).val = f.val := congrArg Fin.val (congrFun e 1)
    have e3 : l0 = i.val := congrArg Fin.val (congrFun e 3)
    have : (j 1).val < w := (j 1).isLt
    exact h ⟨by omega, by omega, e3.symm⟩

end Matrix

/-- The two-axis array the vectors are gathered in. -/
abbrev SB : Shape := ⟨2, ![2, 1025]⟩
/-- The one start coordinate. -/
abbrev SI1 : Shape := ⟨1, ![1]⟩
/-- One band's vector as [2, w]. -/
abbrev SV (w : Nat) : Shape := ⟨2, ![2, w]⟩

section Vector

variable {α : Type} {w : Nat} (wf : ScatterDims.WF SB SI1 (SV w) [0, 1] [] [1] 0)

/-- The dimension numbers: both update axes are window axes; the one start coordinate goes to operand axis 1. -/
abbrev dB : ScatterDims SB SI1 (SV w) := ⟨[0, 1], [], [1], 0, wf⟩

/-- Where update (c, f') lands. -/
abbrev tgtB (j : (SV w).Idx) (s0 : Nat) (hs : s0 + w ≤ 1025) : SB.Idx :=
  ix2 (⟨(j 0).val, (j 0).isLt⟩ : Fin 2) (⟨s0 + (j 1).val, by have : (j 1).val < w := (j 1).isLt; omega⟩ : Fin 1025)

theorem startB1 (j : (SV w).Idx) (idx : IVec SI1 32) : (dB wf).start j idx 1 = (idx (ix1 (0 : Fin 1))).toInt := by
  show (idx ((dB wf).siIdx j ⟨0, Nat.zero_lt_one⟩)).toInt = _
  congr 2
  funext b
  match b with
  | ⟨0, _⟩ => rfl

theorem sumB (j : (SV w).Idx) (idx : IVec SI1 32) (s0 : Nat) (h1 : (idx (ix1 (0 : Fin 1))).toInt = (s0 : Int))
    (hs : s0 + w ≤ 1025) (a : Fin 2) :
    (dB wf).start j idx a + ((dB wf).window j a : Int) = ((tgtB j s0 hs a).val : Int) := by
  match a with
  | ⟨0, _⟩ => show (0 : Int) + ((j 0).val : Int) = ((j 0).val : Int); omega
  | ⟨1, _⟩ => rw [show (⟨1, by decide⟩ : Fin 2) = 1 from rfl, startB1, h1]; show (s0 : Int) + ((j 1).val : Int) = ((s0 + (j 1).val : Nat) : Int); omega

theorem resultIdxB (j : (SV w).Idx) (idx : IVec SI1 32) (s0 : Nat) (h1 : (idx (ix1 (0 : Fin 1))).toInt = (s0 : Int))
    (hs : s0 + w ≤ 1025) : (dB wf).resultIdx? j idx = some (tgtB j s0 hs) := by
  unfold ScatterDims.resultIdx?
  have H : ∀ a, 0 ≤ (dB wf).start j idx a + ((dB wf).window j a : Int)
      ∧ (dB wf).start j idx a + ((dB wf).window j a : Int) < (SB.size a : Int) := fun a => by
    rw [sumB wf j idx s0 h1 hs a]
    exact ⟨Int.natCast_nonneg _, Int.ofNat_lt.mpr (tgtB j s0 hs a).isLt⟩
  rw [dif_pos H]
  congr 1
  funext a
  apply Fin.ext
  show ((dB wf).start j idx a + ((dB wf).window j a : Int)).toNat = _
  rw [sumB wf j idx s0 h1 hs a]
  exact Int.toNat_natCast _

/-- The array after the write, read at (c, f). -/
theorem scatterB_apply (X : SB.Idx → α) (idx : IVec SI1 32) (U : (SV w).Idx → α) (s0 : Nat)
    (h1 : (idx (ix1 (0 : Fin 1))).toInt = (s0 : Int)) (hs : s0 + w ≤ 1025) (c : Fin 2) (f : Fin 1025) :
    Host.scatter (dB wf) (fun _ b => b) X idx U (ix2 c f)
      = if h : s0 ≤ f.val ∧ f.val < s0 + w then U (ix2 c (⟨f.val - s0, by omega⟩ : Fin w)) else X (ix2 c f) := by
  by_cases h : s0 ≤ f.val ∧ f.val < s0 + w
  · rw [dif_pos h]
    refine scatter_hit (dB wf) X idx U _ (ix2 c (⟨f.val - s0, by omega⟩ : Fin w)) ?_ ?_
    · rw [resultIdxB wf _ idx s0 h1 hs]
      congr 1
      funext a
      apply Fin.ext
      match a with
      | ⟨0, _⟩ => rfl
      | ⟨1, _⟩ => show s0 + (f.val - s0) = f.val; omega
    · intro j' hj'
      rw [resultIdxB wf _ idx s0 h1 hs] at hj'
      have e := Option.some.inj hj'
      have e0 : (j' 0).val = c.val := congrArg Fin.val (congrFun e 0)
      have e1 : s0 + (j' 1).val = f.val := congrArg Fin.val (congrFun e 1)
      funext a
      apply Fin.ext
      match a with
      | ⟨0, _⟩ => exact e0
      | ⟨1, _⟩ => show (j' 1).val = f.val - s0; omega
  · rw [dif_neg h]
    refine scatter_miss (dB wf) _ X idx U _ ?_
    intro j hj
    rw [resultIdxB wf _ idx s0 h1 hs] at hj
    have e := Option.some.inj hj
    have e1 : s0 + (j 1).val = f.val := congrArg Fin.val (congrFun e 1)
    have : (j 1).val < w := (j 1).isLt
    exact h ⟨by omega, by omega⟩

end Vector

end Cert.ScatterBand
-- ==== Proof.HostArrays.lean ====
/-
  The three arrays the kernel's region is launched on, as functions of the program's arguments, read at one element.

  The big matrix starts as zeros of shape [2, 1025, 32, 12]; band j's matrix, regrouped as [2, w, 32], is written into it
  at frequencies s_j ≤ f < s_j + w and band column j, for j = 0, …, 11 in turn; the result is regrouped as [2050, 384]
  (row c * 1025 + f, column g * 12 + i). The bands' frequency ranges are disjoint, so at a frequency f of band j the
  element at (c, f, g, i) is W_j(c * w + (f - s_j), g) when i = j and zero otherwise: the writes of the later bands miss
  f, the write of band j hits exactly the column i = j, and below it only the zeros and the writes of the earlier bands,
  which miss f too, are left. The column of shape [2050, 1] is built the same way from zeros of shape [2, 1025] and the
  bands' vectors, and the input is x with its unit axis dropped.
-/
import proofs.«145164_j67224828117616_2_alg».proof.Proof.Gen.KernelIdeal
import proofs.«145164_j67224828117616_2_alg».proof.Proof.ScatterBand
import proofs.«145164_j67224828117616_2_alg».proof.Proof.Spec
import proofs.«145164_j67224828117616_2_alg».proof.Proof.KernelSpec
import Idealize.ShloMosaic.Lib.Pipeline.Value
import Idealize.ShloMosaic.Lib.ValueIdx
import Idealize.ShloMosaic.PureOps.Ideal.Laws

noncomputable section

namespace Cert.HostArrays

open Cert.KernelIdeal Cert.KernelIdeal.Facts₀ Idealize.ShloMosaic Idealize.ShloMosaic.ValueIdx Cert.ScatterBand Cert.Spec Cert.KernelSpec

/-- The program's arguments: x, and for each band its matrix and its vector. -/
structure Params where
  x : (⟨4, ![8, 384, 1, 4096]⟩ : Shape).Idx → EReal
  W0 : (⟨2, ![170, 32]⟩ : Shape).Idx → EReal
  b0 : (⟨1, ![170]⟩ : Shape).Idx → EReal
  W1 : (⟨2, ![170, 32]⟩ : Shape).Idx → EReal
  b1 : (⟨1, ![170]⟩ : Shape).Idx → EReal
  W2 : (⟨2, ![172, 32]⟩ : Shape).Idx → EReal
  b2 : (⟨1, ![172]⟩ : Shape).Idx → EReal
  W3 : (⟨2, ![170, 32]⟩ : Shape).Idx → EReal
  b3 : (⟨1, ![170]⟩ : Shape).Idx → EReal
  W4 : (⟨2, ![172, 32]⟩ : Shape).Idx → EReal
  b4 : (⟨1, ![172]⟩ : Shape).Idx → EReal
  W5 : (⟨2, ![170, 32]⟩ : Shape).Idx → EReal
  b5 : (⟨1, ![170]⟩ : Shape).Idx → EReal
  W6 : (⟨2, ![170, 32]⟩ : Shape).Idx → EReal
  b6 : (⟨1, ![170]⟩ : Shape).Idx → EReal
  W7 : (⟨2, ![172, 32]⟩ : Shape).Idx → EReal
  b7 : (⟨1, ![172]⟩ : Shape).Idx → EReal
  W8 : (⟨2, ![170, 32]⟩ : Shape).Idx → EReal
  b8 : (⟨1, ![170]⟩ : Shape).Idx → EReal
  W9 : (⟨2, ![172, 32]⟩ : Shape).Idx → EReal
  b9 : (⟨1, ![172]⟩ : Shape).Idx → EReal
  W10 : (⟨2, ![170, 32]⟩ : Shape).Idx → EReal
  b10 : (⟨1, ![170]⟩ : Shape).Idx → EReal
  W11 : (⟨2, ![172, 32]⟩ : Shape).Idx → EReal
  b11 : (⟨1, ![172]⟩ : Shape).Idx → EReal

/-! ## The start coordinates -/

/-- The pair (frequency offset, band column) a matrix is written at. -/
def startW (s l : BitVec 32) : IVec S2 32 :=
  concatenate S2 0 [⟨S1, broadcastInDim S1 ![] bcast_S_S1 (constantI S_ 32 s)⟩, ⟨S1, broadcastInDim S1 ![] bcast_S_S1 (constantI S_ 32 l)⟩]
    concatenates_S1_S1_S2_d0

/-- The frequency offset a vector is written at. -/
def startB (s : BitVec 32) : IVec S1 32 := broadcastInDim S1 ![] bcast_S_S1 (constantI S_ 32 s)

theorem startW_0 (s l : BitVec 32) : startW s l (ix1 (0 : Fin 2)) = s :=
  concatenate_pair_apply_left (t := S2) (s₁ := S1) (s₂ := S1) (0 : Fin 1) (broadcastInDim S1 ![] bcast_S_S1 (constantI S_ 32 s))
    (broadcastInDim S1 ![] bcast_S_S1 (constantI S_ 32 l)) concatenates_S1_S1_S2_d0 (ix1 (0 : Fin 2)) rfl (ix1 (0 : Fin 1))
    (fun b => by match b with | ⟨0, _⟩ => rfl)

theorem startW_1 (s l : BitVec 32) : startW s l (ix1 (1 : Fin 2)) = l :=
  concatenate_pair_apply_right (t := S2) (s₁ := S1) (s₂ := S1) (0 : Fin 1) (broadcastInDim S1 ![] bcast_S_S1 (constantI S_ 32 s))
    (broadcastInDim S1 ![] bcast_S_S1 (constantI S_ 32 l)) concatenates_S1_S1_S2_d0 (ix1 (1 : Fin 2)) rfl rfl (ix1 (0 : Fin 1))
    (fun b hb => by match b with | ⟨0, _⟩ => exact absurd rfl hb) rfl

theorem startB_0 (s : BitVec 32) : startB s (ix1 (0 : Fin 1)) = s := rfl

/-! ## One band written into the arrays -/

/-- A matrix of 170 rows, regrouped as [2, 85, 32], written at frequency offset s and band column l. -/
def putW85 (X : S2x1025x32x12.Idx → EReal) (s l : BitVec 32) (W : S170x32.Idx → EReal) : S2x1025x32x12.Idx → EReal :=
  Host.scatter scatter_S2x1025x32x12_S2_S2x85x32_012_3_13_0 (fun _ b => b) X (startW s l) (shapeCast S2x85x32 W shapeCasts_S170x32_S2x85x32)

theorem putW85_apply (X : S2x1025x32x12.Idx → EReal) (s l : BitVec 32) (W : S170x32.Idx → EReal) (s0 l0 : Nat)
    (hs : s.toInt = (s0 : Int)) (hl : l.toInt = (l0 : Int)) (hb : s0 + 85 ≤ 1025) (hl0 : l0 < 12)
    (c : Fin 2) (f : Fin 1025) (g : Fin 32) (i : Fin 12) :
    putW85 X s l W (ix4 c f g i)
      = if h : s0 ≤ f.val ∧ f.val < s0 + 85 ∧ i.val = l0 then W (ix2 (row 170 85 rfl c (⟨f.val - s0, by omega⟩ : Fin 85)) g)
        else X (ix4 c f g i) := by
  unfold putW85
  refine (scatterW_apply (w := 85) scatter_S2x1025x32x12_S2_S2x85x32_012_3_13_0_wf X (startW s l)
    (shapeCast S2x85x32 W shapeCasts_S170x32_S2x85x32) s0 l0 (by rw [startW_0]; exact hs) (by rw [startW_1]; exact hl) hb hl0 c f g i).trans ?_
  by_cases h : s0 ≤ f.val ∧ f.val < s0 + 85 ∧ i.val = l0
  · rw [dif_pos h, dif_pos h]
    exact shapeCast_apply W shapeCasts_S170x32_S2x85x32 _ _ (by
      rewrite [Shape.rowMajor_val_two, Shape.rowMajor_val_three]
      show (c.val * 85 + (f.val - s0)) * 32 + g.val = (c.val * 85 + (f.val - s0)) * 32 + g.val
      rfl)
  · rw [dif_neg h, dif_neg h]

/-- A vector of length 170, regrouped as [2, 85], written at frequency offset s. -/
def putB85 (X : S2x1025.Idx → EReal) (s : BitVec 32) (β : S170.Idx → EReal) : S2x1025.Idx → EReal :=
  Host.scatter scatter_S2x1025_S1_S2x85_01_n_1_0 (fun _ b => b) X (startB s) (shapeCast S2x85 β shapeCasts_S170_S2x85)

theorem putB85_apply (X : S2x1025.Idx → EReal) (s : BitVec 32) (β : S170.Idx → EReal) (s0 : Nat)
    (hs : s.toInt = (s0 : Int)) (hb : s0 + 85 ≤ 1025) (c : Fin 2) (f : Fin 1025) :
    putB85 X s β (ix2 c f)
      = if h : s0 ≤ f.val ∧ f.val < s0 + 85 then β (ix1 (row 170 85 rfl c (⟨f.val - s0, by omega⟩ : Fin 85))) else X (ix2 c f) := by
  unfold putB85
  refine (scatterB_apply (w := 85) scatter_S2x1025_S1_S2x85_01_n_1_0_wf X (startB s)
    (shapeCast S2x85 β shapeCasts_S170_S2x85) s0 (by rw [startB_0]; exact hs) hb c f).trans ?_
  by_cases h : s0 ≤ f.val ∧ f.val < s0 + 85
  · rw [dif_pos h, dif_pos h]
    exact shapeCast_apply β shapeCasts_S170_S2x85 _ _ (by
      rewrite [Shape.rowMajor_val_one, Shape.rowMajor_val_two]
      show c.val * 85 + (f.val - s0) = c.val * 85 + (f.val - s0)
      rfl)
  · rw [dif_neg h, dif_neg h]

/-- A matrix of 172 rows, regrouped as [2, 86, 32], written at frequency offset s and band column l. -/
def putW86 (X : S2x1025x32x12.Idx → EReal) (s l : BitVec 32) (W : S172x32.Idx → EReal) : S2x1025x32x12.Idx → EReal :=
  Host.scatter scatter_S2x1025x32x12_S2_S2x86x32_012_3_13_0 (fun _ b => b) X (startW s l) (shapeCast S2x86x32 W shapeCasts_S172x32_S2x86x32)

theorem putW86_apply (X : S2x1025x32x12.Idx → EReal) (s l : BitVec 32) (W : S172x32.Idx → EReal) (s0 l0 : Nat)
    (hs : s.toInt = (s0 : Int)) (hl : l.toInt = (l0 : Int)) (hb : s0 + 86 ≤ 1025) (hl0 : l0 < 12)
    (c : Fin 2) (f : Fin 1025) (g : Fin 32) (i : Fin 12) :
    putW86 X s l W (ix4 c f g i)
      = if h : s0 ≤ f.val ∧ f.val < s0 + 86 ∧ i.val = l0 then W (ix2 (row 172 86 rfl c (⟨f.val - s0, by omega⟩ : Fin 86)) g)
        else X (ix4 c f g i) := by
  unfold putW86
  refine (scatterW_apply (w := 86) scatter_S2x1025x32x12_S2_S2x86x32_012_3_13_0_wf X (startW s l)
    (shapeCast S2x86x32 W shapeCasts_S172x32_S2x86x32) s0 l0 (by rw [startW_0]; exact hs) (by rw [startW_1]; exact hl) hb hl0 c f g i).trans ?_
  by_cases h : s0 ≤ f.val ∧ f.val < s0 + 86 ∧ i.val = l0
  · rw [dif_pos h, dif_pos h]
    exact shapeCast_apply W shapeCasts_S172x32_S2x86x32 _ _ (by
      rewrite [Shape.rowMajor_val_two, Shape.rowMajor_val_three]
      show (c.val * 86 + (f.val - s0)) * 32 + g.val = (c.val * 86 + (f.val - s0)) * 32 + g.val
      rfl)
  · rw [dif_neg h, dif_neg h]

/-- A vector of length 172, regrouped as [2, 86], written at frequency offset s. -/
def putB86 (X : S2x1025.Idx → EReal) (s : BitVec 32) (β : S172.Idx → EReal) : S2x1025.Idx → EReal :=
  Host.scatter scatter_S2x1025_S1_S2x86_01_n_1_0 (fun _ b => b) X (startB s) (shapeCast S2x86 β shapeCasts_S172_S2x86)

theorem putB86_apply (X : S2x1025.Idx → EReal) (s : BitVec 32) (β : S172.Idx → EReal) (s0 : Nat)
    (hs : s.toInt = (s0 : Int)) (hb : s0 + 86 ≤ 1025) (c : Fin 2) (f : Fin 1025) :
    putB86 X s β (ix2 c f)
      = if h : s0 ≤ f.val ∧ f.val < s0 + 86 then β (ix1 (row 172 86 rfl c (⟨f.val - s0, by omega⟩ : Fin 86))) else X (ix2 c f) := by
  unfold putB86
  refine (scatterB_apply (w := 86) scatter_S2x1025_S1_S2x86_01_n_1_0_wf X (startB s)
    (shapeCast S2x86 β shapeCasts_S172_S2x86) s0 (by rw [startB_0]; exact hs) hb c f).trans ?_
  by_cases h : s0 ≤ f.val ∧ f.val < s0 + 86
  · rw [dif_pos h, dif_pos h]
    exact shapeCast_apply β shapeCasts_S172_S2x86 _ _ (by
      rewrite [Shape.rowMajor_val_one, Shape.rowMajor_val_two]
      show c.val * 86 + (f.val - s0) = c.val * 86 + (f.val - s0)
      rfl)
  · rw [dif_neg h, dif_neg h]

/-! ## The zeros the arrays start from -/

/-- Zeros of shape [2, 1025, 32, 12]. -/
def zerosW : S2x1025x32x12.Idx → EReal :=
  broadcastInDim S2x1025x32x12 ![] bcast_S_S2x1025x32x12 (constant (F := Ideal) S_ .f32 0x00000000#32)

theorem zerosW_apply (i : S2x1025x32x12.Idx) : zerosW i = 0 := by
  unfold zerosW broadcastInDim
  exact Ideal.ofBits_zero_f32

/-- Zeros of shape [2, 1025]. -/
def zerosB : S2x1025.Idx → EReal :=
  broadcastInDim S2x1025 ![] bcast_S_S2x1025 (constant (F := Ideal) S_ .f32 0x00000000#32)

theorem zerosB_apply (i : S2x1025.Idx) : zerosB i = 0 := by
  unfold zerosB broadcastInDim
  exact Ideal.ofBits_zero_f32

/-! ## The twelve writes in turn -/

/-- The four-axis array after the writes of bands 0 … 0. -/
def W4_0 (P : Params) : S2x1025x32x12.Idx → EReal := putW85 zerosW 0#32 0#32 P.W0
/-- The two-axis array after the writes of bands 0 … 0. -/
def B2_0 (P : Params) : S2x1025.Idx → EReal := putB85 zerosB 0#32 P.b0

theorem layerW_0 (P : Params) (c : Fin 2) (f : Fin 1025) (g : Fin 32) (i : Fin 12) :
    W4_0 P (ix4 c f g i)
      = if h : 0 ≤ f.val ∧ f.val < 0 + 85 ∧ i.val = 0 then P.W0 (ix2 (row 170 85 rfl c (⟨f.val - 0, by omega⟩ : Fin 85)) g)
        else zerosW (ix4 c f g i) :=
  putW85_apply _ _ _ _ 0 0 (by decide) (by decide) (by omega) (by omega) c f g i

theorem layerB_0 (P : Params) (c : Fin 2) (f : Fin 1025) :
    B2_0 P (ix2 c f)
      = if h : 0 ≤ f.val ∧ f.val < 0 + 85 then P.b0 (ix1 (row 170 85 rfl c (⟨f.val - 0, by omega⟩ : Fin 85)))
        else zerosB (ix2 c f) :=
  putB85_apply _ _ _ 0 (by decide) (by omega) c f

/-- At a frequency past band 0 nothing has been written yet. -/
theorem zeroW_0 (P : Params) (c : Fin 2) (f : Fin 1025) (g : Fin 32) (i : Fin 12) (h : 85 ≤ f.val) : W4_0 P (ix4 c f g i) = 0 := by
  rw [layerW_0, dif_neg (show ¬ (0 ≤ f.val ∧ f.val < 0 + 85 ∧ i.val = 0) by omega)]
  exact zerosW_apply _

theorem zeroB_0 (P : Params) (c : Fin 2) (f : Fin 1025) (h : 85 ≤ f.val) : B2_0 P (ix2 c f) = 0 := by
  rw [layerB_0, dif_neg (show ¬ (0 ≤ f.val ∧ f.val < 0 + 85) by omega)]
  exact zerosB_apply _

/-- The four-axis array after the writes of bands 0 … 1. -/
def W4_1 (P : Params) : S2x1025x32x12.Idx → EReal := putW85 (W4_0 P) 85#32 1#32 P.W1
/-- The two-axis array after the writes of bands 0 … 1. -/
def B2_1 (P : Params) : S2x1025.Idx → EReal := putB85 (B2_0 P) 85#32 P.b1

theorem layerW_1 (P : Params) (c : Fin 2) (f : Fin 1025) (g : Fin 32) (i : Fin 12) :
    W4_1 P (ix4 c f g i)
      = if h : 85 ≤ f.val ∧ f.val < 85 + 85 ∧ i.val = 1 then P.W1 (ix2 (row 170 85 rfl c (⟨f.val - 85, by omega⟩ : Fin 85)) g)
        else W4_0 P (ix4 c f g i) :=
  putW85_apply _ _ _ _ 85 1 (by decide) (by decide) (by omega) (by omega) c f g i

theorem layerB_1 (P : Params) (c : Fin 2) (f : Fin 1025) :
    B2_1 P (ix2 c f)
      = if h : 85 ≤ f.val ∧ f.val < 85 + 85 then P.b1 (ix1 (row 170 85 rfl c (⟨f.val - 85, by omega⟩ : Fin 85)))
        else B2_0 P (ix2 c f) :=
  putB85_apply _ _ _ 85 (by decide) (by omega) c f

/-- At a frequency past band 1 nothing has been written yet. -/
theorem zeroW_1 (P : Params) (c : Fin 2) (f : Fin 1025) (g : Fin 32) (i : Fin 12) (h : 170 ≤ f.val) : W4_1 P (ix4 c f g i) = 0 := by
  rw [layerW_1, dif_neg (show ¬ (85 ≤ f.val ∧ f.val < 85 + 85 ∧ i.val = 1) by omega)]
  exact zeroW_0 P c f g i (by omega)

theorem zeroB_1 (P : Params) (c : Fin 2) (f : Fin 1025) (h : 170 ≤ f.val) : B2_1 P (ix2 c f) = 0 := by
  rw [layerB_1, dif_neg (show ¬ (85 ≤ f.val ∧ f.val < 85 + 85) by omega)]
  exact zeroB_0 P c f (by omega)

/-- The four-axis array after the writes of bands 0 … 2. -/
def W4_2 (P : Params) : S2x1025x32x12.Idx → EReal := putW86 (W4_1 P) 170#32 2#32 P.W2
/-- The two-axis array after the writes of bands 0 … 2. -/
def B2_2 (P : Params) : S2x1025.Idx → EReal := putB86 (B2_1 P) 170#32 P.b2

theorem layerW_2 (P : Params) (c : Fin 2) (f : Fin 1025) (g : Fin 32) (i : Fin 12) :
    W4_2 P (ix4 c f g i)
      = if h : 170 ≤ f.val ∧ f.val < 170 + 86 ∧ i.val = 2 then P.W2 (ix2 (row 172 86 rfl c (⟨f.val - 170, by omega⟩ : Fin 86)) g)
        else W4_1 P (ix4 c f g i) :=
  putW86_apply _ _ _ _ 170 2 (by decide) (by decide) (by omega) (by omega) c f g i

theorem layerB_2 (P : Params) (c : Fin 2) (f : Fin 1025) :
    B2_2 P (ix2 c f)
      = if h : 170 ≤ f.val ∧ f.val < 170 + 86 then P.b2 (ix1 (row 172 86 rfl c (⟨f.val - 170, by omega⟩ : Fin 86)))
        else B2_1 P (ix2 c f) :=
  putB86_apply _ _ _ 170 (by decide) (by omega) c f

/-- At a frequency past band 2 nothing has been written yet. -/
theorem zeroW_2 (P : Params) (c : Fin 2) (f : Fin 1025) (g : Fin 32) (i : Fin 12) (h : 256 ≤ f.val) : W4_2 P (ix4 c f g i) = 0 := by
  rw [layerW_2, dif_neg (show ¬ (170 ≤ f.val ∧ f.val < 170 + 86 ∧ i.val = 2) by omega)]
  exact zeroW_1 P c f g i (by omega)

theorem zeroB_2 (P : Params) (c : Fin 2) (f : Fin 1025) (h : 256 ≤ f.val) : B2_2 P (ix2 c f) = 0 := by
  rw [layerB_2, dif_neg (show ¬ (170 ≤ f.val ∧ f.val < 170 + 86) by omega)]
  exact zeroB_1 P c f (by omega)

/-- The four-axis array after the writes of bands 0 … 3. -/
def W4_3 (P : Params) : S2x1025x32x12.Idx → EReal := putW85 (W4_2 P) 256#32 3#32 P.W3
/-- The two-axis array after the writes of bands 0 … 3. -/
def B2_3 (P : Params) : S2x1025.Idx → EReal := putB85 (B2_2 P) 256#32 P.b3

theorem layerW_3 (P : Params) (c : Fin 2) (f : Fin 1025) (g : Fin 32) (i : Fin 12) :
    W4_3 P (ix4 c f g i)
      = if h : 256 ≤ f.val ∧ f.val < 256 + 85 ∧ i.val = 3 then P.W3 (ix2 (row 170 85 rfl c (⟨f.val - 256, by omega⟩ : Fin 85)) g)
        else W4_2 P (ix4 c f g i) :=
  putW85_apply _ _ _ _ 256 3 (by decide) (by decide) (by omega) (by omega) c f g i

theorem layerB_3 (P : Params) (c : Fin 2) (f : Fin 1025) :
    B2_3 P (ix2 c f)
      = if h : 256 ≤ f.val ∧ f.val < 256 + 85 then P.b3 (ix1 (row 170 85 rfl c (⟨f.val - 256, by omega⟩ : Fin 85)))
        else B2_2 P (ix2 c f) :=
  putB85_apply _ _ _ 256 (by decide) (by omega) c f

/-- At a frequency past band 3 nothing has been written yet. -/
theorem zeroW_3 (P : Params) (c : Fin 2) (f : Fin 1025) (g : Fin 32) (i : Fin 12) (h : 341 ≤ f.val) : W4_3 P (ix4 c f g i) = 0 := by
  rw [layerW_3, dif_neg (show ¬ (256 ≤ f.val ∧ f.val < 256 + 85 ∧ i.val = 3) by omega)]
  exact zeroW_2 P c f g i (by omega)

theorem zeroB_3 (P : Params) (c : Fin 2) (f : Fin 1025) (h : 341 ≤ f.val) : B2_3 P (ix2 c f) = 0 := by
  rw [layerB_3, dif_neg (show ¬ (256 ≤ f.val ∧ f.val < 256 + 85) by omega)]
  exact zeroB_2 P c f (by omega)

/-- The four-axis array after the writes of bands 0 … 4. -/
def W4_4 (P : Params) : S2x1025x32x12.Idx → EReal := putW86 (W4_3 P) 341#32 4#32 P.W4
/-- The two-axis array after the writes of bands 0 … 4. -/
def B2_4 (P : Params) : S2x1025.Idx → EReal := putB86 (B2_3 P) 341#32 P.b4

theorem layerW_4 (P : Params) (c : Fin 2) (f : Fin 1025) (g : Fin 32) (i : Fin 12) :
    W4_4 P (ix4 c f g i)
      = if h : 341 ≤ f.val ∧ f.val < 341 + 86 ∧ i.val = 4 then P.W4 (ix2 (row 172 86 rfl c (⟨f.val - 341, by omega⟩ : Fin 86)) g)
        else W4_3 P (ix4 c f g i) :=
  putW86_apply _ _ _ _ 341 4 (by decide) (by decide) (by omega) (by omega) c f g i

theorem layerB_4 (P : Params) (c : Fin 2) (f : Fin 1025) :
    B2_4 P (ix2 c f)
      = if h : 341 ≤ f.val ∧ f.val < 341 + 86 then P.b4 (ix1 (row 172 86 rfl c (⟨f.val - 341, by omega⟩ : Fin 86)))
        else B2_3 P (ix2 c f) :=
  putB86_apply _ _ _ 341 (by decide) (by omega) c f

/-- At a frequency past band 4 nothing has been written yet. -/
theorem zeroW_4 (P : Params) (c : Fin 2) (f : Fin 1025) (g : Fin 32) (i : Fin 12) (h : 427 ≤ f.val) : W4_4 P (ix4 c f g i) = 0 := by
  rw [layerW_4, dif_neg (show ¬ (341 ≤ f.val ∧ f.val < 341 + 86 ∧ i.val = 4) by omega)]
  exact zeroW_3 P c f g i (by omega)

theorem zeroB_4 (P : Params) (c : Fin 2) (f : Fin 1025) (h : 427 ≤ f.val) : B2_4 P (ix2 c f) = 0 := by
  rw [layerB_4, dif_neg (show ¬ (341 ≤ f.val ∧ f.val < 341 + 86) by omega)]
  exact zeroB_3 P c f (by omega)

/-- The four-axis array after the writes of bands 0 … 5. -/
def W4_5 (P : Params) : S2x1025x32x12.Idx → EReal := putW85 (W4_4 P) 427#32 5#32 P.W5
/-- The two-axis array after the writes of bands 0 … 5. -/
def B2_5 (P : Params) : S2x1025.Idx → EReal := putB85 (B2_4 P) 427#32 P.b5

theorem layerW_5 (P : Params) (c : Fin 2) (f : Fin 1025) (g : Fin 32) (i : Fin 12) :
    W4_5 P (ix4 c f g i)
      = if h : 427 ≤ f.val ∧ f.val < 427 + 85 ∧ i.val = 5 then P.W5 (ix2 (row 170 85 rfl c (⟨f.val - 427, by omega⟩ : Fin 85)) g)
        else W4_4 P (ix4 c f g i) :=
  putW85_apply _ _ _ _ 427 5 (by decide) (by decide) (by omega) (by omega) c f g i

theorem layerB_5 (P : Params) (c : Fin 2) (f : Fin 1025) :
    B2_5 P (ix2 c f)
      = if h : 427 ≤ f.val ∧ f.val < 427 + 85 then P.b5 (ix1 (row 170 85 rfl c (⟨f.val - 427, by omega⟩ : Fin 85)))
        else B2_4 P (ix2 c f) :=
  putB85_apply _ _ _ 427 (by decide) (by omega) c f

/-- At a frequency past band 5 nothing has been written yet. -/
theorem zeroW_5 (P : Params) (c : Fin 2) (f : Fin 1025) (g : Fin 32) (i : Fin 12) (h : 512 ≤ f.val) : W4_5 P (ix4 c f g i) = 0 := by
  rw [layerW_5, dif_neg (show ¬ (427 ≤ f.val ∧ f.val < 427 + 85 ∧ i.val = 5) by omega)]
  exact zeroW_4 P c f g i (by omega)

theorem zeroB_5 (P : Params) (c : Fin 2) (f : Fin 1025) (h : 512 ≤ f.val) : B2_5 P (ix2 c f) = 0 := by
  rw [layerB_5, dif_neg (show ¬ (427 ≤ f.val ∧ f.val < 427 + 85) by omega)]
  exact zeroB_4 P c f (by omega)

/-- The four-axis array after the writes of bands 0 … 6. -/
def W4_6 (P : Params) : S2x1025x32x12.Idx → EReal := putW85 (W4_5 P) 512#32 6#32 P.W6
/-- The two-axis array after the writes of bands 0 … 6. -/
def B2_6 (P : Params) : S2x1025.Idx → EReal := putB85 (B2_5 P) 512#32 P.b6

theorem layerW_6 (P : Params) (c : Fin 2) (f : Fin 1025) (g : Fin 32) (i : Fin 12) :
    W4_6 P (ix4 c f g i)
      = if h : 512 ≤ f.val ∧ f.val < 512 + 85 ∧ i.val = 6 then P.W6 (ix2 (row 170 85 rfl c (⟨f.val - 512, by omega⟩ : Fin 85)) g)
        else W4_5 P (ix4 c f g i) :=
  putW85_apply _ _ _ _ 512 6 (by decide) (by decide) (by omega) (by omega) c f g i

theorem layerB_6 (P : Params) (c : Fin 2) (f : Fin 1025) :
    B2_6 P (ix2 c f)
      = if h : 512 ≤ f.val ∧ f.val < 512 + 85 then P.b6 (ix1 (row 170 85 rfl c (⟨f.val - 512, by omega⟩ : Fin 85)))
        else B2_5 P (ix2 c f) :=
  putB85_apply _ _ _ 512 (by decide) (by omega) c f

/-- At a frequency past band 6 nothing has been written yet. -/
theorem zeroW_6 (P : Params) (c : Fin 2) (f : Fin 1025) (g : Fin 32) (i : Fin 12) (h : 597 ≤ f.val) : W4_6 P (ix4 c f g i) = 0 := by
  rw [layerW_6, dif_neg (show ¬ (512 ≤ f.val ∧ f.val < 512 + 85 ∧ i.val = 6) by omega)]
  exact zeroW_5 P c f g i (by omega)

theorem zeroB_6 (P : Params) (c : Fin 2) (f : Fin 1025) (h : 597 ≤ f.val) : B2_6 P (ix2 c f) = 0 := by
  rw [layerB_6, dif_neg (show ¬ (512 ≤ f.val ∧ f.val < 512 + 85) by omega)]
  exact zeroB_5 P c f (by omega)

/-- The four-axis array after the writes of bands 0 … 7. -/
def W4_7 (P : Params) : S2x1025x32x12.Idx → EReal := putW86 (W4_6 P) 597#32 7#32 P.W7
/-- The two-axis array after the writes of bands 0 … 7. -/
def B2_7 (P : Params) : S2x1025.Idx → EReal := putB86 (B2_6 P) 597#32 P.b7

theorem layerW_7 (P : Params) (c : Fin 2) (f : Fin 1025) (g : Fin 32) (i : Fin 12) :
    W4_7 P (ix4 c f g i)
      = if h : 597 ≤ f.val ∧ f.val < 597 + 86 ∧ i.val = 7 then P.W7 (ix2 (row 172 86 rfl c (⟨f.val - 597, by omega⟩ : Fin 86)) g)
        else W4_6 P (ix4 c f g i) :=
  putW86_apply _ _ _ _ 597 7 (by decide) (by decide) (by omega) (by omega) c f g i

theorem layerB_7 (P : Params) (c : Fin 2) (f : Fin 1025) :
    B2_7 P (ix2 c f)
      = if h : 597 ≤ f.val ∧ f.val < 597 + 86 then P.b7 (ix1 (row 172 86 rfl c (⟨f.val - 597, by omega⟩ : Fin 86)))
        else B2_6 P (ix2 c f) :=
  putB86_apply _ _ _ 597 (by decide) (by omega) c f

/-- At a frequency past band 7 nothing has been written yet. -/
theorem zeroW_7 (P : Params) (c : Fin 2) (f : Fin 1025) (g : Fin 32) (i : Fin 12) (h : 683 ≤ f.val) : W4_7 P (ix4 c f g i) = 0 := by
  rw [layerW_7, dif_neg (show ¬ (597 ≤ f.val ∧ f.val < 597 + 86 ∧ i.val = 7) by omega)]
  exact zeroW_6 P c f g i (by omega)

theorem zeroB_7 (P : Params) (c : Fin 2) (f : Fin 1025) (h : 683 ≤ f.val) : B2_7 P (ix2 c f) = 0 := by
  rw [layerB_7, dif_neg (show ¬ (597 ≤ f.val ∧ f.val < 597 + 86) by omega)]
  exact zeroB_6 P c f (by omega)

/-- The four-axis array after the writes of bands 0 … 8. -/
def W4_8 (P : Params) : S2x1025x32x12.Idx → EReal := putW85 (W4_7 P) 683#32 8#32 P.W8
/-- The two-axis array after the writes of bands 0 … 8. -/
def B2_8 (P : Params) : S2x1025.Idx → EReal := putB85 (B2_7 P) 683#32 P.b8

theorem layerW_8 (P : Params) (c : Fin 2) (f : Fin 1025) (g : Fin 32) (i : Fin 12) :
    W4_8 P (ix4 c f g i)
      = if h : 683 ≤ f.val ∧ f.val < 683 + 85 ∧ i.val = 8 then P.W8 (ix2 (row 170 85 rfl c (⟨f.val - 683, by omega⟩ : Fin 85)) g)
        else W4_7 P (ix4 c f g i) :=
  putW85_apply _ _ _ _ 683 8 (by decide) (by decide) (by omega) (by omega) c f g i

theorem layerB_8 (P : Params) (c : Fin 2) (f : Fin 1025) :
    B2_8 P (ix2 c f)
      = if h : 683 ≤ f.val ∧ f.val < 683 + 85 then P.b8 (ix1 (row 170 85 rfl c (⟨f.val - 683, by omega⟩ : Fin 85)))
        else B2_7 P (ix2 c f) :=
  putB85_apply _ _ _ 683 (by decide) (by omega) c f

/-- At a frequency past band 8 nothing has been written yet. -/
theorem zeroW_8 (P : Params) (c : Fin 2) (f : Fin 1025) (g : Fin 32) (i : Fin 12) (h : 768 ≤ f.val) : W4_8 P (ix4 c f g i) = 0 := by
  rw [layerW_8, dif_neg (show ¬ (683 ≤ f.val ∧ f.val < 683 + 85 ∧ i.val = 8) by omega)]
  exact zeroW_7 P c f g i (by omega)

theorem zeroB_8 (P : Params) (c : Fin 2) (f : Fin 1025) (h : 768 ≤ f.val) : B2_8 P (ix2 c f) = 0 := by
  rw [layerB_8, dif_neg (show ¬ (683 ≤ f.val ∧ f.val < 683 + 85) by omega)]
  exact zeroB_7 P c f (by omega)

/-- The four-axis array after the writes of bands 0 … 9. -/
def W4_9 (P : Params) : S2x1025x32x12.Idx → EReal := putW86 (W4_8 P) 768#32 9#32 P.W9
/-- The two-axis array after the writes of bands 0 … 9. -/
def B2_9 (P : Params) : S2x1025.Idx → EReal := putB86 (B2_8 P) 768#32 P.b9

theorem layerW_9 (P : Params) (c : Fin 2) (f : Fin 1025) (g : Fin 32) (i : Fin 12) :
    W4_9 P (ix4 c f g i)
      = if h : 768 ≤ f.val ∧ f.val < 768 + 86 ∧ i.val = 9 then P.W9 (ix2 (row 172 86 rfl c (⟨f.val - 768, by omega⟩ : Fin 86)) g)
        else W4_8 P (ix4 c f g i) :=
  putW86_apply _ _ _ _ 768 9 (by decide) (by decide) (by omega) (by omega) c f g i

theorem layerB_9 (P : Params) (c : Fin 2) (f : Fin 1025) :
    B2_9 P (ix2 c f)
      = if h : 768 ≤ f.val ∧ f.val < 768 + 86 then P.b9 (ix1 (row 172 86 rfl c (⟨f.val - 768, by omega⟩ : Fin 86)))
        else B2_8 P (ix2 c f) :=
  putB86_apply _ _ _ 768 (by decide) (by omega) c f

/-- At a frequency past band 9 nothing has been written yet. -/
theorem zeroW_9 (P : Params) (c : Fin 2) (f : Fin 1025) (g : Fin 32) (i : Fin 12) (h : 854 ≤ f.val) : W4_9 P (ix4 c f g i) = 0 := by
  rw [layerW_9, dif_neg (show ¬ (768 ≤ f.val ∧ f.val < 768 + 86 ∧ i.val = 9) by omega)]
  exact zeroW_8 P c f g i (by omega)

theorem zeroB_9 (P : Params) (c : Fin 2) (f : Fin 1025) (h : 854 ≤ f.val) : B2_9 P (ix2 c f) = 0 := by
  rw [layerB_9, dif_neg (show ¬ (768 ≤ f.val ∧ f.val < 768 + 86) by omega)]
  exact zeroB_8 P c f (by omega)

/-- The four-axis array after the writes of bands 0 … 10. -/
def W4_10 (P : Params) : S2x1025x32x12.Idx → EReal := putW85 (W4_9 P) 854#32 10#32 P.W10
/-- The two-axis array after the writes of bands 0 … 10. -/
def B2_10 (P : Params) : S2x1025.Idx → EReal := putB85 (B2_9 P) 854#32 P.b10

theorem layerW_10 (P : Params) (c : Fin 2) (f : Fin 1025) (g : Fin 32) (i : Fin 12) :
    W4_10 P (ix4 c f g i)
      = if h : 854 ≤ f.val ∧ f.val < 854 + 85 ∧ i.val = 10 then P.W10 (ix2 (row 170 85 rfl c (⟨f.val - 854, by omega⟩ : Fin 85)) g)
        else W4_9 P (ix4 c f g i) :=
  putW85_apply _ _ _ _ 854 10 (by decide) (by decide) (by omega) (by omega) c f g i

theorem layerB_10 (P : Params) (c : Fin 2) (f : Fin 1025) :
    B2_10 P (ix2 c f)
      = if h : 854 ≤ f.val ∧ f.val < 854 + 85 then P.b10 (ix1 (row 170 85 rfl c (⟨f.val - 854, by omega⟩ : Fin 85)))
        else B2_9 P (ix2 c f) :=
  putB85_apply _ _ _ 854 (by decide) (by omega) c f

/-- At a frequency past band 10 nothing has been written yet. -/
theorem zeroW_10 (P : Params) (c : Fin 2) (f : Fin 1025) (g : Fin 32) (i : Fin 12) (h : 939 ≤ f.val) : W4_10 P (ix4 c f g i) = 0 := by
  rw [layerW_10, dif_neg (show ¬ (854 ≤ f.val ∧ f.val < 854 + 85 ∧ i.val = 10) by omega)]
  exact zeroW_9 P c f g i (by omega)

theorem zeroB_10 (P : Params) (c : Fin 2) (f : Fin 1025) (h : 939 ≤ f.val) : B2_10 P (ix2 c f) = 0 := by
  rw [layerB_10, dif_neg (show ¬ (854 ≤ f.val ∧ f.val < 854 + 85) by omega)]
  exact zeroB_9 P c f (by omega)

/-- The four-axis array after the writes of bands 0 … 11. -/
def W4_11 (P : Params) : S2x1025x32x12.Idx → EReal := putW86 (W4_10 P) 939#32 11#32 P.W11
/-- The two-axis array after the writes of bands 0 … 11. -/
def B2_11 (P : Params) : S2x1025.Idx → EReal := putB86 (B2_10 P) 939#32 P.b11

theorem layerW_11 (P : Params) (c : Fin 2) (f : Fin 1025) (g : Fin 32) (i : Fin 12) :
    W4_11 P (ix4 c f g i)
      = if h : 939 ≤ f.val ∧ f.val < 939 + 86 ∧ i.val = 11 then P.W11 (ix2 (row 172 86 rfl c (⟨f.val - 939, by omega⟩ : Fin 86)) g)
        else W4_10 P (ix4 c f g i) :=
  putW86_apply _ _ _ _ 939 11 (by decide) (by decide) (by omega) (by omega) c f g i

theorem layerB_11 (P : Params) (c : Fin 2) (f : Fin 1025) :
    B2_11 P (ix2 c f)
      = if h : 939 ≤ f.val ∧ f.val < 939 + 86 then P.b11 (ix1 (row 172 86 rfl c (⟨f.val - 939, by omega⟩ : Fin 86)))
        else B2_10 P (ix2 c f) :=
  putB86_apply _ _ _ 939 (by decide) (by omega) c f

/-- At a frequency past band 11 nothing has been written yet. -/
theorem zeroW_11 (P : Params) (c : Fin 2) (f : Fin 1025) (g : Fin 32) (i : Fin 12) (h : 1025 ≤ f.val) : W4_11 P (ix4 c f g i) = 0 := by
  rw [layerW_11, dif_neg (show ¬ (939 ≤ f.val ∧ f.val < 939 + 86 ∧ i.val = 11) by omega)]
  exact zeroW_10 P c f g i (by omega)

theorem zeroB_11 (P : Params) (c : Fin 2) (f : Fin 1025) (h : 1025 ≤ f.val) : B2_11 P (ix2 c f) = 0 := by
  rw [layerB_11, dif_neg (show ¬ (939 ≤ f.val ∧ f.val < 939 + 86) by omega)]
  exact zeroB_10 P c f (by omega)

/-! ## The later writes miss an earlier band's frequencies -/

theorem topW_11 (P : Params) (c : Fin 2) (f : Fin 1025) (g : Fin 32) (i : Fin 12) (h : f.val < 1025) : W4_11 P (ix4 c f g i) = W4_11 P (ix4 c f g i) := rfl
theorem topB_11 (P : Params) (c : Fin 2) (f : Fin 1025) (h : f.val < 1025) : B2_11 P (ix2 c f) = B2_11 P (ix2 c f) := rfl

theorem topW_10 (P : Params) (c : Fin 2) (f : Fin 1025) (g : Fin 32) (i : Fin 12) (h : f.val < 939) : W4_11 P (ix4 c f g i) = W4_10 P (ix4 c f g i) := by
  rw [topW_11 P c f g i (by omega), layerW_11, dif_neg (show ¬ (939 ≤ f.val ∧ f.val < 939 + 86 ∧ i.val = 11) by omega)]
theorem topB_10 (P : Params) (c : Fin 2) (f : Fin 1025) (h : f.val < 939) : B2_11 P (ix2 c f) = B2_10 P (ix2 c f) := by
  rw [topB_11 P c f (by omega), layerB_11, dif_neg (show ¬ (939 ≤ f.val ∧ f.val < 939 + 86) by omega)]

theorem topW_9 (P : Params) (c : Fin 2) (f : Fin 1025) (g : Fin 32) (i : Fin 12) (h : f.val < 854) : W4_11 P (ix4 c f g i) = W4_9 P (ix4 c f g i) := by
  rw [topW_10 P c f g i (by omega), layerW_10, dif_neg (show ¬ (854 ≤ f.val ∧ f.val < 854 + 85 ∧ i.val = 10) by omega)]
theorem topB_9 (P : Params) (c : Fin 2) (f : Fin 1025) (h : f.val < 854) : B2_11 P (ix2 c f) = B2_9 P (ix2 c f) := by
  rw [topB_10 P c f (by omega), layerB_10, dif_neg (show ¬ (854 ≤ f.val ∧ f.val < 854 + 85) by omega)]

theorem topW_8 (P : Params) (c : Fin 2) (f : Fin 1025) (g : Fin 32) (i : Fin 12) (h : f.val < 768) : W4_11 P (ix4 c f g i) = W4_8 P (ix4 c f g i) := by
  rw [topW_9 P c f g i (by omega), layerW_9, dif_neg (show ¬ (768 ≤ f.val ∧ f.val < 768 + 86 ∧ i.val = 9) by omega)]
theorem topB_8 (P : Params) (c : Fin 2) (f : Fin 1025) (h : f.val < 768) : B2_11 P (ix2 c f) = B2_8 P (ix2 c f) := by
  rw [topB_9 P c f (by omega), layerB_9, dif_neg (show ¬ (768 ≤ f.val ∧ f.val < 768 + 86) by omega)]

theorem topW_7 (P : Params) (c : Fin 2) (f : Fin 1025) (g : Fin 32) (i : Fin 12) (h : f.val < 683) : W4_11 P (ix4 c f g i) = W4_7 P (ix4 c f g i) := by
  rw [topW_8 P c f g i (by omega), layerW_8, dif_neg (show ¬ (683 ≤ f.val ∧ f.val < 683 + 85 ∧ i.val = 8) by omega)]
theorem topB_7 (P : Params) (c : Fin 2) (f : Fin 1025) (h : f.val < 683) : B2_11 P (ix2 c f) = B2_7 P (ix2 c f) := by
  rw [topB_8 P c f (by omega), layerB_8, dif_neg (show ¬ (683 ≤ f.val ∧ f.val < 683 + 85) by omega)]

theorem topW_6 (P : Params) (c : Fin 2) (f : Fin 1025) (g : Fin 32) (i : Fin 12) (h : f.val < 597) : W4_11 P (ix4 c f g i) = W4_6 P (ix4 c f g i) := by
  rw [topW_7 P c f g i (by omega), layerW_7, dif_neg (show ¬ (597 ≤ f.val ∧ f.val < 597 + 86 ∧ i.val = 7) by omega)]
theorem topB_6 (P : Params) (c : Fin 2) (f : Fin 1025) (h : f.val < 597) : B2_11 P (ix2 c f) = B2_6 P (ix2 c f) := by
  rw [topB_7 P c f (by omega), layerB_7, dif_neg (show ¬ (597 ≤ f.val ∧ f.val < 597 + 86) by omega)]

theorem topW_5 (P : Params) (c : Fin 2) (f : Fin 1025) (g : Fin 32) (i : Fin 12) (h : f.val < 512) : W4_11 P (ix4 c f g i) = W4_5 P (ix4 c f g i) := by
  rw [topW_6 P c f g i (by omega), layerW_6, dif_neg (show ¬ (512 ≤ f.val ∧ f.val < 512 + 85 ∧ i.val = 6) by omega)]
theorem topB_5 (P : Params) (c : Fin 2) (f : Fin 1025) (h : f.val < 512) : B2_11 P (ix2 c f) = B2_5 P (ix2 c f) := by
  rw [topB_6 P c f (by omega), layerB_6, dif_neg (show ¬ (512 ≤ f.val ∧ f.val < 512 + 85) by omega)]

theorem topW_4 (P : Params) (c : Fin 2) (f : Fin 1025) (g : Fin 32) (i : Fin 12) (h : f.val < 427) : W4_11 P (ix4 c f g i) = W4_4 P (ix4 c f g i) := by
  rw [topW_5 P c f g i (by omega), layerW_5, dif_neg (show ¬ (427 ≤ f.val ∧ f.val < 427 + 85 ∧ i.val = 5) by omega)]
theorem topB_4 (P : Params) (c : Fin 2) (f : Fin 1025) (h : f.val < 427) : B2_11 P (ix2 c f) = B2_4 P (ix2 c f) := by
  rw [topB_5 P c f (by omega), layerB_5, dif_neg (show ¬ (427 ≤ f.val ∧ f.val < 427 + 85) by omega)]

theorem topW_3 (P : Params) (c : Fin 2) (f : Fin 1025) (g : Fin 32) (i : Fin 12) (h : f.val < 341) : W4_11 P (ix4 c f g i) = W4_3 P (ix4 c f g i) := by
  rw [topW_4 P c f g i (by omega), layerW_4, dif_neg (show ¬ (341 ≤ f.val ∧ f.val < 341 + 86 ∧ i.val = 4) by omega)]
theorem topB_3 (P : Params) (c : Fin 2) (f : Fin 1025) (h : f.val < 341) : B2_11 P (ix2 c f) = B2_3 P (ix2 c f) := by
  rw [topB_4 P c f (by omega), layerB_4, dif_neg (show ¬ (341 ≤ f.val ∧ f.val < 341 + 86) by omega)]

theorem topW_2 (P : Params) (c : Fin 2) (f : Fin 1025) (g : Fin 32) (i : Fin 12) (h : f.val < 256) : W4_11 P (ix4 c f g i) = W4_2 P (ix4 c f g i) := by
  rw [topW_3 P c f g i (by omega), layerW_3, dif_neg (show ¬ (256 ≤ f.val ∧ f.val < 256 + 85 ∧ i.val = 3) by omega)]
theorem topB_2 (P : Params) (c : Fin 2) (f : Fin 1025) (h : f.val < 256) : B2_11 P (ix2 c f) = B2_2 P (ix2 c f) := by
  rw [topB_3 P c f (by omega), layerB_3, dif_neg (show ¬ (256 ≤ f.val ∧ f.val < 256 + 85) by omega)]

theorem topW_1 (P : Params) (c : Fin 2) (f : Fin 1025) (g : Fin 32) (i : Fin 12) (h : f.val < 170) : W4_11 P (ix4 c f g i) = W4_1 P (ix4 c f g i) := by
  rw [topW_2 P c f g i (by omega), layerW_2, dif_neg (show ¬ (170 ≤ f.val ∧ f.val < 170 + 86 ∧ i.val = 2) by omega)]
theorem topB_1 (P : Params) (c : Fin 2) (f : Fin 1025) (h : f.val < 170) : B2_11 P (ix2 c f) = B2_1 P (ix2 c f) := by
  rw [topB_2 P c f (by omega), layerB_2, dif_neg (show ¬ (170 ≤ f.val ∧ f.val < 170 + 86) by omega)]

theorem topW_0 (P : Params) (c : Fin 2) (f : Fin 1025) (g : Fin 32) (i : Fin 12) (h : f.val < 85) : W4_11 P (ix4 c f g i) = W4_0 P (ix4 c f g i) := by
  rw [topW_1 P c f g i (by omega), layerW_1, dif_neg (show ¬ (85 ≤ f.val ∧ f.val < 85 + 85 ∧ i.val = 1) by omega)]
theorem topB_0 (P : Params) (c : Fin 2) (f : Fin 1025) (h : f.val < 85) : B2_11 P (ix2 c f) = B2_0 P (ix2 c f) := by
  rw [topB_1 P c f (by omega), layerB_1, dif_neg (show ¬ (85 ≤ f.val ∧ f.val < 85 + 85) by omega)]

/-! ## The finished arrays at a frequency of band j -/

/-- At a frequency of band 0 only band column 0 is non-zero, and it holds band 0's matrix. -/
theorem bandW_0 (P : Params) (c : Fin 2) (f : Fin 1025) (g : Fin 32) (i : Fin 12) (h1 : 0 ≤ f.val) (h2 : f.val < 0 + 85) :
    W4_11 P (ix4 c f g i) = if i.val = 0 then P.W0 (ix2 (row 170 85 rfl c (⟨f.val - 0, by omega⟩ : Fin 85)) g) else 0 := by
  rw [topW_0 P c f g i (by omega), layerW_0]
  by_cases hi : i.val = 0
  · rw [dif_pos ⟨h1, h2, hi⟩, if_pos hi]
  · rw [dif_neg (fun h => hi h.2.2), if_neg hi]
    exact zerosW_apply _

/-- At a frequency of band 0 the vector array holds band 0's vector. -/
theorem bandB_0 (P : Params) (c : Fin 2) (f : Fin 1025) (h1 : 0 ≤ f.val) (h2 : f.val < 0 + 85) :
    B2_11 P (ix2 c f) = P.b0 (ix1 (row 170 85 rfl c (⟨f.val - 0, by omega⟩ : Fin 85))) := by
  rw [topB_0 P c f (by omega), layerB_0, dif_pos ⟨h1, h2⟩]

/-- At a frequency of band 1 only band column 1 is non-zero, and it holds band 1's matrix. -/
theorem bandW_1 (P : Params) (c : Fin 2) (f : Fin 1025) (g : Fin 32) (i : Fin 12) (h1 : 85 ≤ f.val) (h2 : f.val < 85 + 85) :
    W4_11 P (ix4 c f g i) = if i.val = 1 then P.W1 (ix2 (row 170 85 rfl c (⟨f.val - 85, by omega⟩ : Fin 85)) g) else 0 := by
  rw [topW_1 P c f g i (by omega), layerW_1]
  by_cases hi : i.val = 1
  · rw [dif_pos ⟨h1, h2, hi⟩, if_pos hi]
  · rw [dif_neg (fun h => hi h.2.2), if_neg hi]
    exact zeroW_0 P c f g i (by omega)

/-- At a frequency of band 1 the vector array holds band 1's vector. -/
theorem bandB_1 (P : Params) (c : Fin 2) (f : Fin 1025) (h1 : 85 ≤ f.val) (h2 : f.val < 85 + 85) :
    B2_11 P (ix2 c f) = P.b1 (ix1 (row 170 85 rfl c (⟨f.val - 85, by omega⟩ : Fin 85))) := by
  rw [topB_1 P c f (by omega), layerB_1, dif_pos ⟨h1, h2⟩]

/-- At a frequency of band 2 only band column 2 is non-zero, and it holds band 2's matrix. -/
theorem bandW_2 (P : Params) (c : Fin 2) (f : Fin 1025) (g : Fin 32) (i : Fin 12) (h1 : 170 ≤ f.val) (h2 : f.val < 170 + 86) :
    W4_11 P (ix4 c f g i) = if i.val = 2 then P.W2 (ix2 (row 172 86 rfl c (⟨f.val - 170, by omega⟩ : Fin 86)) g) else 0 := by
  rw [topW_2 P c f g i (by omega), layerW_2]
  by_cases hi : i.val = 2
  · rw [dif_pos ⟨h1, h2, hi⟩, if_pos hi]
  · rw [dif_neg (fun h => hi h.2.2), if_neg hi]
    exact zeroW_1 P c f g i (by omega)

/-- At a frequency of band 2 the vector array holds band 2's vector. -/
theorem bandB_2 (P : Params) (c : Fin 2) (f : Fin 1025) (h1 : 170 ≤ f.val) (h2 : f.val < 170 + 86) :
    B2_11 P (ix2 c f) = P.b2 (ix1 (row 172 86 rfl c (⟨f.val - 170, by omega⟩ : Fin 86))) := by
  rw [topB_2 P c f (by omega), layerB_2, dif_pos ⟨h1, h2⟩]

/-- At a frequency of band 3 only band column 3 is non-zero, and it holds band 3's matrix. -/
theorem bandW_3 (P : Params) (c : Fin 2) (f : Fin 1025) (g : Fin 32) (i : Fin 12) (h1 : 256 ≤ f.val) (h2 : f.val < 256 + 85) :
    W4_11 P (ix4 c f g i) = if i.val = 3 then P.W3 (ix2 (row 170 85 rfl c (⟨f.val - 256, by omega⟩ : Fin 85)) g) else 0 := by
  rw [topW_3 P c f g i (by omega), layerW_3]
  by_cases hi : i.val = 3
  · rw [dif_pos ⟨h1, h2, hi⟩, if_pos hi]
  · rw [dif_neg (fun h => hi h.2.2), if_neg hi]
    exact zeroW_2 P c f g i (by omega)

/-- At a frequency of band 3 the vector array holds band 3's vector. -/
theorem bandB_3 (P : Params) (c : Fin 2) (f : Fin 1025) (h1 : 256 ≤ f.val) (h2 : f.val < 256 + 85) :
    B2_11 P (ix2 c f) = P.b3 (ix1 (row 170 85 rfl c (⟨f.val - 256, by omega⟩ : Fin 85))) := by
  rw [topB_3 P c f (by omega), layerB_3, dif_pos ⟨h1, h2⟩]

/-- At a frequency of band 4 only band column 4 is non-zero, and it holds band 4's matrix. -/
theorem bandW_4 (P : Params) (c : Fin 2) (f : Fin 1025) (g : Fin 32) (i : Fin 12) (h1 : 341 ≤ f.val) (h2 : f.val < 341 + 86) :
    W4_11 P (ix4 c f g i) = if i.val = 4 then P.W4 (ix2 (row 172 86 rfl c (⟨f.val - 341, by omega⟩ : Fin 86)) g) else 0 := by
  rw [topW_4 P c f g i (by omega), layerW_4]
  by_cases hi : i.val = 4
  · rw [dif_pos ⟨h1, h2, hi⟩, if_pos hi]
  · rw [dif_neg (fun h => hi h.2.2), if_neg hi]
    exact zeroW_3 P c f g i (by omega)

/-- At a frequency of band 4 the vector array holds band 4's vector. -/
theorem bandB_4 (P : Params) (c : Fin 2) (f : Fin 1025) (h1 : 341 ≤ f.val) (h2 : f.val < 341 + 86) :
    B2_11 P (ix2 c f) = P.b4 (ix1 (row 172 86 rfl c (⟨f.val - 341, by omega⟩ : Fin 86))) := by
  rw [topB_4 P c f (by omega), layerB_4, dif_pos ⟨h1, h2⟩]

/-- At a frequency of band 5 only band column 5 is non-zero, and it holds band 5's matrix. -/
theorem bandW_5 (P : Params) (c : Fin 2) (f : Fin 1025) (g : Fin 32) (i : Fin 12) (h1 : 427 ≤ f.val) (h2 : f.val < 427 + 85) :
    W4_11 P (ix4 c f g i) = if i.val = 5 then P.W5 (ix2 (row 170 85 rfl c (⟨f.val - 427, by omega⟩ : Fin 85)) g) else 0 := by
  rw [topW_5 P c f g i (by omega), layerW_5]
  by_cases hi : i.val = 5
  · rw [dif_pos ⟨h1, h2, hi⟩, if_pos hi]
  · rw [dif_neg (fun h => hi h.2.2), if_neg hi]
    exact zeroW_4 P c f g i (by omega)

/-- At a frequency of band 5 the vector array holds band 5's vector. -/
theorem bandB_5 (P : Params) (c : Fin 2) (f : Fin 1025) (h1 : 427 ≤ f.val) (h2 : f.val < 427 + 85) :
    B2_11 P (ix2 c f) = P.b5 (ix1 (row 170 85 rfl c (⟨f.val - 427, by omega⟩ : Fin 85))) := by
  rw [topB_5 P c f (by omega), layerB_5, dif_pos ⟨h1, h2⟩]

/-- At a frequency of band 6 only band column 6 is non-zero, and it holds band 6's matrix. -/
theorem bandW_6 (P : Params) (c : Fin 2) (f : Fin 1025) (g : Fin 32) (i : Fin 12) (h1 : 512 ≤ f.val) (h2 : f.val < 512 + 85) :
    W4_11 P (ix4 c f g i) = if i.val = 6 then P.W6 (ix2 (row 170 85 rfl c (⟨f.val - 512, by omega⟩ : Fin 85)) g) else 0 := by
  rw [topW_6 P c f g i (by omega), layerW_6]
  by_cases hi : i.val = 6
  · rw [dif_pos ⟨h1, h2, hi⟩, if_pos hi]
  · rw [dif_neg (fun h => hi h.2.2), if_neg hi]
    exact zeroW_5 P c f g i (by omega)

/-- At a frequency of band 6 the vector array holds band 6's vector. -/
theorem bandB_6 (P : Params) (c : Fin 2) (f : Fin 1025) (h1 : 512 ≤ f.val) (h2 : f.val < 512 + 85) :
    B2_11 P (ix2 c f) = P.b6 (ix1 (row 170 85 rfl c (⟨f.val - 512, by omega⟩ : Fin 85))) := by
  rw [topB_6 P c f (by omega), layerB_6, dif_pos ⟨h1, h2⟩]

/-- At a frequency of band 7 only band column 7 is non-zero, and it holds band 7's matrix. -/
theorem bandW_7 (P : Params) (c : Fin 2) (f : Fin 1025) (g : Fin 32) (i : Fin 12) (h1 : 597 ≤ f.val) (h2 : f.val < 597 + 86) :
    W4_11 P (ix4 c f g i) = if i.val = 7 then P.W7 (ix2 (row 172 86 rfl c (⟨f.val - 597, by omega⟩ : Fin 86)) g) else 0 := by
  rw [topW_7 P c f g i (by omega), layerW_7]
  by_cases hi : i.val = 7
  · rw [dif_pos ⟨h1, h2, hi⟩, if_pos hi]
  · rw [dif_neg (fun h => hi h.2.2), if_neg hi]
    exact zeroW_6 P c f g i (by omega)

/-- At a frequency of band 7 the vector array holds band 7's vector. -/
theorem bandB_7 (P : Params) (c : Fin 2) (f : Fin 1025) (h1 : 597 ≤ f.val) (h2 : f.val < 597 + 86) :
    B2_11 P (ix2 c f) = P.b7 (ix1 (row 172 86 rfl c (⟨f.val - 597, by omega⟩ : Fin 86))) := by
  rw [topB_7 P c f (by omega), layerB_7, dif_pos ⟨h1, h2⟩]

/-- At a frequency of band 8 only band column 8 is non-zero, and it holds band 8's matrix. -/
theorem bandW_8 (P : Params) (c : Fin 2) (f : Fin 1025) (g : Fin 32) (i : Fin 12) (h1 : 683 ≤ f.val) (h2 : f.val < 683 + 85) :
    W4_11 P (ix4 c f g i) = if i.val = 8 then P.W8 (ix2 (row 170 85 rfl c (⟨f.val - 683, by omega⟩ : Fin 85)) g) else 0 := by
  rw [topW_8 P c f g i (by omega), layerW_8]
  by_cases hi : i.val = 8
  · rw [dif_pos ⟨h1, h2, hi⟩, if_pos hi]
  · rw [dif_neg (fun h => hi h.2.2), if_neg hi]
    exact zeroW_7 P c f g i (by omega)

/-- At a frequency of band 8 the vector array holds band 8's vector. -/
theorem bandB_8 (P : Params) (c : Fin 2) (f : Fin 1025) (h1 : 683 ≤ f.val) (h2 : f.val < 683 + 85) :
    B2_11 P (ix2 c f) = P.b8 (ix1 (row 170 85 rfl c (⟨f.val - 683, by omega⟩ : Fin 85))) := by
  rw [topB_8 P c f (by omega), layerB_8, dif_pos ⟨h1, h2⟩]

/-- At a frequency of band 9 only band column 9 is non-zero, and it holds band 9's matrix. -/
theorem bandW_9 (P : Params) (c : Fin 2) (f : Fin 1025) (g : Fin 32) (i : Fin 12) (h1 : 768 ≤ f.val) (h2 : f.val < 768 + 86) :
    W4_11 P (ix4 c f g i) = if i.val = 9 then P.W9 (ix2 (row 172 86 rfl c (⟨f.val - 768, by omega⟩ : Fin 86)) g) else 0 := by
  rw [topW_9 P c f g i (by omega), layerW_9]
  by_cases hi : i.val = 9
  · rw [dif_pos ⟨h1, h2, hi⟩, if_pos hi]
  · rw [dif_neg (fun h => hi h.2.2), if_neg hi]
    exact zeroW_8 P c f g i (by omega)

/-- At a frequency of band 9 the vector array holds band 9's vector. -/
theorem bandB_9 (P : Params) (c : Fin 2) (f : Fin 1025) (h1 : 768 ≤ f.val) (h2 : f.val < 768 + 86) :
    B2_11 P (ix2 c f) = P.b9 (ix1 (row 172 86 rfl c (⟨f.val - 768, by omega⟩ : Fin 86))) := by
  rw [topB_9 P c f (by omega), layerB_9, dif_pos ⟨h1, h2⟩]

/-- At a frequency of band 10 only band column 10 is non-zero, and it holds band 10's matrix. -/
theorem bandW_10 (P : Params) (c : Fin 2) (f : Fin 1025) (g : Fin 32) (i : Fin 12) (h1 : 854 ≤ f.val) (h2 : f.val < 854 + 85) :
    W4_11 P (ix4 c f g i) = if i.val = 10 then P.W10 (ix2 (row 170 85 rfl c (⟨f.val - 854, by omega⟩ : Fin 85)) g) else 0 := by
  rw [topW_10 P c f g i (by omega), layerW_10]
  by_cases hi : i.val = 10
  · rw [dif_pos ⟨h1, h2, hi⟩, if_pos hi]
  · rw [dif_neg (fun h => hi h.2.2), if_neg hi]
    exact zeroW_9 P c f g i (by omega)

/-- At a frequency of band 10 the vector array holds band 10's vector. -/
theorem bandB_10 (P : Params) (c : Fin 2) (f : Fin 1025) (h1 : 854 ≤ f.val) (h2 : f.val < 854 + 85) :
    B2_11 P (ix2 c f) = P.b10 (ix1 (row 170 85 rfl c (⟨f.val - 854, by omega⟩ : Fin 85))) := by
  rw [topB_10 P c f (by omega), layerB_10, dif_pos ⟨h1, h2⟩]

/-- At a frequency of band 11 only band column 11 is non-zero, and it holds band 11's matrix. -/
theorem bandW_11 (P : Params) (c : Fin 2) (f : Fin 1025) (g : Fin 32) (i : Fin 12) (h1 : 939 ≤ f.val) (h2 : f.val < 939 + 86) :
    W4_11 P (ix4 c f g i) = if i.val = 11 then P.W11 (ix2 (row 172 86 rfl c (⟨f.val - 939, by omega⟩ : Fin 86)) g) else 0 := by
  rw [topW_11 P c f g i (by omega), layerW_11]
  by_cases hi : i.val = 11
  · rw [dif_pos ⟨h1, h2, hi⟩, if_pos hi]
  · rw [dif_neg (fun h => hi h.2.2), if_neg hi]
    exact zeroW_10 P c f g i (by omega)

/-- At a frequency of band 11 the vector array holds band 11's vector. -/
theorem bandB_11 (P : Params) (c : Fin 2) (f : Fin 1025) (h1 : 939 ≤ f.val) (h2 : f.val < 939 + 86) :
    B2_11 P (ix2 c f) = P.b11 (ix1 (row 172 86 rfl c (⟨f.val - 939, by omega⟩ : Fin 86))) := by
  rw [topB_11 P c f (by omega), layerB_11, dif_pos ⟨h1, h2⟩]

/-! ## The three arrays of the launch -/

/-- The big matrix: the four-axis array regrouped as [2050, 384]. -/
def bigA (P : Params) : S2050x384.Idx → EReal := shapeCast S2050x384 (W4_11 P) shapeCasts_S2x1025x32x12_S2050x384

theorem bigA_apply (P : Params) (c : Fin 2) (f : Fin 1025) (k : Fin 384) :
    bigA P (ix2 (bigRow c f) k)
      = W4_11 P (ix4 c f (⟨k.val / 12, by have := k.isLt; omega⟩ : Fin 32) (⟨k.val % 12, by omega⟩ : Fin 12)) :=
  shapeCast_apply (W4_11 P) shapeCasts_S2x1025x32x12_S2050x384 _ _ (by
    rewrite [Shape.rowMajor_val_four, Shape.rowMajor_val_two]
    show ((c.val * 1025 + f.val) * 32 + k.val / 12) * 12 + k.val % 12 = (c.val * 1025 + f.val) * 384 + k.val
    omega)

/-- The column: the two-axis array regrouped as [2050, 1]. -/
def bigV (P : Params) : S2050x1.Idx → EReal := shapeCast S2050x1 (B2_11 P) shapeCasts_S2x1025_S2050x1

theorem bigV_apply (P : Params) (c : Fin 2) (f : Fin 1025) : bigV P (ix2 (bigRow c f) (0 : Fin 1)) = B2_11 P (ix2 c f) :=
  shapeCast_apply (B2_11 P) shapeCasts_S2x1025_S2050x1 _ _ (by
    rewrite [Shape.rowMajor_val_two, Shape.rowMajor_val_two]
    show c.val * 1025 + f.val = (c.val * 1025 + f.val) * 1 + 0
    omega)

/-- The input with its unit axis dropped. -/
def bigY (P : Params) : S8x384x4096.Idx → EReal := shapeCast S8x384x4096 P.x shapeCasts_S8x384x1x4096_S8x384x4096

theorem bigY_apply (P : Params) (a : Fin 8) (k : Fin 384) (t : Fin 4096) : bigY P (ix3 a k t) = P.x (ix4 a k (0 : Fin 1) t) :=
  shapeCast_apply P.x shapeCasts_S8x384x1x4096_S8x384x4096 _ _ (by
    rewrite [Shape.rowMajor_val_four, Shape.rowMajor_val_three]
    show ((a.val * 384 + k.val) * 1 + 0) * 4096 + t.val = (a.val * 384 + k.val) * 4096 + t.val
    omega)

end Cert.HostArrays

end
-- ==== Proof.HostRead.lean ====
/-
  The arrays the region is launched on are the functions of the arguments described before: the host operations
  ahead of the region — the zeros, the regroupings of the bands' matrices and vectors, the start coordinates, the
  twenty-four writes and the three final regroupings — compose to exactly those terms.
-/
import proofs.«145164_j67224828117616_2_alg».proof.Proof.Gen.KernelIdeal.Frame
import proofs.«145164_j67224828117616_2_alg».proof.Proof.HostArrays
import Idealize.ShloMosaic.Lib.StableHlo.Run

noncomputable section

namespace Cert.HostRead

open Cert.KernelIdeal Cert.KernelIdeal.Gen Idealize.ShloMosaic Idealize.ShloMosaic.TcCoe Idealize.SL.Sem
open Idealize.ShloMosaic.StableHlo Cert.HostArrays

variable (m : (ℓ : Loc nD τ sig) → Buf (Elt Ideal) ℓ)

/-- Core c's arguments as launched. -/
def params (c : Dev nD) : Params where
  x := m ((c : Thread nD τ).loc main_arg0)
  W0 := m ((c : Thread nD τ).loc main_arg1)
  b0 := m ((c : Thread nD τ).loc main_arg2)
  W1 := m ((c : Thread nD τ).loc main_arg3)
  b1 := m ((c : Thread nD τ).loc main_arg4)
  W2 := m ((c : Thread nD τ).loc main_arg5)
  b2 := m ((c : Thread nD τ).loc main_arg6)
  W3 := m ((c : Thread nD τ).loc main_arg7)
  b3 := m ((c : Thread nD τ).loc main_arg8)
  W4 := m ((c : Thread nD τ).loc main_arg9)
  b4 := m ((c : Thread nD τ).loc main_arg10)
  W5 := m ((c : Thread nD τ).loc main_arg11)
  b5 := m ((c : Thread nD τ).loc main_arg12)
  W6 := m ((c : Thread nD τ).loc main_arg13)
  b6 := m ((c : Thread nD τ).loc main_arg14)
  W7 := m ((c : Thread nD τ).loc main_arg15)
  b7 := m ((c : Thread nD τ).loc main_arg16)
  W8 := m ((c : Thread nD τ).loc main_arg17)
  b8 := m ((c : Thread nD τ).loc main_arg18)
  W9 := m ((c : Thread nD τ).loc main_arg19)
  b9 := m ((c : Thread nD τ).loc main_arg20)
  W10 := m ((c : Thread nD τ).loc main_arg21)
  b10 := m ((c : Thread nD τ).loc main_arg22)
  W11 := m ((c : Thread nD τ).loc main_arg23)
  b11 := m ((c : Thread nD τ).loc main_arg24)

set_option maxHeartbeats 4000000 in
/-- The input array of the launch. -/
theorem V_y (c : Dev nD) : (V m c main_v100 : S8x384x4096.Idx → EReal) = bigY (params m c) := by
  dsimp only [Gen.V, Gen.hostOps0]
  after_results_simp
  rfl

set_option maxHeartbeats 4000000 in
/-- The column of the launch. -/
theorem V_v (c : Dev nD) : (V m c main_v99 : S2050x1.Idx → EReal) = bigV (params m c) := by
  dsimp only [Gen.V, Gen.hostOps0]
  after_results_simp
  rfl

set_option maxHeartbeats 4000000 in
/-- The big matrix of the launch. -/
theorem V_A (c : Dev nD) : (V m c main_v98 : S2050x384.Idx → EReal) = bigA (params m c) := by
  dsimp only [Gen.V, Gen.hostOps0]
  after_results_simp
  rfl

end Cert.HostRead

end
-- ==== Proof.Bridge.lean ====
/-
  The kernel's array function of the launch arrays is the specification's result.

  At a frequency f of band j, row c * 1025 + f of the big matrix holds, in column g * 12 + i, the entry
  W_j(c * w + (f - s_j), g) when i = j and zero otherwise. So the sum over the 384 columns keeps only the 32 columns of
  band j: zero times anything is zero on the extended reals, and addition there is commutative and associative, so the
  sum over k = g * 12 + i splits into the sum over g of the sum over i, of which only i = j survives. What is left is the
  sum over g of W_j(c * w + (f - s_j), g) * x(a, g * 12 + j, 0, t), the band's slab up to the order of the two factors; the
  column contributes b_j(c * w + (f - s_j)). The twelve bands cover the frequency axis.
-/
import proofs.«145164_j67224828117616_2_alg».proof.Proof.HostArrays
import Idealize.ShloMosaic.Lib.Pipeline.Value

noncomputable section

namespace Cert.Bridge

open Idealize.ShloMosaic Idealize.ShloMosaic.ValueIdx Cert.Spec Cert.KernelSpec Cert.HostArrays

/-- Of the 384 columns only the 32 of band j count. -/
theorem band_sum (ξ : Fin 384 → EReal) (ω : Fin 32 → EReal) (j : Fin 12) :
    ∑ k : Fin 384, (if k.val % 12 = j.val then ω (⟨k.val / 12, by have := k.isLt; omega⟩ : Fin 32) else 0) * ξ k
      = ∑ g : Fin 32, ξ (chan g j) * ω g := by
  have e := Equiv.sum_comp (finProdFinEquiv (m := 32) (n := 12))
    (fun k : Fin (32 * 12) => (if k.val % 12 = j.val then ω (⟨k.val / 12, by have := k.isLt; omega⟩ : Fin 32) else 0) * ξ k)
  refine e.symm.trans ?_
  rw [Fintype.sum_prod_type]
  refine Finset.sum_congr rfl fun g _ => ?_
  have hv : ∀ i : Fin 12, ((finProdFinEquiv (g, i) : Fin (32 * 12)) : ℕ) = i.val + 12 * g.val := fun _ => rfl
  rw [Finset.sum_eq_single j]
  · rw [if_pos (by rw [hv]; omega), mul_comm]
    congr 1
    · congr 1; exact Fin.ext (by rw [hv]; show _ = g.val * 12 + j.val; omega)
    · congr 1; exact Fin.ext (by show (finProdFinEquiv (g, j) : Fin (32 * 12)).val / 12 = g.val; rw [hv]; omega)
  · intro i _ hij
    rw [if_neg, zero_mul]
    intro h
    apply hij
    apply Fin.ext
    rw [hv] at h
    omega
  · intro h; exact absurd (Finset.mem_univ j) h

/-- The twelve slabs of the program's arguments. -/
abbrev pieces (P : Params) : List ((s : Shape) × (s.Idx → EReal)) :=
  [⟨⟨4, ![8, 2, 85, 4096]⟩, slab 170 85 rfl 0 P.x P.W0 P.b0⟩,
   ⟨⟨4, ![8, 2, 85, 4096]⟩, slab 170 85 rfl 1 P.x P.W1 P.b1⟩,
   ⟨⟨4, ![8, 2, 86, 4096]⟩, slab 172 86 rfl 2 P.x P.W2 P.b2⟩,
   ⟨⟨4, ![8, 2, 85, 4096]⟩, slab 170 85 rfl 3 P.x P.W3 P.b3⟩,
   ⟨⟨4, ![8, 2, 86, 4096]⟩, slab 172 86 rfl 4 P.x P.W4 P.b4⟩,
   ⟨⟨4, ![8, 2, 85, 4096]⟩, slab 170 85 rfl 5 P.x P.W5 P.b5⟩,
   ⟨⟨4, ![8, 2, 85, 4096]⟩, slab 170 85 rfl 6 P.x P.W6 P.b6⟩,
   ⟨⟨4, ![8, 2, 86, 4096]⟩, slab 172 86 rfl 7 P.x P.W7 P.b7⟩,
   ⟨⟨4, ![8, 2, 85, 4096]⟩, slab 170 85 rfl 8 P.x P.W8 P.b8⟩,
   ⟨⟨4, ![8, 2, 86, 4096]⟩, slab 172 86 rfl 9 P.x P.W9 P.b9⟩,
   ⟨⟨4, ![8, 2, 85, 4096]⟩, slab 170 85 rfl 10 P.x P.W10 P.b10⟩,
   ⟨⟨4, ![8, 2, 86, 4096]⟩, slab 172 86 rfl 11 P.x P.W11 P.b11⟩]

/-- The specification's result on the program's arguments. -/
abbrev Gp (P : Params) : SO.Idx → EReal := G P.x P.W0 P.b0 P.W1 P.b1 P.W2 P.b2 P.W3 P.b3 P.W4 P.b4 P.W5 P.b5 P.W6 P.b6 P.W7 P.b7 P.W8 P.b8 P.W9 P.b9 P.W10 P.b10 P.W11 P.b11

theorem Gp_eq (P : Params) : Gp P = concatenate SO 2 (pieces P) bands_concat := rfl

/-- On one band the kernel's array function is the band's slab, given what the big matrix and the column hold there. -/
theorem K_band (P : Params) (n w : Nat) (hn : n = 2 * w) (j : Fin 12) (s0 : Nat)
    (Wj : (⟨2, ![n, 32]⟩ : Shape).Idx → EReal) (bj : (⟨1, ![n]⟩ : Shape).Idx → EReal)
    (hA : ∀ (c : Fin 2) (f : Fin 1025) (g : Fin 32) (i : Fin 12) (h1 : s0 ≤ f.val) (h2 : f.val < s0 + w),
      W4_11 P (ix4 c f g i) = if i.val = j.val then Wj (ix2 (row n w hn c (⟨f.val - s0, by omega⟩ : Fin w)) g) else 0)
    (hB : ∀ (c : Fin 2) (f : Fin 1025) (h1 : s0 ≤ f.val) (h2 : f.val < s0 + w),
      B2_11 P (ix2 c f) = bj (ix1 (row n w hn c (⟨f.val - s0, by omega⟩ : Fin w))))
    (a : Fin 8) (c : Fin 2) (f : Fin 1025) (t : Fin 4096) (h1 : s0 ≤ f.val) (h2 : f.val < s0 + w) :
    K (bigY P) (bigA P) (bigV P) (ix4 a c f t) = slab n w hn j P.x Wj bj (ix4 a c (⟨f.val - s0, by omega⟩ : Fin w) t) := by
  refine (K_apply (bigY P) (bigA P) (bigV P) a c f t).trans ?_
  refine Eq.trans ?_ (slab_apply n w hn j P.x Wj bj a c (⟨f.val - s0, by omega⟩ : Fin w) t).symm
  have hv : bigV P (ix2 (bigRow c f) (0 : Fin 1)) = bj (ix1 (row n w hn c (⟨f.val - s0, by omega⟩ : Fin w))) :=
    (bigV_apply P c f).trans (hB c f h1 h2)
  have hs : ∑ k : Fin 384, bigA P (ix2 (bigRow c f) k) * bigY P (ix3 a k t)
      = ∑ g : Fin 32, P.x (ix4 a (chan g j) (0 : Fin 1) t) * Wj (ix2 (row n w hn c (⟨f.val - s0, by omega⟩ : Fin w)) g) := by
    refine (Finset.sum_congr rfl fun k _ => ?_).trans
      (band_sum (fun k => P.x (ix4 a k (0 : Fin 1) t)) (fun g => Wj (ix2 (row n w hn c (⟨f.val - s0, by omega⟩ : Fin w)) g)) j)
    rw [bigA_apply P c f k, hA c f _ _ h1 h2, bigY_apply P a k t]
  rw [hv, hs]

/-! ## The specification's result at a frequency of band j is band j's slab -/

theorem G_band_0 (P : Params) (a : Fin 8) (c : Fin 2) (f : Fin 1025) (t : Fin 4096) (h1 : 0 ≤ f.val) (h2 : f.val < 0 + 85) :
    Gp P (ix4 a c f t) = slab 170 85 rfl 0 P.x P.W0 P.b0 (ix4 a c (⟨f.val - 0, by omega⟩ : Fin 85) t) :=
  concatenate_apply_piece (t := SO) (2 : Fin 4) (pieces P) bands_concat (ix4 a c f t) 0 (show 0 < 12 by omega) ⟨4, ![8, 2, 85, 4096]⟩
    (slab 170 85 rfl 0 P.x P.W0 P.b0) rfl rfl 0 rfl (ix4 a c (⟨f.val - 0, by omega⟩ : Fin 85) t)
    (fun b hb => by
      match b with
      | ⟨0, _⟩ => rfl
      | ⟨1, _⟩ => rfl
      | ⟨2, _⟩ => exact absurd rfl hb
      | ⟨3, _⟩ => rfl)
    (by show 0 + (f.val - 0) = f.val; omega)

theorem G_band_1 (P : Params) (a : Fin 8) (c : Fin 2) (f : Fin 1025) (t : Fin 4096) (h1 : 85 ≤ f.val) (h2 : f.val < 85 + 85) :
    Gp P (ix4 a c f t) = slab 170 85 rfl 1 P.x P.W1 P.b1 (ix4 a c (⟨f.val - 85, by omega⟩ : Fin 85) t) :=
  concatenate_apply_piece (t := SO) (2 : Fin 4) (pieces P) bands_concat (ix4 a c f t) 1 (show 1 < 12 by omega) ⟨4, ![8, 2, 85, 4096]⟩
    (slab 170 85 rfl 1 P.x P.W1 P.b1) rfl rfl 85 rfl (ix4 a c (⟨f.val - 85, by omega⟩ : Fin 85) t)
    (fun b hb => by
      match b with
      | ⟨0, _⟩ => rfl
      | ⟨1, _⟩ => rfl
      | ⟨2, _⟩ => exact absurd rfl hb
      | ⟨3, _⟩ => rfl)
    (by show 85 + (f.val - 85) = f.val; omega)

theorem G_band_2 (P : Params) (a : Fin 8) (c : Fin 2) (f : Fin 1025) (t : Fin 4096) (h1 : 170 ≤ f.val) (h2 : f.val < 170 + 86) :
    Gp P (ix4 a c f t) = slab 172 86 rfl 2 P.x P.W2 P.b2 (ix4 a c (⟨f.val - 170, by omega⟩ : Fin 86) t) :=
  concatenate_apply_piece (t := SO) (2 : Fin 4) (pieces P) bands_concat (ix4 a c f t) 2 (show 2 < 12 by omega) ⟨4, ![8, 2, 86, 4096]⟩
    (slab 172 86 rfl 2 P.x P.W2 P.b2) rfl rfl 170 rfl (ix4 a c (⟨f.val - 170, by omega⟩ : Fin 86) t)
    (fun b hb => by
      match b with
      | ⟨0, _⟩ => rfl
      | ⟨1, _⟩ => rfl
      | ⟨2, _⟩ => exact absurd rfl hb
      | ⟨3, _⟩ => rfl)
    (by show 170 + (f.val - 170) = f.val; omega)

theorem G_band_3 (P : Params) (a : Fin 8) (c : Fin 2) (f : Fin 1025) (t : Fin 4096) (h1 : 256 ≤ f.val) (h2 : f.val < 256 + 85) :
    Gp P (ix4 a c f t) = slab 170 85 rfl 3 P.x P.W3 P.b3 (ix4 a c (⟨f.val - 256, by omega⟩ : Fin 85) t) :=
  concatenate_apply_piece (t := SO) (2 : Fin 4) (pieces P) bands_concat (ix4 a c f t) 3 (show 3 < 12 by omega) ⟨4, ![8, 2, 85, 4096]⟩
    (slab 170 85 rfl 3 P.x P.W3 P.b3) rfl rfl 256 rfl (ix4 a c (⟨f.val - 256, by omega⟩ : Fin 85) t)
    (fun b hb => by
      match b with
      | ⟨0, _⟩ => rfl
      | ⟨1, _⟩ => rfl
      | ⟨2, _⟩ => exact absurd rfl hb
      | ⟨3, _⟩ => rfl)
    (by show 256 + (f.val - 256) = f.val; omega)

theorem G_band_4 (P : Params) (a : Fin 8) (c : Fin 2) (f : Fin 1025) (t : Fin 4096) (h1 : 341 ≤ f.val) (h2 : f.val < 341 + 86) :
    Gp P (ix4 a c f t) = slab 172 86 rfl 4 P.x P.W4 P.b4 (ix4 a c (⟨f.val - 341, by omega⟩ : Fin 86) t) :=
  concatenate_apply_piece (t := SO) (2 : Fin 4) (pieces P) bands_concat (ix4 a c f t) 4 (show 4 < 12 by omega) ⟨4, ![8, 2, 86, 4096]⟩
    (slab 172 86 rfl 4 P.x P.W4 P.b4) rfl rfl 341 rfl (ix4 a c (⟨f.val - 341, by omega⟩ : Fin 86) t)
    (fun b hb => by
      match b with
      | ⟨0, _⟩ => rfl
      | ⟨1, _⟩ => rfl
      | ⟨2, _⟩ => exact absurd rfl hb
      | ⟨3, _⟩ => rfl)
    (by show 341 + (f.val - 341) = f.val; omega)

theorem G_band_5 (P : Params) (a : Fin 8) (c : Fin 2) (f : Fin 1025) (t : Fin 4096) (h1 : 427 ≤ f.val) (h2 : f.val < 427 + 85) :
    Gp P (ix4 a c f t) = slab 170 85 rfl 5 P.x P.W5 P.b5 (ix4 a c (⟨f.val - 427, by omega⟩ : Fin 85) t) :=
  concatenate_apply_piece (t := SO) (2 : Fin 4) (pieces P) bands_concat (ix4 a c f t) 5 (show 5 < 12 by omega) ⟨4, ![8, 2, 85, 4096]⟩
    (slab 170 85 rfl 5 P.x P.W5 P.b5) rfl rfl 427 rfl (ix4 a c (⟨f.val - 427, by omega⟩ : Fin 85) t)
    (fun b hb => by
      match b with
      | ⟨0, _⟩ => rfl
      | ⟨1, _⟩ => rfl
      | ⟨2, _⟩ => exact absurd rfl hb
      | ⟨3, _⟩ => rfl)
    (by show 427 + (f.val - 427) = f.val; omega)

theorem G_band_6 (P : Params) (a : Fin 8) (c : Fin 2) (f : Fin 1025) (t : Fin 4096) (h1 : 512 ≤ f.val) (h2 : f.val < 512 + 85) :
    Gp P (ix4 a c f t) = slab 170 85 rfl 6 P.x P.W6 P.b6 (ix4 a c (⟨f.val - 512, by omega⟩ : Fin 85) t) :=
  concatenate_apply_piece (t := SO) (2 : Fin 4) (pieces P) bands_concat (ix4 a c f t) 6 (show 6 < 12 by omega) ⟨4, ![8, 2, 85, 4096]⟩
    (slab 170 85 rfl 6 P.x P.W6 P.b6) rfl rfl 512 rfl (ix4 a c (⟨f.val - 512, by omega⟩ : Fin 85) t)
    (fun b hb => by
      match b with
      | ⟨0, _⟩ => rfl
      | ⟨1, _⟩ => rfl
      | ⟨2, _⟩ => exact absurd rfl hb
      | ⟨3, _⟩ => rfl)
    (by show 512 + (f.val - 512) = f.val; omega)

theorem G_band_7 (P : Params) (a : Fin 8) (c : Fin 2) (f : Fin 1025) (t : Fin 4096) (h1 : 597 ≤ f.val) (h2 : f.val < 597 + 86) :
    Gp P (ix4 a c f t) = slab 172 86 rfl 7 P.x P.W7 P.b7 (ix4 a c (⟨f.val - 597, by omega⟩ : Fin 86) t) :=
  concatenate_apply_piece (t := SO) (2 : Fin 4) (pieces P) bands_concat (ix4 a c f t) 7 (show 7 < 12 by omega) ⟨4, ![8, 2, 86, 4096]⟩
    (slab 172 86 rfl 7 P.x P.W7 P.b7) rfl rfl 597 rfl (ix4 a c (⟨f.val - 597, by omega⟩ : Fin 86) t)
    (fun b hb => by
      match b with
      | ⟨0, _⟩ => rfl
      | ⟨1, _⟩ => rfl
      | ⟨2, _⟩ => exact absurd rfl hb
      | ⟨3, _⟩ => rfl)
    (by show 597 + (f.val - 597) = f.val; omega)

theorem G_band_8 (P : Params) (a : Fin 8) (c : Fin 2) (f : Fin 1025) (t : Fin 4096) (h1 : 683 ≤ f.val) (h2 : f.val < 683 + 85) :
    Gp P (ix4 a c f t) = slab 170 85 rfl 8 P.x P.W8 P.b8 (ix4 a c (⟨f.val - 683, by omega⟩ : Fin 85) t) :=
  concatenate_apply_piece (t := SO) (2 : Fin 4) (pieces P) bands_concat (ix4 a c f t) 8 (show 8 < 12 by omega) ⟨4, ![8, 2, 85, 4096]⟩
    (slab 170 85 rfl 8 P.x P.W8 P.b8) rfl rfl 683 rfl (ix4 a c (⟨f.val - 683, by omega⟩ : Fin 85) t)
    (fun b hb => by
      match b with
      | ⟨0, _⟩ => rfl
      | ⟨1, _⟩ => rfl
      | ⟨2, _⟩ => exact absurd rfl hb
      | ⟨3, _⟩ => rfl)
    (by show 683 + (f.val - 683) = f.val; omega)

theorem G_band_9 (P : Params) (a : Fin 8) (c : Fin 2) (f : Fin 1025) (t : Fin 4096) (h1 : 768 ≤ f.val) (h2 : f.val < 768 + 86) :
    Gp P (ix4 a c f t) = slab 172 86 rfl 9 P.x P.W9 P.b9 (ix4 a c (⟨f.val - 768, by omega⟩ : Fin 86) t) :=
  concatenate_apply_piece (t := SO) (2 : Fin 4) (pieces P) bands_concat (ix4 a c f t) 9 (show 9 < 12 by omega) ⟨4, ![8, 2, 86, 4096]⟩
    (slab 172 86 rfl 9 P.x P.W9 P.b9) rfl rfl 768 rfl (ix4 a c (⟨f.val - 768, by omega⟩ : Fin 86) t)
    (fun b hb => by
      match b with
      | ⟨0, _⟩ => rfl
      | ⟨1, _⟩ => rfl
      | ⟨2, _⟩ => exact absurd rfl hb
      | ⟨3, _⟩ => rfl)
    (by show 768 + (f.val - 768) = f.val; omega)

theorem G_band_10 (P : Params) (a : Fin 8) (c : Fin 2) (f : Fin 1025) (t : Fin 4096) (h1 : 854 ≤ f.val) (h2 : f.val < 854 + 85) :
    Gp P (ix4 a c f t) = slab 170 85 rfl 10 P.x P.W10 P.b10 (ix4 a c (⟨f.val - 854, by omega⟩ : Fin 85) t) :=
  concatenate_apply_piece (t := SO) (2 : Fin 4) (pieces P) bands_concat (ix4 a c f t) 10 (show 10 < 12 by omega) ⟨4, ![8, 2, 85, 4096]⟩
    (slab 170 85 rfl 10 P.x P.W10 P.b10) rfl rfl 854 rfl (ix4 a c (⟨f.val - 854, by omega⟩ : Fin 85) t)
    (fun b hb => by
      match b with
      | ⟨0, _⟩ => rfl
      | ⟨1, _⟩ => rfl
      | ⟨2, _⟩ => exact absurd rfl hb
      | ⟨3, _⟩ => rfl)
    (by show 854 + (f.val - 854) = f.val; omega)

theorem G_band_11 (P : Params) (a : Fin 8) (c : Fin 2) (f : Fin 1025) (t : Fin 4096) (h1 : 939 ≤ f.val) (h2 : f.val < 939 + 86) :
    Gp P (ix4 a c f t) = slab 172 86 rfl 11 P.x P.W11 P.b11 (ix4 a c (⟨f.val - 939, by omega⟩ : Fin 86) t) :=
  concatenate_apply_piece (t := SO) (2 : Fin 4) (pieces P) bands_concat (ix4 a c f t) 11 (show 11 < 12 by omega) ⟨4, ![8, 2, 86, 4096]⟩
    (slab 172 86 rfl 11 P.x P.W11 P.b11) rfl rfl 939 rfl (ix4 a c (⟨f.val - 939, by omega⟩ : Fin 86) t)
    (fun b hb => by
      match b with
      | ⟨0, _⟩ => rfl
      | ⟨1, _⟩ => rfl
      | ⟨2, _⟩ => exact absurd rfl hb
      | ⟨3, _⟩ => rfl)
    (by show 939 + (f.val - 939) = f.val; omega)

/-- The kernel's array function of the launch arrays is the specification's result. -/
theorem bridge (P : Params) : K (bigY P) (bigA P) (bigV P) = Gp P := by
  funext i
  obtain ⟨a, c, f, t, rfl⟩ : ∃ (a : Fin 8) (c : Fin 2) (f : Fin 1025) (t : Fin 4096), i = ix4 a c f t :=
    ⟨i 0, i 1, i 2, i 3, eq_ix4 i⟩
  have hf := f.isLt
  by_cases h0 : f.val < 85
  · rw [K_band P 170 85 rfl 0 0 P.W0 P.b0 (fun c f g i h1 h2 => bandW_0 P c f g i h1 h2) (fun c f h1 h2 => bandB_0 P c f h1 h2) a c f t (by omega) (by omega),
      G_band_0 P a c f t (by omega) (by omega)]
  by_cases h1 : f.val < 170
  · rw [K_band P 170 85 rfl 1 85 P.W1 P.b1 (fun c f g i h1 h2 => bandW_1 P c f g i h1 h2) (fun c f h1 h2 => bandB_1 P c f h1 h2) a c f t (by omega) (by omega),
      G_band_1 P a c f t (by omega) (by omega)]
  by_cases h2 : f.val < 256
  · rw [K_band P 172 86 rfl 2 170 P.W2 P.b2 (fun c f g i h1 h2 => bandW_2 P c f g i h1 h2) (fun c f h1 h2 => bandB_2 P c f h1 h2) a c f t (by omega) (by omega),
      G_band_2 P a c f t (by omega) (by omega)]
  by_cases h3 : f.val < 341
  · rw [K_band P 170 85 rfl 3 256 P.W3 P.b3 (fun c f g i h1 h2 => bandW_3 P c f g i h1 h2) (fun c f h1 h2 => bandB_3 P c f h1 h2) a c f t (by omega) (by omega),
      G_band_3 P a c f t (by omega) (by omega)]
  by_cases h4 : f.val < 427
  · rw [K_band P 172 86 rfl 4 341 P.W4 P.b4 (fun c f g i h1 h2 => bandW_4 P c f g i h1 h2) (fun c f h1 h2 => bandB_4 P c f h1 h2) a c f t (by omega) (by omega),
      G_band_4 P a c f t (by omega) (by omega)]
  by_cases h5 : f.val < 512
  · rw [K_band P 170 85 rfl 5 427 P.W5 P.b5 (fun c f g i h1 h2 => bandW_5 P c f g i h1 h2) (fun c f h1 h2 => bandB_5 P c f h1 h2) a c f t (by omega) (by omega),
      G_band_5 P a c f t (by omega) (by omega)]
  by_cases h6 : f.val < 597
  · rw [K_band P 170 85 rfl 6 512 P.W6 P.b6 (fun c f g i h1 h2 => bandW_6 P c f g i h1 h2) (fun c f h1 h2 => bandB_6 P c f h1 h2) a c f t (by omega) (by omega),
      G_band_6 P a c f t (by omega) (by omega)]
  by_cases h7 : f.val < 683
  · rw [K_band P 172 86 rfl 7 597 P.W7 P.b7 (fun c f g i h1 h2 => bandW_7 P c f g i h1 h2) (fun c f h1 h2 => bandB_7 P c f h1 h2) a c f t (by omega) (by omega),
      G_band_7 P a c f t (by omega) (by omega)]
  by_cases h8 : f.val < 768
  · rw [K_band P 170 85 rfl 8 683 P.W8 P.b8 (fun c f g i h1 h2 => bandW_8 P c f g i h1 h2) (fun c f h1 h2 => bandB_8 P c f h1 h2) a c f t (by omega) (by omega),
      G_band_8 P a c f t (by omega) (by omega)]
  by_cases h9 : f.val < 854
  · rw [K_band P 172 86 rfl 9 768 P.W9 P.b9 (fun c f g i h1 h2 => bandW_9 P c f g i h1 h2) (fun c f h1 h2 => bandB_9 P c f h1 h2) a c f t (by omega) (by omega),
      G_band_9 P a c f t (by omega) (by omega)]
  by_cases h10 : f.val < 939
  · rw [K_band P 170 85 rfl 10 854 P.W10 P.b10 (fun c f g i h1 h2 => bandW_10 P c f g i h1 h2) (fun c f h1 h2 => bandB_10 P c f h1 h2) a c f t (by omega) (by omega),
      G_band_10 P a c f t (by omega) (by omega)]
  rw [K_band P 172 86 rfl 11 939 P.W11 P.b11 (fun c f g i h1 h2 => bandW_11 P c f g i h1 h2) (fun c f h1 h2 => bandB_11 P c f h1 h2) a c f t (by omega) (by omega),
    G_band_11 P a c f t (by omega) (by omega)]

end Cert.Bridge

end
-- ==== Proof.lean ====
/-
  A band-merging linear layer: the kernel against its reference, on the extended reals.

  The input x[8, 384, 1, 4096] carries 12 bands of 32 groups (channel = g * 12 + j). The reference applies to band j its
  own matrix W_j (2 w rows, 32 columns; w = 85 or 86 is the band's width) and vector b_j, regroups the 2 w output rows as
  (c, f'), and sets the twelve results side by side along a frequency axis of extent 1025. The kernel first folds the
  twelve matrices into one matrix of shape [2050, 384] — row c * 1025 + f, column g * 12 + i, zero outside the band that f
  belongs to — and the twelve vectors into one column, and then computes, per batch and per tile of 256 times, one
  matrix product plus the column.

  The two results are the same function of the arguments, element by element: at a frequency of band j the big matrix's
  row is zero outside band j's 32 columns, zero times anything is zero, and the order of a finite sum does not matter,
  so the sum over 384 columns is the reference's sum over 32 groups. No finiteness of the inputs is needed for that.

  The modules: Spec (the result as one function), RefIsSpec (the reference computes it), KernelSpec and KernelArray
  (the kernel's run leaves the matrix product plus column of the three launch arrays in the output array), ScatterBand
  and HostArrays (what the launch arrays hold, read at one element), HostRead (the host operations ahead of the region
  compose to those arrays), Bridge (the matrix product of the launch arrays is the specification's result).
-/
import proofs.«145164_j67224828117616_2_alg».proof.Defs
import proofs.«145164_j67224828117616_2_alg».proof.Proof.Gen.Kernel
import proofs.«145164_j67224828117616_2_alg».proof.Proof.Gen.Kernel.Skeleton
import proofs.«145164_j67224828117616_2_alg».proof.Proof.Gen.Kernel.Launch
import proofs.«145164_j67224828117616_2_alg».proof.Proof.Gen.Kernel.Points
import proofs.«145164_j67224828117616_2_alg».proof.Proof.Gen.Kernel.Frame
import proofs.«145164_j67224828117616_2_alg».proof.Proof.Gen.KernelIdeal
import proofs.«145164_j67224828117616_2_alg».proof.Proof.Gen.KernelIdeal.Skeleton
import proofs.«145164_j67224828117616_2_alg».proof.Proof.Gen.KernelIdeal.Launch
import proofs.«145164_j67224828117616_2_alg».proof.Proof.Gen.KernelIdeal.Points
import proofs.«145164_j67224828117616_2_alg».proof.Proof.Gen.KernelIdeal.Frame
import proofs.«145164_j67224828117616_2_alg».proof.Proof.Gen.ReferenceIdeal
import proofs.«145164_j67224828117616_2_alg».proof.Proof.Gen.Pre_finite_inputs
import proofs.«145164_j67224828117616_2_alg».proof.Proof.Gen.KernelIdeal.Value
import proofs.«145164_j67224828117616_2_alg».proof.Proof.Gen.ReferenceIdeal.Run
import proofs.«145164_j67224828117616_2_alg».proof.Proof.Gen.ReferenceIdeal.Read
import proofs.«145164_j67224828117616_2_alg».proof.Proof.RefIsSpec
import proofs.«145164_j67224828117616_2_alg».proof.Proof.KernelArray
import proofs.«145164_j67224828117616_2_alg».proof.Proof.HostRead
import proofs.«145164_j67224828117616_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's output array ends at the matrix product plus column of its launch arrays, which is
    the specification's result of the arguments; the reference's result is the specification's result of its own
    arguments, which agree with the kernel's. -/
theorem algebraic : Cert.algebraic_KernelIdeal_ReferenceIdeal := by
  intro m ρ m' ρ' _ hagree
  refine ⟨fun c => Cert.Bridge.Gp (Cert.HostRead.params m c), ?_, ?_⟩
  · refine (θ_run Cert.KernelIdeal.defs _ _).mono (fun r h c => ⟨(h c).1.trans ?_, (h c).2⟩) (Cert.KernelArray.run m ρ)
    rw [Cert.HostRead.V_y m c, Cert.HostRead.V_A m c, Cert.HostRead.V_v m c]
    exact Cert.Bridge.bridge _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v98_eq, Cert.RefIsSpec.ref_eq]
    obtain ⟨e0, e1, e2, e3, e4, e5, e6, e7, e8, e9, e10, e11, e12, e13, e14, e15, e16, e17, e18, e19, e20, e21, e22, e23, e24⟩ := hagree c
    rw [e0, e1, e2, e3, e4, e5, e6, e7, e8, e9, e10, e11, e12, e13, e14, e15, e16, e17, e18, e19, e20, e21, e22, e23, e24]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
